-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v107)) (v1 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_v110) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_v177) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x4 : Shape := ⟨2, ![1600000, 4]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x4 : S_.BroadcastsInDim S1600000x4 (![] : Fin 0 → Fin S1600000x4.rank)
  reducesTo_S1600000x4_S_d0_1 : S1600000x4.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S64x128 .f32) (main_arg11 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128x128 .f32) (main_arg6 : FVec F S128x128 .f32) (main_arg7 : FVec F S128x128 .f32) (main_arg8 : FVec F S128 .f32) (main_arg9 : FVec F S128 .f32) (main_arg10 : FVec F S64x128 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S1600000x4 .f32) (main_arg3 : FVec F S128x128 .f32) (main_arg4 : FVec F S128 .f32) (main_arg5 : FVec F S128x128 .f32) (main_arg6 : FVec F S128x128 .f32) (main_arg7 : FVec F S128x128 .f32) (main_arg8 : FVec F S128 .f32) (main_arg9 : FVec F S128 .f32) (main_arg10 : FVec F S64x128 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x4 .f32 := Host.absf main_arg2
  let main_cst_0 : FVec F S_ .f32 := constant S_ .f32 0x7F800000#32
  let main_v5 : FVec F S1600000x4 .f32 := broadcastInDim S1600000x4 ![] bcast_S_S1600000x4 main_cst_0
  let main_v6 : IVec S1600000x4 1 := cmpf .olt main_v4 main_v5
  let main_c_1 : IVec S_ 1 := constantI S_ 1 1#1
  let main_v7 : IVec S_ 1 := (fun x v => Host.reduce IntOp.andi x v reducesTo_S1600000x4_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S1600000x4 : Shape := ⟨2, ![1600000, 4]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1600000x1 : Shape := ⟨2, ![1600000, 1]⟩
abbrev S1600000 : Shape := ⟨1, ![1600000]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S5000x128 : Shape := ⟨2, ![5000, 128]⟩
abbrev S1700000x128 : Shape := ⟨2, ![1700000, 128]⟩
abbrev S128x64 : Shape := ⟨2, ![128, 64]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 215
  | .vmem => 57
  | .smem => 0
  | _ => 0

abbrev hbmTy0_0 (i : Nat) : BufTy := match i % 128 with
  | 0 => ⟨S100000x128, .f32⟩
  | 1 => ⟨S2x1600000, .i32⟩
  | 2 => ⟨S1600000x4, .f32⟩
  | 3 => ⟨S128x128, .f32⟩
  | 4 => ⟨S128, .f32⟩
  | 5 => ⟨S128x128, .f32⟩
  | 6 => ⟨S128x128, .f32⟩
  | 7 => ⟨S128x128, .f32⟩
  | 8 => ⟨S128, .f32⟩
  | 9 => ⟨S128, .f32⟩
  | 10 => ⟨S64x128, .f32⟩
  | 11 => ⟨S64, .f32⟩
  | 12 => ⟨S1600000x1, .f32⟩
  | 13 => ⟨S1600000, .f32⟩
  | 14 => ⟨S1x1600000, .i32⟩
  | 15 => ⟨S1600000, .i32⟩
  | 16 => ⟨S1x1600000, .i32⟩
  | 17 => ⟨S1600000, .i32⟩
  | 18 => ⟨S100000, .i32⟩
  | 19 => ⟨S1700000, .i32⟩
  | 20 => ⟨S1700000, .i32⟩
  | 21 => ⟨S_, .f32⟩
  | 22 => ⟨S100000, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S1700000, .f32⟩
  | 59 => ⟨S128x128, .f32⟩
  | 60 => ⟨S1x128, .f32⟩
  | 61 => ⟨S100000x128, .f32⟩
  | 62 => ⟨S1700000x1, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1700000x128, .f32⟩
  | 72 => ⟨S1700000x128, .f32⟩
  | 73 => ⟨S1700000x128, .f32⟩
  | 74 => ⟨S_, .f32⟩
  | 75 => ⟨S100000x128, .f32⟩
  | 76 => ⟨S1700000x1, .i32⟩
  | 77 => ⟨S100000x128, .f32⟩
  | 78 => ⟨S100000x128, .f32⟩
  | 79 => ⟨S_, .f32⟩
  | 80 => ⟨S128, .f32⟩
  | 81 => ⟨S_, .f32⟩
  | 82 => ⟨S128, .f32⟩
  | 83 => ⟨S128, .f32⟩
  | 84 => ⟨S_, .i32⟩
  | 85 => ⟨S_, .f32⟩
  | 86 => ⟨S128, .f32⟩
  | 87 => ⟨S1x128, .f32⟩
  | 88 => ⟨S_, .f32⟩
  | 89 => ⟨S1x128, .f32⟩
  | 90 => ⟨S1x128, .f32⟩
  | 91 => ⟨S100000x128, .f32⟩
  | 92 => ⟨S100000x128, .f32⟩
  | 93 => ⟨S100000x128, .f32⟩
  | 94 => ⟨S_, .f32⟩
  | 95 => ⟨S_, .f32⟩
  | 96 => ⟨S_, .f32⟩
  | 97 => ⟨S_, .f32⟩
  | 98 => ⟨S128, .f32⟩
  | 99 => ⟨S128, .f32⟩
  | 100 => ⟨S128, .f32⟩
  | 101 => ⟨S_, .f32⟩
  | 102 => ⟨S_, .i1⟩
  | 103 => ⟨S_, .f32⟩
  | 104 => ⟨S_, .f32⟩
  | 105 => ⟨S128, .f32⟩
  | 106 => ⟨S128, .f32⟩
  | 107 => ⟨S1x128, .f32⟩
  | 108 => ⟨S1x128, .f32⟩
  | 109 => ⟨S1x128, .f32⟩
  | 110 => ⟨S1x128, .f32⟩
  | 111 => ⟨S100000x128, .f32⟩
  | 112 => ⟨S1700000x1, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x128, .f32⟩
  | 122 => ⟨S1700000x128, .f32⟩
  | 123 => ⟨S1700000x128, .f32⟩
  | 124 => ⟨S_, .f32⟩
  | 125 => ⟨S100000x128, .f32⟩
  | 126 => ⟨S1700000x1, .i32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S128, .f32⟩
  | 3 => ⟨S_, .f32⟩
  | 4 => ⟨S128, .f32⟩
  | 5 => ⟨S128, .f32⟩
  | 6 => ⟨S_, .i32⟩
  | 7 => ⟨S_, .f32⟩
  | 8 => ⟨S128, .f32⟩
  | 9 => ⟨S1x128, .f32⟩
  | 10 => ⟨S_, .f32⟩
  | 11 => ⟨S1x128, .f32⟩
  | 12 => ⟨S1x128, .f32⟩
  | 13 => ⟨S100000x128, .f32⟩
  | 14 => ⟨S100000x128, .f32⟩
  | 15 => ⟨S100000x128, .f32⟩
  | 16 => ⟨S_, .f32⟩
  | 17 => ⟨S_, .f32⟩
  | 18 => ⟨S_, .f32⟩
  | 19 => ⟨S_, .f32⟩
  | 20 => ⟨S128, .f32⟩
  | 21 => ⟨S128, .f32⟩
  | 22 => ⟨S128, .f32⟩
  | 23 => ⟨S_, .f32⟩
  | 24 => ⟨S_, .i1⟩
  | 25 => ⟨S_, .f32⟩
  | 26 => ⟨S_, .f32⟩
  | 27 => ⟨S128, .f32⟩
  | 28 => ⟨S128, .f32⟩
  | 29 => ⟨S1x128, .f32⟩
  | 30 => ⟨S1x128, .f32⟩
  | 31 => ⟨S1x128, .f32⟩
  | 32 => ⟨S1x128, .f32⟩
  | 33 => ⟨S100000x128, .f32⟩
  | 34 => ⟨S1700000x1, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000x128, .f32⟩
  | 44 => ⟨S1700000x128, .f32⟩
  | 45 => ⟨S1700000x128, .f32⟩
  | 46 => ⟨S_, .f32⟩
  | 47 => ⟨S100000x128, .f32⟩
  | 48 => ⟨S1700000x1, .i32⟩
  | 49 => ⟨S100000x128, .f32⟩
  | 50 => ⟨S100000x128, .f32⟩
  | 51 => ⟨S_, .f32⟩
  | 52 => ⟨S128, .f32⟩
  | 53 => ⟨S_, .f32⟩
  | 54 => ⟨S128, .f32⟩
  | 55 => ⟨S128, .f32⟩
  | 56 => ⟨S_, .i32⟩
  | 57 => ⟨S_, .f32⟩
  | 58 => ⟨S128, .f32⟩
  | 59 => ⟨S1x128, .f32⟩
  | 60 => ⟨S_, .f32⟩
  | 61 => ⟨S1x128, .f32⟩
  | 62 => ⟨S1x128, .f32⟩
  | 63 => ⟨S100000x128, .f32⟩
  | 64 => ⟨S100000x128, .f32⟩
  | 65 => ⟨S100000x128, .f32⟩
  | 66 => ⟨S_, .f32⟩
  | 67 => ⟨S_, .f32⟩
  | 68 => ⟨S_, .f32⟩
  | 69 => ⟨S_, .f32⟩
  | 70 => ⟨S128, .f32⟩
  | 71 => ⟨S128, .f32⟩
  | 72 => ⟨S128, .f32⟩
  | 73 => ⟨S_, .f32⟩
  | 74 => ⟨S_, .i1⟩
  | 75 => ⟨S_, .f32⟩
  | 76 => ⟨S_, .f32⟩
  | 77 => ⟨S128, .f32⟩
  | 78 => ⟨S128, .f32⟩
  | 79 => ⟨S1x128, .f32⟩
  | 80 => ⟨S1x128, .f32⟩
  | 81 => ⟨S1x128, .f32⟩
  | 82 => ⟨S1x128, .f32⟩
  | 83 => ⟨S100000x128, .f32⟩
  | 84 => ⟨S128x64, .f32⟩
  | 85 => ⟨S1x64, .f32⟩
  | 86 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S128x64, .f32⟩
  | .local _ .vmem, ⟨54, _⟩ => ⟨S1x64, .f32⟩
  | .local _ .vmem, ⟨55, _⟩ => ⟨S5000x64, .f32⟩
  | .local _ .vmem, ⟨56, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_7 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_c_12 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_cst_0 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_cst_1 : Ref sig .tc := ⟨.hbm, 95, rfl⟩
abbrev main_call1_v8 : Ref sig .tc := ⟨.hbm, 96, rfl⟩
abbrev main_call1_cst_2 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_cst_3 : Ref sig .tc := ⟨.hbm, 101, rfl⟩
abbrev main_call1_v12 : Ref sig .tc := ⟨.hbm, 102, rfl⟩
abbrev main_call1_cst_4 : Ref sig .tc := ⟨.hbm, 103, rfl⟩
abbrev main_call1_call0_v0 : Ref sig .tc := ⟨.hbm, 104, rfl⟩
abbrev main_call1_call0_v1 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_c_13 : Ref sig .tc := ⟨.hbm, 113, rfl⟩
abbrev main_v63 : Ref sig .tc := ⟨.hbm, 114, rfl⟩
abbrev main_v64 : Ref sig .tc := ⟨.hbm, 115, rfl⟩
abbrev main_c_14 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_15 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_cst_16 : Ref sig .tc := ⟨.hbm, 129, rfl⟩
abbrev main_v76 : Ref sig .tc := ⟨.hbm, 130, rfl⟩
abbrev main_cst_17 : Ref sig .tc := ⟨.hbm, 131, rfl⟩
abbrev main_v77 : Ref sig .tc := ⟨.hbm, 132, rfl⟩
abbrev main_v78 : Ref sig .tc := ⟨.hbm, 133, rfl⟩
abbrev main_c_18 : Ref sig .tc := ⟨.hbm, 134, rfl⟩
abbrev main_call2_cst : Ref sig .tc := ⟨.hbm, 135, rfl⟩
abbrev main_call2_v0 : Ref sig .tc := ⟨.hbm, 136, rfl⟩
abbrev main_call2_v1 : Ref sig .tc := ⟨.hbm, 137, rfl⟩
abbrev main_call2_cst_0 : Ref sig .tc := ⟨.hbm, 138, rfl⟩
abbrev main_call2_v2 : Ref sig .tc := ⟨.hbm, 139, rfl⟩
abbrev main_call2_v3 : Ref sig .tc := ⟨.hbm, 140, rfl⟩
abbrev main_call2_v4 : Ref sig .tc := ⟨.hbm, 141, rfl⟩
abbrev main_call2_v5 : Ref sig .tc := ⟨.hbm, 142, rfl⟩
abbrev main_call2_v6 : Ref sig .tc := ⟨.hbm, 143, rfl⟩
abbrev main_call2_v7 : Ref sig .tc := ⟨.hbm, 144, rfl⟩
abbrev main_call2_cst_1 : Ref sig .tc := ⟨.hbm, 145, rfl⟩
abbrev main_call2_v8 : Ref sig .tc := ⟨.hbm, 146, rfl⟩
abbrev main_call2_cst_2 : Ref sig .tc := ⟨.hbm, 147, rfl⟩
abbrev main_call2_v9 : Ref sig .tc := ⟨.hbm, 148, rfl⟩
abbrev main_call2_v10 : Ref sig .tc := ⟨.hbm, 149, rfl⟩
abbrev main_call2_v11 : Ref sig .tc := ⟨.hbm, 150, rfl⟩
abbrev main_call2_cst_3 : Ref sig .tc := ⟨.hbm, 151, rfl⟩
abbrev main_call2_v12 : Ref sig .tc := ⟨.hbm, 152, rfl⟩
abbrev main_call2_cst_4 : Ref sig .tc := ⟨.hbm, 153, rfl⟩
abbrev main_call2_call0_v0 : Ref sig .tc := ⟨.hbm, 154, rfl⟩
abbrev main_call2_call0_v1 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_c_19 : Ref sig .tc := ⟨.hbm, 163, rfl⟩
abbrev main_v86 : Ref sig .tc := ⟨.hbm, 164, rfl⟩
abbrev main_v87 : Ref sig .tc := ⟨.hbm, 165, rfl⟩
abbrev main_c_20 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_cst_21 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_cst_22 : Ref sig .tc := ⟨.hbm, 179, rfl⟩
abbrev main_v99 : Ref sig .tc := ⟨.hbm, 180, rfl⟩
abbrev main_cst_23 : Ref sig .tc := ⟨.hbm, 181, rfl⟩
abbrev main_v100 : Ref sig .tc := ⟨.hbm, 182, rfl⟩
abbrev main_v101 : Ref sig .tc := ⟨.hbm, 183, rfl⟩
abbrev main_c_24 : Ref sig .tc := ⟨.hbm, 184, rfl⟩
abbrev main_call3_cst : Ref sig .tc := ⟨.hbm, 185, rfl⟩
abbrev main_call3_v0 : Ref sig .tc := ⟨.hbm, 186, rfl⟩
abbrev main_call3_v1 : Ref sig .tc := ⟨.hbm, 187, rfl⟩
abbrev main_call3_cst_0 : Ref sig .tc := ⟨.hbm, 188, rfl⟩
abbrev main_call3_v2 : Ref sig .tc := ⟨.hbm, 189, rfl⟩
abbrev main_call3_v3 : Ref sig .tc := ⟨.hbm, 190, rfl⟩
abbrev main_call3_v4 : Ref sig .tc := ⟨.hbm, 191, rfl⟩
abbrev main_call3_v5 : Ref sig .tc := ⟨.hbm, 192, rfl⟩
abbrev main_call3_v6 : Ref sig .tc := ⟨.hbm, 193, rfl⟩
abbrev main_call3_v7 : Ref sig .tc := ⟨.hbm, 194, rfl⟩
abbrev main_call3_cst_1 : Ref sig .tc := ⟨.hbm, 195, rfl⟩
abbrev main_call3_v8 : Ref sig .tc := ⟨.hbm, 196, rfl⟩
abbrev main_call3_cst_2 : Ref sig .tc := ⟨.hbm, 197, rfl⟩
abbrev main_call3_v9 : Ref sig .tc := ⟨.hbm, 198, rfl⟩
abbrev main_call3_v10 : Ref sig .tc := ⟨.hbm, 199, rfl⟩
abbrev main_call3_v11 : Ref sig .tc := ⟨.hbm, 200, rfl⟩
abbrev main_call3_cst_3 : Ref sig .tc := ⟨.hbm, 201, rfl⟩
abbrev main_call3_v12 : Ref sig .tc := ⟨.hbm, 202, rfl⟩
abbrev main_call3_cst_4 : Ref sig .tc := ⟨.hbm, 203, rfl⟩
abbrev main_call3_call0_v0 : Ref sig .tc := ⟨.hbm, 204, rfl⟩
abbrev main_call3_call0_v1 : Ref sig .tc := ⟨.hbm, 205, rfl⟩
abbrev main_v102 : Ref sig .tc := ⟨.hbm, 206, rfl⟩
abbrev main_v103 : Ref sig .tc := ⟨.hbm, 207, rfl⟩
abbrev main_v104 : Ref sig .tc := ⟨.hbm, 208, rfl⟩
abbrev main_v105 : Ref sig .tc := ⟨.hbm, 209, rfl⟩
abbrev main_v106 : Ref sig .tc := ⟨.hbm, 210, rfl⟩
abbrev main_v107 : Ref sig .tc := ⟨.hbm, 211, rfl⟩
abbrev main_v108 : Ref sig .tc := ⟨.hbm, 212, rfl⟩
abbrev main_v109 : Ref sig .tc := ⟨.hbm, 213, rfl⟩
abbrev main_v110 : Ref sig .tc := ⟨.hbm, 214, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg5_0 : Ref sig .tc := ⟨.vmem, 49, rfl⟩
abbrev cc6_stg5_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg3_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem3_1 : DmaSem sig := 42
abbrev cc6_sem0_0 : DmaSem sig := 43
abbrev cc6_sem0_1 : DmaSem sig := 44
abbrev cc6_sem1_0 : DmaSem sig := 45
abbrev cc6_sem2_0 : DmaSem sig := 46
abbrev cc6_sem3_0 : DmaSem sig := 47
abbrev cc6_sem4_0 : DmaSem sig := 48
abbrev cc6_sem5_0 : DmaSem sig := 49
abbrev cc6_sem5_1 : DmaSem sig := 50
abbrev cc7_sem0_0 : DmaSem sig := 51
abbrev cc7_sem0_1 : DmaSem sig := 52
abbrev cc7_sem1_0 : DmaSem sig := 53
abbrev cc7_sem2_0 : DmaSem sig := 54
abbrev cc7_sem3_0 : DmaSem sig := 55
abbrev cc7_sem3_1 : DmaSem sig := 56

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S1600000x4_S1600000x1_0_3 : S1600000x4.Slices ![0, 3] S1600000x1
  shapeCasts_S1600000x1_S1600000 : S1600000x1.ShapeCasts S1600000
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S100000x128.size a
  hwx6_5 : ∀ i : grid6.Coords, EltTy.bits .f32 = 32 ∨ (Rect.block (s := S100000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S100000x64.size a
  hwx7_3 : ∀ i : grid7.Coords, EltTy.bits .f32 = 32 ∨ (Rect.block (s := S100000x64) S5000x64.size (cc7_transform_3 i) (hinb7_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v51) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v74) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v75) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v81) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v82) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v83) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v84) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v97) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v38) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v98) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v98) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v103) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v104) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v105) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v106) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v107) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v107) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v108) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v109) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v110) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x4 : Shape := ⟨2, ![1600000, 4]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1600000x1 : Shape := ⟨2, ![1600000, 1]⟩
abbrev S1600000 : Shape := ⟨1, ![1600000]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S1700000x128 : Shape := ⟨2, ![1700000, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 303
  | .vmem => 0
  | .smem => 0
  | _ => 0

abbrev hbmTy0_0 (i : Nat) : BufTy := match i % 128 with
  | 0 => ⟨S100000x128, .f32⟩
  | 1 => ⟨S2x1600000, .i32⟩
  | 2 => ⟨S1600000x4, .f32⟩
  | 3 => ⟨S128x128, .f32⟩
  | 4 => ⟨S128, .f32⟩
  | 5 => ⟨S128x128, .f32⟩
  | 6 => ⟨S128x128, .f32⟩
  | 7 => ⟨S128x128, .f32⟩
  | 8 => ⟨S128, .f32⟩
  | 9 => ⟨S128, .f32⟩
  | 10 => ⟨S64x128, .f32⟩
  | 11 => ⟨S64, .f32⟩
  | 12 => ⟨S1600000x1, .f32⟩
  | 13 => ⟨S1600000, .f32⟩
  | 14 => ⟨S1x1600000, .i32⟩
  | 15 => ⟨S1600000, .i32⟩
  | 16 => ⟨S1x1600000, .i32⟩
  | 17 => ⟨S1600000, .i32⟩
  | 18 => ⟨S100000, .i32⟩
  | 19 => ⟨S1700000, .i32⟩
  | 20 => ⟨S1700000, .i32⟩
  | 21 => ⟨S_, .f32⟩
  | 22 => ⟨S100000, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S1700000, .f32⟩
  | 59 => ⟨S128x128, .f32⟩
  | 60 => ⟨S100000x128, .f32⟩
  | 61 => ⟨S1x128, .f32⟩
  | 62 => ⟨S100000x128, .f32⟩
  | 63 => ⟨S100000x128, .f32⟩
  | 64 => ⟨S1700000x1, .f32⟩
  | 65 => ⟨S_, .i32⟩
  | 66 => ⟨S1700000, .i32⟩
  | 67 => ⟨S1700000, .i1⟩
  | 68 => ⟨S_, .i32⟩
  | 69 => ⟨S1700000, .i32⟩
  | 70 => ⟨S1700000, .i32⟩
  | 71 => ⟨S1700000, .i32⟩
  | 72 => ⟨S1700000x1, .i32⟩
  | 73 => ⟨S1700000x128, .f32⟩
  | 74 => ⟨S1700000x128, .f32⟩
  | 75 => ⟨S1700000x128, .f32⟩
  | 76 => ⟨S_, .f32⟩
  | 77 => ⟨S100000x128, .f32⟩
  | 78 => ⟨S1700000x1, .i32⟩
  | 79 => ⟨S100000x128, .f32⟩
  | 80 => ⟨S_, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S100000x128, .f32⟩
  | 95 => ⟨S_, .f32⟩
  | 96 => ⟨S128, .f32⟩
  | 97 => ⟨S_, .f32⟩
  | 98 => ⟨S128, .f32⟩
  | 99 => ⟨S128, .f32⟩
  | 100 => ⟨S_, .i32⟩
  | 101 => ⟨S_, .f32⟩
  | 102 => ⟨S128, .f32⟩
  | 103 => ⟨S1x128, .f32⟩
  | 104 => ⟨S_, .f32⟩
  | 105 => ⟨S1x128, .f32⟩
  | 106 => ⟨S1x128, .f32⟩
  | 107 => ⟨S100000x128, .f32⟩
  | 108 => ⟨S100000x128, .f32⟩
  | 109 => ⟨S100000x128, .f32⟩
  | 110 => ⟨S_, .f32⟩
  | 111 => ⟨S_, .f32⟩
  | 112 => ⟨S_, .f32⟩
  | 113 => ⟨S_, .f32⟩
  | 114 => ⟨S128, .f32⟩
  | 115 => ⟨S128, .f32⟩
  | 116 => ⟨S128, .f32⟩
  | 117 => ⟨S_, .f32⟩
  | 118 => ⟨S_, .i1⟩
  | 119 => ⟨S_, .f32⟩
  | 120 => ⟨S_, .f32⟩
  | 121 => ⟨S128, .f32⟩
  | 122 => ⟨S128, .f32⟩
  | 123 => ⟨S1x128, .f32⟩
  | 124 => ⟨S100000x128, .f32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S128, .f32⟩
  | 3 => ⟨S128, .f32⟩
  | 4 => ⟨S128, .f32⟩
  | 5 => ⟨S1x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S1700000x1, .f32⟩
  | 15 => ⟨S_, .i32⟩
  | 16 => ⟨S1700000, .i32⟩
  | 17 => ⟨S1700000, .i1⟩
  | 18 => ⟨S_, .i32⟩
  | 19 => ⟨S1700000, .i32⟩
  | 20 => ⟨S1700000, .i32⟩
  | 21 => ⟨S1700000, .i32⟩
  | 22 => ⟨S1700000x1, .i32⟩
  | 23 => ⟨S1700000x128, .f32⟩
  | 24 => ⟨S1700000x128, .f32⟩
  | 25 => ⟨S1700000x128, .f32⟩
  | 26 => ⟨S_, .f32⟩
  | 27 => ⟨S100000x128, .f32⟩
  | 28 => ⟨S1700000x1, .i32⟩
  | 29 => ⟨S100000x128, .f32⟩
  | 30 => ⟨S_, .f32⟩
  | 31 => ⟨S100000x128, .f32⟩
  | 32 => ⟨S100000x128, .f32⟩
  | 33 => ⟨S_, .f32⟩
  | 34 => ⟨S100000x128, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S100000x128, .f32⟩
  | 41 => ⟨S_, .f32⟩
  | 42 => ⟨S100000x128, .f32⟩
  | 43 => ⟨S100000x128, .f32⟩
  | 44 => ⟨S100000x128, .f32⟩
  | 45 => ⟨S_, .f32⟩
  | 46 => ⟨S128, .f32⟩
  | 47 => ⟨S_, .f32⟩
  | 48 => ⟨S128, .f32⟩
  | 49 => ⟨S128, .f32⟩
  | 50 => ⟨S_, .i32⟩
  | 51 => ⟨S_, .f32⟩
  | 52 => ⟨S128, .f32⟩
  | 53 => ⟨S1x128, .f32⟩
  | 54 => ⟨S_, .f32⟩
  | 55 => ⟨S1x128, .f32⟩
  | 56 => ⟨S1x128, .f32⟩
  | 57 => ⟨S100000x128, .f32⟩
  | 58 => ⟨S100000x128, .f32⟩
  | 59 => ⟨S100000x128, .f32⟩
  | 60 => ⟨S_, .f32⟩
  | 61 => ⟨S_, .f32⟩
  | 62 => ⟨S_, .f32⟩
  | 63 => ⟨S_, .f32⟩
  | 64 => ⟨S128, .f32⟩
  | 65 => ⟨S128, .f32⟩
  | 66 => ⟨S128, .f32⟩
  | 67 => ⟨S_, .f32⟩
  | 68 => ⟨S_, .i1⟩
  | 69 => ⟨S_, .f32⟩
  | 70 => ⟨S_, .f32⟩
  | 71 => ⟨S128, .f32⟩
  | 72 => ⟨S128, .f32⟩
  | 73 => ⟨S1x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S128, .f32⟩
  | 81 => ⟨S128, .f32⟩
  | 82 => ⟨S128, .f32⟩
  | 83 => ⟨S1x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S1700000x1, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000x128, .f32⟩
  | 102 => ⟨S1700000x128, .f32⟩
  | 103 => ⟨S1700000x128, .f32⟩
  | 104 => ⟨S_, .f32⟩
  | 105 => ⟨S100000x128, .f32⟩
  | 106 => ⟨S1700000x1, .i32⟩
  | 107 => ⟨S100000x128, .f32⟩
  | 108 => ⟨S_, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S100000x128, .f32⟩
  | 123 => ⟨S_, .f32⟩
  | 124 => ⟨S128, .f32⟩
  | 125 => ⟨S_, .f32⟩
  | 126 => ⟨S128, .f32⟩
  | 127 => ⟨S128, .f32⟩
  | _ => ⟨S100000x128, .f32⟩

abbrev hbmTy0_2 (i : Nat) : BufTy := match i % 128 with
  | 0 => ⟨S_, .i32⟩
  | 1 => ⟨S_, .f32⟩
  | 2 => ⟨S128, .f32⟩
  | 3 => ⟨S1x128, .f32⟩
  | 4 => ⟨S_, .f32⟩
  | 5 => ⟨S1x128, .f32⟩
  | 6 => ⟨S1x128, .f32⟩
  | 7 => ⟨S100000x128, .f32⟩
  | 8 => ⟨S100000x128, .f32⟩
  | 9 => ⟨S100000x128, .f32⟩
  | 10 => ⟨S_, .f32⟩
  | 11 => ⟨S_, .f32⟩
  | 12 => ⟨S_, .f32⟩
  | 13 => ⟨S_, .f32⟩
  | 14 => ⟨S128, .f32⟩
  | 15 => ⟨S128, .f32⟩
  | 16 => ⟨S128, .f32⟩
  | 17 => ⟨S_, .f32⟩
  | 18 => ⟨S_, .i1⟩
  | 19 => ⟨S_, .f32⟩
  | 20 => ⟨S_, .f32⟩
  | 21 => ⟨S128, .f32⟩
  | 22 => ⟨S128, .f32⟩
  | 23 => ⟨S1x128, .f32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S_, .f32⟩
  | 30 => ⟨S128, .f32⟩
  | 31 => ⟨S128, .f32⟩
  | 32 => ⟨S128, .f32⟩
  | 33 => ⟨S1x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S128x64, .f32⟩
  | 43 => ⟨S100000x64, .f32⟩
  | 44 => ⟨S1x64, .f32⟩
  | 45 => ⟨S100000x64, .f32⟩
  | 46 => ⟨S100000x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_7 : Ref sig .tc := ⟨.hbm, 65, rfl⟩
abbrev main_v42 : Ref sig .tc := ⟨.hbm, 66, rfl⟩
abbrev main_v43 : Ref sig .tc := ⟨.hbm, 67, rfl⟩
abbrev main_c_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_13 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_14 : Ref sig .tc := ⟨.hbm, 95, rfl⟩
abbrev main_v65 : Ref sig .tc := ⟨.hbm, 96, rfl⟩
abbrev main_cst_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_call1_cst : Ref sig .tc := ⟨.hbm, 101, rfl⟩
abbrev main_call1_v0 : Ref sig .tc := ⟨.hbm, 102, rfl⟩
abbrev main_call1_v1 : Ref sig .tc := ⟨.hbm, 103, rfl⟩
abbrev main_call1_cst_0 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_v6 : Ref sig .tc := ⟨.hbm, 109, rfl⟩
abbrev main_call1_v7 : Ref sig .tc := ⟨.hbm, 110, rfl⟩
abbrev main_call1_cst_1 : Ref sig .tc := ⟨.hbm, 111, rfl⟩
abbrev main_call1_v8 : Ref sig .tc := ⟨.hbm, 112, rfl⟩
abbrev main_call1_cst_2 : Ref sig .tc := ⟨.hbm, 113, rfl⟩
abbrev main_call1_v9 : Ref sig .tc := ⟨.hbm, 114, rfl⟩
abbrev main_call1_v10 : Ref sig .tc := ⟨.hbm, 115, rfl⟩
abbrev main_call1_v11 : Ref sig .tc := ⟨.hbm, 116, rfl⟩
abbrev main_call1_cst_3 : Ref sig .tc := ⟨.hbm, 117, rfl⟩
abbrev main_call1_v12 : Ref sig .tc := ⟨.hbm, 118, rfl⟩
abbrev main_call1_cst_4 : Ref sig .tc := ⟨.hbm, 119, rfl⟩
abbrev main_call1_call0_v0 : Ref sig .tc := ⟨.hbm, 120, rfl⟩
abbrev main_call1_call0_v1 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_cst_17 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_call2_cst : Ref sig .tc := ⟨.hbm, 139, rfl⟩
abbrev main_call2_v0 : Ref sig .tc := ⟨.hbm, 140, rfl⟩
abbrev main_v84 : Ref sig .tc := ⟨.hbm, 141, rfl⟩
abbrev main_v85 : Ref sig .tc := ⟨.hbm, 142, rfl⟩
abbrev main_c_18 : Ref sig .tc := ⟨.hbm, 143, rfl⟩
abbrev main_v86 : Ref sig .tc := ⟨.hbm, 144, rfl⟩
abbrev main_v87 : Ref sig .tc := ⟨.hbm, 145, rfl⟩
abbrev main_c_19 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_cst_20 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_cst_21 : Ref sig .tc := ⟨.hbm, 158, rfl⟩
abbrev main_v98 : Ref sig .tc := ⟨.hbm, 159, rfl⟩
abbrev main_v99 : Ref sig .tc := ⟨.hbm, 160, rfl⟩
abbrev main_cst_22 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_cst_23 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_cst_24 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_cst_25 : Ref sig .tc := ⟨.hbm, 173, rfl⟩
abbrev main_v109 : Ref sig .tc := ⟨.hbm, 174, rfl⟩
abbrev main_cst_26 : Ref sig .tc := ⟨.hbm, 175, rfl⟩
abbrev main_v110 : Ref sig .tc := ⟨.hbm, 176, rfl⟩
abbrev main_v111 : Ref sig .tc := ⟨.hbm, 177, rfl⟩
abbrev main_c_27 : Ref sig .tc := ⟨.hbm, 178, rfl⟩
abbrev main_call3_cst : Ref sig .tc := ⟨.hbm, 179, rfl⟩
abbrev main_call3_v0 : Ref sig .tc := ⟨.hbm, 180, rfl⟩
abbrev main_call3_v1 : Ref sig .tc := ⟨.hbm, 181, rfl⟩
abbrev main_call3_cst_0 : Ref sig .tc := ⟨.hbm, 182, rfl⟩
abbrev main_call3_v2 : Ref sig .tc := ⟨.hbm, 183, rfl⟩
abbrev main_call3_v3 : Ref sig .tc := ⟨.hbm, 184, rfl⟩
abbrev main_call3_v4 : Ref sig .tc := ⟨.hbm, 185, rfl⟩
abbrev main_call3_v5 : Ref sig .tc := ⟨.hbm, 186, rfl⟩
abbrev main_call3_v6 : Ref sig .tc := ⟨.hbm, 187, rfl⟩
abbrev main_call3_v7 : Ref sig .tc := ⟨.hbm, 188, rfl⟩
abbrev main_call3_cst_1 : Ref sig .tc := ⟨.hbm, 189, rfl⟩
abbrev main_call3_v8 : Ref sig .tc := ⟨.hbm, 190, rfl⟩
abbrev main_call3_cst_2 : Ref sig .tc := ⟨.hbm, 191, rfl⟩
abbrev main_call3_v9 : Ref sig .tc := ⟨.hbm, 192, rfl⟩
abbrev main_call3_v10 : Ref sig .tc := ⟨.hbm, 193, rfl⟩
abbrev main_call3_v11 : Ref sig .tc := ⟨.hbm, 194, rfl⟩
abbrev main_call3_cst_3 : Ref sig .tc := ⟨.hbm, 195, rfl⟩
abbrev main_call3_v12 : Ref sig .tc := ⟨.hbm, 196, rfl⟩
abbrev main_call3_cst_4 : Ref sig .tc := ⟨.hbm, 197, rfl⟩
abbrev main_call3_call0_v0 : Ref sig .tc := ⟨.hbm, 198, rfl⟩
abbrev main_call3_call0_v1 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_cst_28 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_call4_cst : Ref sig .tc := ⟨.hbm, 217, rfl⟩
abbrev main_call4_v0 : Ref sig .tc := ⟨.hbm, 218, rfl⟩
abbrev main_v128 : Ref sig .tc := ⟨.hbm, 219, rfl⟩
abbrev main_v129 : Ref sig .tc := ⟨.hbm, 220, rfl⟩
abbrev main_c_29 : Ref sig .tc := ⟨.hbm, 221, rfl⟩
abbrev main_v130 : Ref sig .tc := ⟨.hbm, 222, rfl⟩
abbrev main_v131 : Ref sig .tc := ⟨.hbm, 223, rfl⟩
abbrev main_c_30 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_cst_31 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_cst_32 : Ref sig .tc := ⟨.hbm, 236, rfl⟩
abbrev main_v142 : Ref sig .tc := ⟨.hbm, 237, rfl⟩
abbrev main_v143 : Ref sig .tc := ⟨.hbm, 238, rfl⟩
abbrev main_cst_33 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_cst_34 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_cst_35 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_cst_36 : Ref sig .tc := ⟨.hbm, 251, rfl⟩
abbrev main_v153 : Ref sig .tc := ⟨.hbm, 252, rfl⟩
abbrev main_cst_37 : Ref sig .tc := ⟨.hbm, 253, rfl⟩
abbrev main_v154 : Ref sig .tc := ⟨.hbm, 254, rfl⟩
abbrev main_v155 : Ref sig .tc := ⟨.hbm, 255, rfl⟩
abbrev main_c_38 : Ref sig .tc := ⟨.hbm, 256, rfl⟩
abbrev main_call5_cst : Ref sig .tc := ⟨.hbm, 257, rfl⟩
abbrev main_call5_v0 : Ref sig .tc := ⟨.hbm, 258, rfl⟩
abbrev main_call5_v1 : Ref sig .tc := ⟨.hbm, 259, rfl⟩
abbrev main_call5_cst_0 : Ref sig .tc := ⟨.hbm, 260, rfl⟩
abbrev main_call5_v2 : Ref sig .tc := ⟨.hbm, 261, rfl⟩
abbrev main_call5_v3 : Ref sig .tc := ⟨.hbm, 262, rfl⟩
abbrev main_call5_v4 : Ref sig .tc := ⟨.hbm, 263, rfl⟩
abbrev main_call5_v5 : Ref sig .tc := ⟨.hbm, 264, rfl⟩
abbrev main_call5_v6 : Ref sig .tc := ⟨.hbm, 265, rfl⟩
abbrev main_call5_v7 : Ref sig .tc := ⟨.hbm, 266, rfl⟩
abbrev main_call5_cst_1 : Ref sig .tc := ⟨.hbm, 267, rfl⟩
abbrev main_call5_v8 : Ref sig .tc := ⟨.hbm, 268, rfl⟩
abbrev main_call5_cst_2 : Ref sig .tc := ⟨.hbm, 269, rfl⟩
abbrev main_call5_v9 : Ref sig .tc := ⟨.hbm, 270, rfl⟩
abbrev main_call5_v10 : Ref sig .tc := ⟨.hbm, 271, rfl⟩
abbrev main_call5_v11 : Ref sig .tc := ⟨.hbm, 272, rfl⟩
abbrev main_call5_cst_3 : Ref sig .tc := ⟨.hbm, 273, rfl⟩
abbrev main_call5_v12 : Ref sig .tc := ⟨.hbm, 274, rfl⟩
abbrev main_call5_cst_4 : Ref sig .tc := ⟨.hbm, 275, rfl⟩
abbrev main_call5_call0_v0 : Ref sig .tc := ⟨.hbm, 276, rfl⟩
abbrev main_call5_call0_v1 : Ref sig .tc := ⟨.hbm, 277, rfl⟩
abbrev main_v156 : Ref sig .tc := ⟨.hbm, 278, rfl⟩
abbrev main_v157 : Ref sig .tc := ⟨.hbm, 279, rfl⟩
abbrev main_v158 : Ref sig .tc := ⟨.hbm, 280, rfl⟩
abbrev main_v159 : Ref sig .tc := ⟨.hbm, 281, rfl⟩
abbrev main_v160 : Ref sig .tc := ⟨.hbm, 282, rfl⟩
abbrev main_v161 : Ref sig .tc := ⟨.hbm, 283, rfl⟩
abbrev main_v162 : Ref sig .tc := ⟨.hbm, 284, rfl⟩
abbrev main_cst_39 : Ref sig .tc := ⟨.hbm, 285, rfl⟩
abbrev main_v163 : Ref sig .tc := ⟨.hbm, 286, rfl⟩
abbrev main_v164 : Ref sig .tc := ⟨.hbm, 287, rfl⟩
abbrev main_v165 : Ref sig .tc := ⟨.hbm, 288, rfl⟩
abbrev main_v166 : Ref sig .tc := ⟨.hbm, 289, rfl⟩
abbrev main_v167 : Ref sig .tc := ⟨.hbm, 290, rfl⟩
abbrev main_v168 : Ref sig .tc := ⟨.hbm, 291, rfl⟩
abbrev main_v169 : Ref sig .tc := ⟨.hbm, 292, rfl⟩
abbrev main_v170 : Ref sig .tc := ⟨.hbm, 293, rfl⟩
abbrev main_v171 : Ref sig .tc := ⟨.hbm, 294, rfl⟩
abbrev main_call6_cst : Ref sig .tc := ⟨.hbm, 295, rfl⟩
abbrev main_call6_v0 : Ref sig .tc := ⟨.hbm, 296, rfl⟩
abbrev main_v172 : Ref sig .tc := ⟨.hbm, 297, rfl⟩
abbrev main_v173 : Ref sig .tc := ⟨.hbm, 298, rfl⟩
abbrev main_v174 : Ref sig .tc := ⟨.hbm, 299, rfl⟩
abbrev main_v175 : Ref sig .tc := ⟨.hbm, 300, rfl⟩
abbrev main_v176 : Ref sig .tc := ⟨.hbm, 301, rfl⟩
abbrev main_v177 : Ref sig .tc := ⟨.hbm, 302, rfl⟩

abbrev nD : Nat := 1
abbrev τ : Topo := Topo.v7x

variable {F : FTy → Type} [FloatOps F]

class Facts₀ : Prop where
  slices_S1600000x4_S1600000x1_0_3 : S1600000x4.Slices ![0, 3] S1600000x1
  shapeCasts_S1600000x1_S1600000 : S1600000x1.ShapeCasts S1600000
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel program's run with its two results NAMED. The program is 24 segments — sixteen stretches of host
  operations and eight pipelined regions — and the buffer contents at every boundary are a fold from the launch memory;
  after the last segment every unscoped buffer holds the last fold's contents. Read at the two result buffers and at the
  twelve arguments this is the run the agreement claim needs: the results at the final contents, the arguments as launched.
-/
import proofs.«171907_j55800215109855_1_alg».proof.Proof.Gen.KernelIdeal.Frame

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final state the two result
    buffers hold the last boundary's contents and every argument array is as launched. -/
theorem run_vals : θ_run defs (onTc (τ := τ) (main (F := F))) ⟨m, fun _ => 0, ρ⟩ (fun r => ∀ c : Dev nD,
      r.2.mem ((c.tc : Thread nD τ).loc main_v107) = W24 m ρ c (Proc.devRef .tc main_v107)
      ∧ r.2.mem ((c.tc : Thread nD τ).loc main_v110) = W24 m ρ c (Proc.devRef .tc main_v110)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v107 (by decide)),
       h c _ (mem_uc main_v110 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c),
       (h c _ (mem_uc main_arg9 (by decide))).trans (W24_main_arg9 m ρ c),
       (h c _ (mem_uc main_arg10 (by decide))).trans (W24_main_arg10 m ρ c),
       (h c _ (mem_uc main_arg11 (by decide))).trans (W24_main_arg11 m ρ c)⟩)

end Cert.KernelIdeal.KVal

end
-- ==== Proof.Terms.lean ====
/-
  The host-level terms of the graph network, named once. A three-layer graph convolution over 100000 nodes and
  1600000 weighted edges: a linear map into 128 features, three rounds of (normalised neighbourhood sum, blend with
  the first layer's output, matrix product, batch normalisation over the nodes, rectification), and a linear map
  onto 64 outputs. Every function below is a composition of array operations; both programs are compositions of
  these functions, so their agreement is stated between such compositions and never between unfolded arrays.
-/
import proofs.«171907_j55800215109855_1_alg».proof.ReferenceIdeal

noncomputable section

namespace Cert.Gcn

open Idealize.ShloMosaic Cert.ReferenceIdeal

variable {F : FTy → Type} [FloatOps F] [Facts₀]

open Facts₀

/-- One scalar word repeated over a [100000, 128] array. -/
def splat (w : BitVec 32) : (⟨S100000x128, .f32⟩ : BufTy).Contents (Elt F) :=
  broadcastInDim S100000x128 ![] bcast_S_S100000x128 (constant S_ .f32 w)

/-- A [1, 128] row repeated over the 100000 rows. -/
def rows (v : (⟨S1x128, .f32⟩ : BufTy).Contents (Elt F)) : (⟨S100000x128, .f32⟩ : BufTy).Contents (Elt F) :=
  broadcastInDim S100000x128 ![0, 1] bcast_S1x128_S100000x128_0_1 v

/-- A [128] vector laid out as a [1, 128] row. -/
def asRow (v : (⟨S128, .f32⟩ : BufTy).Contents (Elt F)) : (⟨S1x128, .f32⟩ : BufTy).Contents (Elt F) :=
  broadcastInDim S1x128 ![1] bcast_S128_S1x128_1 v

/-- The affine map into 128 features: x · wt + b, the bias a [1, 128] row. -/
def lin1 (x : (⟨S100000x128, .f32⟩ : BufTy).Contents (Elt F)) (wt : (⟨S128x128, .f32⟩ : BufTy).Contents (Elt F))
    (b : (⟨S1x128, .f32⟩ : BufTy).Contents (Elt F)) : (⟨S100000x128, .f32⟩ : BufTy).Contents (Elt F) :=
  addf (Host.dotGeneral dot_S100000x128_S128x128_S100000x128_1_0_0_1_n_n none x wt) (rows b)

/-- The affine map onto 64 outputs: h · wt + b, the bias a [1, 64] row. -/
def lin2 (h : (⟨S100000x128, .f32⟩ : BufTy).Contents (Elt F)) (wt : (⟨S128x64, .f32⟩ : BufTy).Contents (Elt F))
    (b : (⟨S1x64, .f32⟩ : BufTy).Contents (Elt F)) : (⟨S100000x64, .f32⟩ : BufTy).Contents (Elt F) :=
  addf (Host.dotGeneral dot_S100000x128_S128x64_S100000x64_1_0_0_1_n_n none h wt)
    (broadcastInDim S100000x64 ![0, 1] bcast_S1x64_S100000x64_0_1 b)

/-- Three quarters of the aggregated neighbours plus one quarter of the first layer's output. -/
def blend (agg x0 : (⟨S100000x128, .f32⟩ : BufTy).Contents (Elt F)) : (⟨S100000x128, .f32⟩ : BufTy).Contents (Elt F) :=
  addf (mulf (splat 0x3F400000#32) agg) (mulf (splat 0x3E800000#32) x0)

/-- The blend times the layer's weights. -/
def comb (agg x0 : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none (blend agg x0) w

/-- The same product as the identity-weighted form 0 · m + 1 · (m · w) of the blend m. -/
def combId (agg x0 : (⟨S100000x128, .f32⟩ : BufTy).Contents (Elt F)) (w : (⟨S128x128, .f32⟩ : BufTy).Contents (Elt F)) :
    (⟨S100000x128, .f32⟩ : BufTy).Contents (Elt F) :=
  addf (mulf (splat 0x00000000#32) (blend agg x0)) (mulf (splat 0x3F800000#32) (comb agg x0 w))

/-- Batch normalisation with the statistics, scale and shift given as [1, 128] rows, then the positive part:
    max (gamma · (mm − mean) · (var + ε)^(−1/2) + beta, 0), the inverse root taken on the row. -/
def bnrelu (mm : (⟨S100000x128, .f32⟩ : BufTy).Contents (Elt F))
    (mean var gamma beta : (⟨S1x128, .f32⟩ : BufTy).Contents (Elt F)) : (⟨S100000x128, .f32⟩ : BufTy).Contents (Elt F) :=
  maximumf
    (addf (mulf (mulf (rows gamma) (subf mm (rows mean)))
                (rows (Host.rsqrt (addf var (broadcastInDim S1x128 ![] bcast_S_S1x128 (constant S_ .f32 0x3727C5AC#32))))))
          (rows beta))
    (splat 0x00000000#32)

/-- The same with [128] vectors, the inverse root taken on the vector before it is laid out as a row. -/
def bnreluVec (mm : (⟨S100000x128, .f32⟩ : BufTy).Contents (Elt F))
    (mean var gamma beta : (⟨S128, .f32⟩ : BufTy).Contents (Elt F)) : (⟨S100000x128, .f32⟩ : BufTy).Contents (Elt F) :=
  maximumf
    (addf (mulf (mulf (rows (asRow gamma)) (subf mm (rows (asRow mean))))
                (rows (asRow (Host.rsqrt (addf var (broadcastInDim S128 ![] bcast_S_S128 (constant S_ .f32 0x3727C5AC#32)))))))
          (rows (asRow beta)))
    (splat 0x00000000#32)

/-- The column means over the 100000 nodes. -/
def colMean (mm : (⟨S100000x128, .f32⟩ : BufTy).Contents (Elt F)) : (⟨S128, .f32⟩ : BufTy).Contents (Elt F) :=
  Host.divf (Host.reduceAdd mm (constant S_ .f32 0x00000000#32) reducesTo_S100000x128_S128_d0 h_S_)
    (broadcastInDim S128 ![] bcast_S_S128 (constant S_ .f32 0x47C35000#32))

/-- The column variances over the 100000 nodes (mean of squared deviations, divisor 100000 − 0). -/
def colVar (mm : (⟨S100000x128, .f32⟩ : BufTy).Contents (Elt F)) : (⟨S128, .f32⟩ : BufTy).Contents (Elt F) :=
  let dev : (⟨S100000x128, .f32⟩ : BufTy).Contents (Elt F) :=
    subf mm (rows (Host.divf (asRow (Host.reduceAdd mm (constant S_ .f32 0x00000000#32) reducesTo_S100000x128_S128_d0 h_S_))
      (broadcastInDim S1x128 ![] bcast_S_S1x128 (constant S_ .f32 0x47C35000#32))))
  let n : (⟨S_, .f32⟩ : BufTy).Contents (Elt F) :=
    subf (constant S_ .f32 0x47C35000#32) (sitofp .f32 (constantI S_ 32 0#32))
  select (broadcastInDim S128 ![] bcast_S_S128 (cmpf .ogt n (constant S_ .f32 0x00000000#32)))
    (Host.divf (Host.reduceAdd (mulf dev dev) (constant S_ .f32 0x00000000#32) reducesTo_S100000x128_S128_d0 h_S_)
      (broadcastInDim S128 ![] bcast_S_S128 n))
    (broadcastInDim S128 ![] bcast_S_S128 (id (constant S_ .f32 0x7FC00000#32)))

/-- The 1600000 edge endpoints of one row of the edge list followed by the 100000 self loops. -/
def withLoops (ends : (⟨S1x1600000, .i32⟩ : BufTy).Contents (Elt F)) : (⟨S1700000, .i32⟩ : BufTy).Contents (Elt F) :=
  concatenate S1700000 0 [⟨S1600000, shapeCast S1600000 ends shapeCasts_S1x1600000_S1600000⟩, ⟨S100000, iotaInDim S100000 32 0⟩]
    concatenates_S1600000_S100000_S1700000_d0

/-- The edge weights (the last of the four edge attributes) followed by a weight of one per self loop. -/
def edgeW (ea : (⟨S1600000x4, .f32⟩ : BufTy).Contents (Elt F)) : (⟨S1700000, .f32⟩ : BufTy).Contents (Elt F) :=
  concatenate S1700000 0
    [⟨S1600000, shapeCast S1600000 (extractStridedSlice S1600000x1 ![0, 3] ea slices_S1600000x4_S1600000x1_0_3) shapeCasts_S1600000x1_S1600000⟩,
     ⟨S100000, broadcastInDim S100000 ![] bcast_S_S100000 (constant S_ .f32 0x3F800000#32)⟩]
    concatenates_S1600000_S100000_S1700000_d0

/-- The source endpoints, loops appended. -/
def srcIdx (ei : (⟨S2x1600000, .i32⟩ : BufTy).Contents (Elt F)) : (⟨S1700000, .i32⟩ : BufTy).Contents (Elt F) :=
  withLoops (extractStridedSlice S1x1600000 ![0, 0] ei slices_S2x1600000_S1x1600000_0_0)

/-- The target endpoints, loops appended. -/
def dstIdx (ei : (⟨S2x1600000, .i32⟩ : BufTy).Contents (Elt F)) : (⟨S1700000, .i32⟩ : BufTy).Contents (Elt F) :=
  withLoops (extractStridedSlice S1x1600000 ![1, 0] ei slices_S2x1600000_S1x1600000_1_0)

/-- An index list as a gather's start indices: a negative entry counted from the end (plus 100000). -/
def wrapIdx (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The weighted in-degree of every node: the edge weights summed at their targets. -/
def degree (dst : (⟨S1700000, .i32⟩ : BufTy).Contents (Elt F)) (w : (⟨S1700000, .f32⟩ : BufTy).Contents (Elt F)) :
    (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 dst) w

/-- The inverse square root of the degree where it is positive, zero elsewhere. -/
def invSqrtDeg (deg : (⟨S100000, .f32⟩ : BufTy).Contents (Elt F)) : (⟨S100000, .f32⟩ : BufTy).Contents (Elt F) :=
  select (cmpf .ogt deg (broadcastInDim S100000 ![] bcast_S_S100000 (constant S_ .f32 0x00000000#32)))
    (Host.rsqrt (maximumf deg (broadcastInDim S100000 ![] bcast_S_S100000 (constant S_ .f32 0x0DA24260#32))))
    (broadcastInDim S100000 ![] bcast_S_S100000 (id (constant S_ .f32 0x00000000#32)))

/-- The symmetric normalisation of every edge: d(src)^(−1/2) · w · d(dst)^(−1/2). -/
def edgeNorm (src dst : (⟨S1700000, .i32⟩ : BufTy).Contents (Elt F)) (w : (⟨S1700000, .f32⟩ : BufTy).Contents (Elt F)) :
    (⟨S1700000, .f32⟩ : BufTy).Contents (Elt F) :=
  mulf (mulf (Host.gather gather_S100000_S1700000x1_S1700000_n_0_n_n_0_1_1 (invSqrtDeg (degree dst w)) (wrapIdx src)) w)
    (Host.gather gather_S100000_S1700000x1_S1700000_n_0_n_n_0_1_1 (invSqrtDeg (degree dst w)) (wrapIdx dst))

/-- One propagation: every edge carries its normalised source row to its target, where the rows are summed. -/
def propagate (src dst : (⟨S1700000, .i32⟩ : BufTy).Contents (Elt F)) (nrm : (⟨S1700000, .f32⟩ : BufTy).Contents (Elt F))
    (h : (⟨S100000x128, .f32⟩ : BufTy).Contents (Elt F)) : (⟨S100000x128, .f32⟩ : BufTy).Contents (Elt F) :=
  Host.scatterAdd scatter_S100000x128_S1700000x1_S1700000x128_1_0_0_1 (splat 0x00000000#32)
    (broadcastInDim S1700000x1 ![0] bcast_S1700000_S1700000x1_0 dst)
    (mulf (broadcastInDim S1700000x128 ![0, 1] bcast_S1700000x1_S1700000x128_0_1 (broadcastInDim S1700000x1 ![0] bcast_S1700000_S1700000x1_0 nrm))
      (Host.gather gather_S100000x128_S1700000x1_S1700000x128_1_0_n_n_0_1_1128 h (wrapIdx src)))

/-- The first layer's output from the arguments. -/
def net0 (x : (⟨S100000x128, .f32⟩ : BufTy).Contents (Elt F)) (w1 : (⟨S128x128, .f32⟩ : BufTy).Contents (Elt F))
    (b1 : (⟨S128, .f32⟩ : BufTy).Contents (Elt F)) : (⟨S100000x128, .f32⟩ : BufTy).Contents (Elt F) :=
  lin1 x (transpose S128x128 [1, 0] w1 transposes_S128x128_S128x128_1_0) (asRow b1)

/-- One convolution layer in the identity-weighted spelling: propagate, blend, multiply, normalise with the batch's own
    statistics, rectify. -/
def layerId (src dst : (⟨S1700000, .i32⟩ : BufTy).Contents (Elt F)) (nrm : (⟨S1700000, .f32⟩ : BufTy).Contents (Elt F))
    (x0 h : (⟨S100000x128, .f32⟩ : BufTy).Contents (Elt F)) (w : (⟨S128x128, .f32⟩ : BufTy).Contents (Elt F))
    (gamma beta : (⟨S128, .f32⟩ : BufTy).Contents (Elt F)) : (⟨S100000x128, .f32⟩ : BufTy).Contents (Elt F) :=
  bnreluVec (combId (propagate src dst nrm h) x0 w) (colMean (combId (propagate src dst nrm h) x0 w))
    (colVar (combId (propagate src dst nrm h) x0 w)) gamma beta

/-- The same layer in the plain spelling, the statistics, scale and shift laid out as rows. -/
def layer (src dst : (⟨S1700000, .i32⟩ : BufTy).Contents (Elt F)) (nrm : (⟨S1700000, .f32⟩ : BufTy).Contents (Elt F))
    (x0 h : (⟨S100000x128, .f32⟩ : BufTy).Contents (Elt F)) (w : (⟨S128x128, .f32⟩ : BufTy).Contents (Elt F))
    (gamma beta : (⟨S128, .f32⟩ : BufTy).Contents (Elt F)) : (⟨S100000x128, .f32⟩ : BufTy).Contents (Elt F) :=
  bnrelu (comb (propagate src dst nrm h) x0 w) (asRow (colMean (comb (propagate src dst nrm h) x0 w)))
    (asRow (colVar (comb (propagate src dst nrm h) x0 w))) (asRow gamma) (asRow beta)

/-- The hidden features after three layers (identity-weighted spelling), from the twelve arguments. -/
def netHId (x : (⟨S100000x128, .f32⟩ : BufTy).Contents (Elt F)) (ei : (⟨S2x1600000, .i32⟩ : BufTy).Contents (Elt F))
    (ea : (⟨S1600000x4, .f32⟩ : BufTy).Contents (Elt F)) (w1 : (⟨S128x128, .f32⟩ : BufTy).Contents (Elt F))
    (b1 : (⟨S128, .f32⟩ : BufTy).Contents (Elt F)) (c1 c2 c3 : (⟨S128x128, .f32⟩ : BufTy).Contents (Elt F))
    (gamma beta : (⟨S128, .f32⟩ : BufTy).Contents (Elt F)) : (⟨S100000x128, .f32⟩ : BufTy).Contents (Elt F) :=
  layerId (srcIdx ei) (dstIdx ei) (edgeNorm (srcIdx ei) (dstIdx ei) (edgeW ea)) (net0 x w1 b1)
    (layerId (srcIdx ei) (dstIdx ei) (edgeNorm (srcIdx ei) (dstIdx ei) (edgeW ea)) (net0 x w1 b1)
      (layerId (srcIdx ei) (dstIdx ei) (edgeNorm (srcIdx ei) (dstIdx ei) (edgeW ea)) (net0 x w1 b1) (net0 x w1 b1) c1 gamma beta)
      c2 gamma beta)
    c3 gamma beta

/-- The same in the plain spelling. -/
def netH (x : (⟨S100000x128, .f32⟩ : BufTy).Contents (Elt F)) (ei : (⟨S2x1600000, .i32⟩ : BufTy).Contents (Elt F))
    (ea : (⟨S1600000x4, .f32⟩ : BufTy).Contents (Elt F)) (w1 : (⟨S128x128, .f32⟩ : BufTy).Contents (Elt F))
    (b1 : (⟨S128, .f32⟩ : BufTy).Contents (Elt F)) (c1 c2 c3 : (⟨S128x128, .f32⟩ : BufTy).Contents (Elt F))
    (gamma beta : (⟨S128, .f32⟩ : BufTy).Contents (Elt F)) : (⟨S100000x128, .f32⟩ : BufTy).Contents (Elt F) :=
  layer (srcIdx ei) (dstIdx ei) (edgeNorm (srcIdx ei) (dstIdx ei) (edgeW ea)) (net0 x w1 b1)
    (layer (srcIdx ei) (dstIdx ei) (edgeNorm (srcIdx ei) (dstIdx ei) (edgeW ea)) (net0 x w1 b1)
      (layer (srcIdx ei) (dstIdx ei) (edgeNorm (srcIdx ei) (dstIdx ei) (edgeW ea)) (net0 x w1 b1) (net0 x w1 b1) c1 gamma beta)
      c2 gamma beta)
    c3 gamma beta

/-- The output head on hidden features h. -/
def netO (h : (⟨S100000x128, .f32⟩ : BufTy).Contents (Elt F)) (w2 : (⟨S64x128, .f32⟩ : BufTy).Contents (Elt F))
    (b2 : (⟨S64, .f32⟩ : BufTy).Contents (Elt F)) : (⟨S100000x64, .f32⟩ : BufTy).Contents (Elt F) :=
  lin2 h (transpose S128x64 [1, 0] w2 transposes_S64x128_S128x64_1_0) (broadcastInDim S1x64 ![1] bcast_S64_S1x64_1 b2)

end Cert.Gcn

end
-- ==== Proof.KernelKept.lean ====
/-
  The kernel program's two results read back to the arguments. The buffer contents at the 24 segment boundaries are a
  fold from the launch memory: a stretch of host operations applies its operations, a region replaces its output array by
  what its blocks write back and leaves every other buffer alone. Walking the fold: the edge lists with loops, the edge
  normalisation, the first layer's output and the seven weight and scale arguments survive every later segment (no later
  operation writes them); each propagation stretch is the propagation of what the previous region left; each statistics
  stretch lays the column mean, the column variance, the scale and the shift out as rows; and each region's output is the
  named host function of its inputs (taken here as hypotheses, proved region by region elsewhere). Composed, the hidden
  features are the three-layer network of the arguments and the output is the head applied to them.
-/
import proofs.«171907_j55800215109855_1_alg».proof.Proof.Gen.KernelIdeal.Frame
import proofs.«171907_j55800215109855_1_alg».proof.Proof.Gen.ReferenceIdeal
import proofs.«171907_j55800215109855_1_alg».proof.Proof.Terms
import Idealize.ShloMosaic.Lib.StableHlo.Run
import Idealize.ShloMosaic.PureOps.Ideal

set_option maxRecDepth 16384

noncomputable section

namespace Cert.KernelIdeal.KChain

open Idealize.ShloMosaic Idealize.ShloMosaic.TcCoe Idealize.SL.Sem Idealize.ShloMosaic.StableHlo
open Cert.KernelIdeal Cert.KernelIdeal.Gen

/-- What each region leaves in its output array, for ANY contents it is entered from: the named host function of its
    input arrays; and the two row-major reshapes of a vector into a one-row matrix, as the broadcast along axis 1. -/
structure RegionValues : Prop where
  r0 : ∀ (V : (c : Dev nD) → (b : Ref sig .tc) → Buf (Elt Ideal) ((c : Thread nD τ).loc b)) (c : Dev nD),
    (dat0 V c).arrAt 3 cfg0.N = Cert.Gcn.lin1 (F := Ideal) (V c main_arg0) (V c main_v36) (V c main_v37)
  r1 : ∀ (V : (c : Dev nD) → (b : Ref sig .tc) → Buf (Elt Ideal) ((c : Thread nD τ).loc b)) (c : Dev nD),
    (dat1 V c).arrAt 3 cfg1.N = Cert.Gcn.comb (F := Ideal) (V c main_v51) (V c main_v38) (V c main_arg5)
  r2 : ∀ (V : (c : Dev nD) → (b : Ref sig .tc) → Buf (Elt Ideal) ((c : Thread nD τ).loc b)) (c : Dev nD),
    (dat2 V c).arrAt 5 cfg2.N = Cert.Gcn.bnrelu (F := Ideal) (V c main_v52) (V c main_v57) (V c main_v58) (V c main_v59) (V c main_v60)
  r3 : ∀ (V : (c : Dev nD) → (b : Ref sig .tc) → Buf (Elt Ideal) ((c : Thread nD τ).loc b)) (c : Dev nD),
    (dat3 V c).arrAt 3 cfg3.N = Cert.Gcn.comb (F := Ideal) (V c main_v74) (V c main_v38) (V c main_arg6)
  r4 : ∀ (V : (c : Dev nD) → (b : Ref sig .tc) → Buf (Elt Ideal) ((c : Thread nD τ).loc b)) (c : Dev nD),
    (dat4 V c).arrAt 5 cfg4.N = Cert.Gcn.bnrelu (F := Ideal) (V c main_v75) (V c main_v80) (V c main_v81) (V c main_v82) (V c main_v83)
  r5 : ∀ (V : (c : Dev nD) → (b : Ref sig .tc) → Buf (Elt Ideal) ((c : Thread nD τ).loc b)) (c : Dev nD),
    (dat5 V c).arrAt 3 cfg5.N = Cert.Gcn.comb (F := Ideal) (V c main_v97) (V c main_v38) (V c main_arg7)
  r6 : ∀ (V : (c : Dev nD) → (b : Ref sig .tc) → Buf (Elt Ideal) ((c : Thread nD τ).loc b)) (c : Dev nD),
    (dat6 V c).arrAt 5 cfg6.N = Cert.Gcn.bnrelu (F := Ideal) (V c main_v98) (V c main_v103) (V c main_v104) (V c main_v105) (V c main_v106)
  r7 : ∀ (V : (c : Dev nD) → (b : Ref sig .tc) → Buf (Elt Ideal) ((c : Thread nD τ).loc b)) (c : Dev nD),
    (dat7 V c).arrAt 3 cfg7.N = Cert.Gcn.lin2 (F := Ideal) (V c main_v107) (V c main_v108) (V c main_v109)
  row128 : ∀ (v : (⟨Cert.ReferenceIdeal.S128, .f32⟩ : BufTy).Contents (Elt Ideal)) (h : Cert.KernelIdeal.S128.ShapeCasts Cert.KernelIdeal.S1x128),
    shapeCast Cert.KernelIdeal.S1x128 v h = Cert.Gcn.asRow (F := Ideal) v
  row64 : ∀ (v : (⟨Cert.ReferenceIdeal.S64, .f32⟩ : BufTy).Contents (Elt Ideal)) (h : Cert.KernelIdeal.S64.ShapeCasts Cert.KernelIdeal.S1x64),
    shapeCast Cert.KernelIdeal.S1x64 v h
      = broadcastInDim Cert.ReferenceIdeal.S1x64 ![1] Cert.ReferenceIdeal.Facts₀.bcast_S64_S1x64_1 v

variable (m : (ℓ : Loc nD τ sig) → Buf (Elt Ideal) ℓ) (ρ : Dev nD → PrngReg) (c : Dev nD)

/-- The edge sources with loops, from the edge list as launched. -/
abbrev SRC := Cert.Gcn.srcIdx (F := Ideal) (m ((c : Thread nD τ).loc main_arg1))
/-- The edge targets with loops. -/
abbrev DST := Cert.Gcn.dstIdx (F := Ideal) (m ((c : Thread nD τ).loc main_arg1))
/-- The edges' symmetric normalisation. -/
abbrev NRM := Cert.Gcn.edgeNorm (F := Ideal) (SRC m c) (DST m c) (Cert.Gcn.edgeW (F := Ideal) (m ((c : Thread nD τ).loc main_arg2)))
/-- The first layer's output. -/
abbrev X0 := Cert.Gcn.net0 (F := Ideal) (m ((c : Thread nD τ).loc main_arg0)) (m ((c : Thread nD τ).loc main_arg3)) (m ((c : Thread nD τ).loc main_arg4))

/-- The values every later segment still needs, as a valuation holds them: the edge lists with loops, the normalisation,
    the first layer's output, and the seven weight, scale and shift arguments. -/
structure Kept (W : Valuation τ sig (Elt Ideal)) : Prop where
  src : W (Proc.devRef .tc main_v7) = SRC m c
  dst : W (Proc.devRef .tc main_v8) = DST m c
  nrm : W (Proc.devRef .tc main_v35) = NRM m c
  x0 : W (Proc.devRef .tc main_v38) = X0 m c
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)
  a8 : W (Proc.devRef .tc main_arg8) = m ((c : Thread nD τ).loc main_arg8)
  a9 : W (Proc.devRef .tc main_arg9) = m ((c : Thread nD τ).loc main_arg9)
  a10 : W (Proc.devRef .tc main_arg10) = m ((c : Thread nD τ).loc main_arg10)
  a11 : W (Proc.devRef .tc main_arg11) = m ((c : Thread nD τ).loc main_arg11)

end Cert.KernelIdeal.KChain

end
-- ==== Proof.KernelSteps.lean ====
/-
  One-step facts about the buffer contents at the kernel program's segment boundaries, as tables. A stretch of host
  operations leaves a buffer it does not write as it found it, and a region leaves every buffer that is not its output
  array as it found it (an input array comes back as entered): one lemma per stretch and per region says so for the
  whole bundle of kept values. A stretch that computes is read once, for ANY contents it starts from: a propagation
  stretch as the propagation of four of the buffers it starts from, a statistics stretch as the column mean, the column
  variance, the scale and the shift laid out as rows, the last stretch as the transposed output weights and the output
  bias as a row. The three opening stretches are read from the launch memory directly.
-/
import proofs.«171907_j55800215109855_1_alg».proof.Proof.KernelKept

set_option maxRecDepth 16384

noncomputable section

namespace Cert.KernelIdeal.KChain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## A kept value survives each stretch and each region -/

theorem kept_hostOps1 {W : Valuation τ sig (Elt Ideal)} (h : Kept m c W) : Kept m c (StableHlo.after hostOps1 W) :=
  ⟨Eq.trans (b := W (Proc.devRef .tc main_v7)) (by after_results_simp) h.src,
   Eq.trans (b := W (Proc.devRef .tc main_v8)) (by after_results_simp) h.dst,
   Eq.trans (b := W (Proc.devRef .tc main_v35)) (by after_results_simp) h.nrm,
   Eq.trans (b := W (Proc.devRef .tc main_v38)) (by after_results_simp) h.x0,
   Eq.trans (b := W (Proc.devRef .tc main_arg5)) (by after_results_simp) h.a5,
   Eq.trans (b := W (Proc.devRef .tc main_arg6)) (by after_results_simp) h.a6,
   Eq.trans (b := W (Proc.devRef .tc main_arg7)) (by after_results_simp) h.a7,
   Eq.trans (b := W (Proc.devRef .tc main_arg8)) (by after_results_simp) h.a8,
   Eq.trans (b := W (Proc.devRef .tc main_arg9)) (by after_results_simp) h.a9,
   Eq.trans (b := W (Proc.devRef .tc main_arg10)) (by after_results_simp) h.a10,
   Eq.trans (b := W (Proc.devRef .tc main_arg11)) (by after_results_simp) h.a11⟩
theorem kept_hostOps2 {W : Valuation τ sig (Elt Ideal)} (h : Kept m c W) : Kept m c (StableHlo.after hostOps2 W) :=
  ⟨Eq.trans (b := W (Proc.devRef .tc main_v7)) (by after_results_simp) h.src,
   Eq.trans (b := W (Proc.devRef .tc main_v8)) (by after_results_simp) h.dst,
   Eq.trans (b := W (Proc.devRef .tc main_v35)) (by after_results_simp) h.nrm,
   Eq.trans (b := W (Proc.devRef .tc main_v38)) (by after_results_simp) h.x0,
   Eq.trans (b := W (Proc.devRef .tc main_arg5)) (by after_results_simp) h.a5,
   Eq.trans (b := W (Proc.devRef .tc main_arg6)) (by after_results_simp) h.a6,
   Eq.trans (b := W (Proc.devRef .tc main_arg7)) (by after_results_simp) h.a7,
   Eq.trans (b := W (Proc.devRef .tc main_arg8)) (by after_results_simp) h.a8,
   Eq.trans (b := W (Proc.devRef .tc main_arg9)) (by after_results_simp) h.a9,
   Eq.trans (b := W (Proc.devRef .tc main_arg10)) (by after_results_simp) h.a10,
   Eq.trans (b := W (Proc.devRef .tc main_arg11)) (by after_results_simp) h.a11⟩
theorem kept_hostOps2_1 {W : Valuation τ sig (Elt Ideal)} (h : Kept m c W) : Kept m c (StableHlo.after hostOps2_1 W) :=
  ⟨Eq.trans (b := W (Proc.devRef .tc main_v7)) (by after_results_simp) h.src,
   Eq.trans (b := W (Proc.devRef .tc main_v8)) (by after_results_simp) h.dst,
   Eq.trans (b := W (Proc.devRef .tc main_v35)) (by after_results_simp) h.nrm,
   Eq.trans (b := W (Proc.devRef .tc main_v38)) (by after_results_simp) h.x0,
   Eq.trans (b := W (Proc.devRef .tc main_arg5)) (by after_results_simp) h.a5,
   Eq.trans (b := W (Proc.devRef .tc main_arg6)) (by after_results_simp) h.a6,
   Eq.trans (b := W (Proc.devRef .tc main_arg7)) (by after_results_simp) h.a7,
   Eq.trans (b := W (Proc.devRef .tc main_arg8)) (by after_results_simp) h.a8,
   Eq.trans (b := W (Proc.devRef .tc main_arg9)) (by after_results_simp) h.a9,
   Eq.trans (b := W (Proc.devRef .tc main_arg10)) (by after_results_simp) h.a10,
   Eq.trans (b := W (Proc.devRef .tc main_arg11)) (by after_results_simp) h.a11⟩
theorem kept_hostOps2_2 {W : Valuation τ sig (Elt Ideal)} (h : Kept m c W) : Kept m c (StableHlo.after hostOps2_2 W) :=
  ⟨Eq.trans (b := W (Proc.devRef .tc main_v7)) (by after_results_simp) h.src,
   Eq.trans (b := W (Proc.devRef .tc main_v8)) (by after_results_simp) h.dst,
   Eq.trans (b := W (Proc.devRef .tc main_v35)) (by after_results_simp) h.nrm,
   Eq.trans (b := W (Proc.devRef .tc main_v38)) (by after_results_simp) h.x0,
   Eq.trans (b := W (Proc.devRef .tc main_arg5)) (by after_results_simp) h.a5,
   Eq.trans (b := W (Proc.devRef .tc main_arg6)) (by after_results_simp) h.a6,
   Eq.trans (b := W (Proc.devRef .tc main_arg7)) (by after_results_simp) h.a7,
   Eq.trans (b := W (Proc.devRef .tc main_arg8)) (by after_results_simp) h.a8,
   Eq.trans (b := W (Proc.devRef .tc main_arg9)) (by after_results_simp) h.a9,
   Eq.trans (b := W (Proc.devRef .tc main_arg10)) (by after_results_simp) h.a10,
   Eq.trans (b := W (Proc.devRef .tc main_arg11)) (by after_results_simp) h.a11⟩
theorem kept_hostOps3 {W : Valuation τ sig (Elt Ideal)} (h : Kept m c W) : Kept m c (StableHlo.after hostOps3 W) :=
  ⟨Eq.trans (b := W (Proc.devRef .tc main_v7)) (by after_results_simp) h.src,
   Eq.trans (b := W (Proc.devRef .tc main_v8)) (by after_results_simp) h.dst,
   Eq.trans (b := W (Proc.devRef .tc main_v35)) (by after_results_simp) h.nrm,
   Eq.trans (b := W (Proc.devRef .tc main_v38)) (by after_results_simp) h.x0,
   Eq.trans (b := W (Proc.devRef .tc main_arg5)) (by after_results_simp) h.a5,
   Eq.trans (b := W (Proc.devRef .tc main_arg6)) (by after_results_simp) h.a6,
   Eq.trans (b := W (Proc.devRef .tc main_arg7)) (by after_results_simp) h.a7,
   Eq.trans (b := W (Proc.devRef .tc main_arg8)) (by after_results_simp) h.a8,
   Eq.trans (b := W (Proc.devRef .tc main_arg9)) (by after_results_simp) h.a9,
   Eq.trans (b := W (Proc.devRef .tc main_arg10)) (by after_results_simp) h.a10,
   Eq.trans (b := W (Proc.devRef .tc main_arg11)) (by after_results_simp) h.a11⟩
theorem kept_hostOps4 {W : Valuation τ sig (Elt Ideal)} (h : Kept m c W) : Kept m c (StableHlo.after hostOps4 W) :=
  ⟨Eq.trans (b := W (Proc.devRef .tc main_v7)) (by after_results_simp) h.src,
   Eq.trans (b := W (Proc.devRef .tc main_v8)) (by after_results_simp) h.dst,
   Eq.trans (b := W (Proc.devRef .tc main_v35)) (by after_results_simp) h.nrm,
   Eq.trans (b := W (Proc.devRef .tc main_v38)) (by after_results_simp) h.x0,
   Eq.trans (b := W (Proc.devRef .tc main_arg5)) (by after_results_simp) h.a5,
   Eq.trans (b := W (Proc.devRef .tc main_arg6)) (by after_results_simp) h.a6,
   Eq.trans (b := W (Proc.devRef .tc main_arg7)) (by after_results_simp) h.a7,
   Eq.trans (b := W (Proc.devRef .tc main_arg8)) (by after_results_simp) h.a8,
   Eq.trans (b := W (Proc.devRef .tc main_arg9)) (by after_results_simp) h.a9,
   Eq.trans (b := W (Proc.devRef .tc main_arg10)) (by after_results_simp) h.a10,
   Eq.trans (b := W (Proc.devRef .tc main_arg11)) (by after_results_simp) h.a11⟩
theorem kept_hostOps4_1 {W : Valuation τ sig (Elt Ideal)} (h : Kept m c W) : Kept m c (StableHlo.after hostOps4_1 W) :=
  ⟨Eq.trans (b := W (Proc.devRef .tc main_v7)) (by after_results_simp) h.src,
   Eq.trans (b := W (Proc.devRef .tc main_v8)) (by after_results_simp) h.dst,
   Eq.trans (b := W (Proc.devRef .tc main_v35)) (by after_results_simp) h.nrm,
   Eq.trans (b := W (Proc.devRef .tc main_v38)) (by after_results_simp) h.x0,
   Eq.trans (b := W (Proc.devRef .tc main_arg5)) (by after_results_simp) h.a5,
   Eq.trans (b := W (Proc.devRef .tc main_arg6)) (by after_results_simp) h.a6,
   Eq.trans (b := W (Proc.devRef .tc main_arg7)) (by after_results_simp) h.a7,
   Eq.trans (b := W (Proc.devRef .tc main_arg8)) (by after_results_simp) h.a8,
   Eq.trans (b := W (Proc.devRef .tc main_arg9)) (by after_results_simp) h.a9,
   Eq.trans (b := W (Proc.devRef .tc main_arg10)) (by after_results_simp) h.a10,
   Eq.trans (b := W (Proc.devRef .tc main_arg11)) (by after_results_simp) h.a11⟩
theorem kept_hostOps4_2 {W : Valuation τ sig (Elt Ideal)} (h : Kept m c W) : Kept m c (StableHlo.after hostOps4_2 W) :=
  ⟨Eq.trans (b := W (Proc.devRef .tc main_v7)) (by after_results_simp) h.src,
   Eq.trans (b := W (Proc.devRef .tc main_v8)) (by after_results_simp) h.dst,
   Eq.trans (b := W (Proc.devRef .tc main_v35)) (by after_results_simp) h.nrm,
   Eq.trans (b := W (Proc.devRef .tc main_v38)) (by after_results_simp) h.x0,
   Eq.trans (b := W (Proc.devRef .tc main_arg5)) (by after_results_simp) h.a5,
   Eq.trans (b := W (Proc.devRef .tc main_arg6)) (by after_results_simp) h.a6,
   Eq.trans (b := W (Proc.devRef .tc main_arg7)) (by after_results_simp) h.a7,
   Eq.trans (b := W (Proc.devRef .tc main_arg8)) (by after_results_simp) h.a8,
   Eq.trans (b := W (Proc.devRef .tc main_arg9)) (by after_results_simp) h.a9,
   Eq.trans (b := W (Proc.devRef .tc main_arg10)) (by after_results_simp) h.a10,
   Eq.trans (b := W (Proc.devRef .tc main_arg11)) (by after_results_simp) h.a11⟩
theorem kept_hostOps5 {W : Valuation τ sig (Elt Ideal)} (h : Kept m c W) : Kept m c (StableHlo.after hostOps5 W) :=
  ⟨Eq.trans (b := W (Proc.devRef .tc main_v7)) (by after_results_simp) h.src,
   Eq.trans (b := W (Proc.devRef .tc main_v8)) (by after_results_simp) h.dst,
   Eq.trans (b := W (Proc.devRef .tc main_v35)) (by after_results_simp) h.nrm,
   Eq.trans (b := W (Proc.devRef .tc main_v38)) (by after_results_simp) h.x0,
   Eq.trans (b := W (Proc.devRef .tc main_arg5)) (by after_results_simp) h.a5,
   Eq.trans (b := W (Proc.devRef .tc main_arg6)) (by after_results_simp) h.a6,
   Eq.trans (b := W (Proc.devRef .tc main_arg7)) (by after_results_simp) h.a7,
   Eq.trans (b := W (Proc.devRef .tc main_arg8)) (by after_results_simp) h.a8,
   Eq.trans (b := W (Proc.devRef .tc main_arg9)) (by after_results_simp) h.a9,
   Eq.trans (b := W (Proc.devRef .tc main_arg10)) (by after_results_simp) h.a10,
   Eq.trans (b := W (Proc.devRef .tc main_arg11)) (by after_results_simp) h.a11⟩
theorem kept_hostOps6 {W : Valuation τ sig (Elt Ideal)} (h : Kept m c W) : Kept m c (StableHlo.after hostOps6 W) :=
  ⟨Eq.trans (b := W (Proc.devRef .tc main_v7)) (by after_results_simp) h.src,
   Eq.trans (b := W (Proc.devRef .tc main_v8)) (by after_results_simp) h.dst,
   Eq.trans (b := W (Proc.devRef .tc main_v35)) (by after_results_simp) h.nrm,
   Eq.trans (b := W (Proc.devRef .tc main_v38)) (by after_results_simp) h.x0,
   Eq.trans (b := W (Proc.devRef .tc main_arg5)) (by after_results_simp) h.a5,
   Eq.trans (b := W (Proc.devRef .tc main_arg6)) (by after_results_simp) h.a6,
   Eq.trans (b := W (Proc.devRef .tc main_arg7)) (by after_results_simp) h.a7,
   Eq.trans (b := W (Proc.devRef .tc main_arg8)) (by after_results_simp) h.a8,
   Eq.trans (b := W (Proc.devRef .tc main_arg9)) (by after_results_simp) h.a9,
   Eq.trans (b := W (Proc.devRef .tc main_arg10)) (by after_results_simp) h.a10,
   Eq.trans (b := W (Proc.devRef .tc main_arg11)) (by after_results_simp) h.a11⟩
theorem kept_hostOps6_1 {W : Valuation τ sig (Elt Ideal)} (h : Kept m c W) : Kept m c (StableHlo.after hostOps6_1 W) :=
  ⟨Eq.trans (b := W (Proc.devRef .tc main_v7)) (by after_results_simp) h.src,
   Eq.trans (b := W (Proc.devRef .tc main_v8)) (by after_results_simp) h.dst,
   Eq.trans (b := W (Proc.devRef .tc main_v35)) (by after_results_simp) h.nrm,
   Eq.trans (b := W (Proc.devRef .tc main_v38)) (by after_results_simp) h.x0,
   Eq.trans (b := W (Proc.devRef .tc main_arg5)) (by after_results_simp) h.a5,
   Eq.trans (b := W (Proc.devRef .tc main_arg6)) (by after_results_simp) h.a6,
   Eq.trans (b := W (Proc.devRef .tc main_arg7)) (by after_results_simp) h.a7,
   Eq.trans (b := W (Proc.devRef .tc main_arg8)) (by after_results_simp) h.a8,
   Eq.trans (b := W (Proc.devRef .tc main_arg9)) (by after_results_simp) h.a9,
   Eq.trans (b := W (Proc.devRef .tc main_arg10)) (by after_results_simp) h.a10,
   Eq.trans (b := W (Proc.devRef .tc main_arg11)) (by after_results_simp) h.a11⟩
theorem kept_hostOps6_2 {W : Valuation τ sig (Elt Ideal)} (h : Kept m c W) : Kept m c (StableHlo.after hostOps6_2 W) :=
  ⟨Eq.trans (b := W (Proc.devRef .tc main_v7)) (by after_results_simp) h.src,
   Eq.trans (b := W (Proc.devRef .tc main_v8)) (by after_results_simp) h.dst,
   Eq.trans (b := W (Proc.devRef .tc main_v35)) (by after_results_simp) h.nrm,
   Eq.trans (b := W (Proc.devRef .tc main_v38)) (by after_results_simp) h.x0,
   Eq.trans (b := W (Proc.devRef .tc main_arg5)) (by after_results_simp) h.a5,
   Eq.trans (b := W (Proc.devRef .tc main_arg6)) (by after_results_simp) h.a6,
   Eq.trans (b := W (Proc.devRef .tc main_arg7)) (by after_results_simp) h.a7,
   Eq.trans (b := W (Proc.devRef .tc main_arg8)) (by after_results_simp) h.a8,
   Eq.trans (b := W (Proc.devRef .tc main_arg9)) (by after_results_simp) h.a9,
   Eq.trans (b := W (Proc.devRef .tc main_arg10)) (by after_results_simp) h.a10,
   Eq.trans (b := W (Proc.devRef .tc main_arg11)) (by after_results_simp) h.a11⟩
theorem kept_hostOps7 {W : Valuation τ sig (Elt Ideal)} (h : Kept m c W) : Kept m c (StableHlo.after hostOps7 W) :=
  ⟨Eq.trans (b := W (Proc.devRef .tc main_v7)) (by after_results_simp) h.src,
   Eq.trans (b := W (Proc.devRef .tc main_v8)) (by after_results_simp) h.dst,
   Eq.trans (b := W (Proc.devRef .tc main_v35)) (by after_results_simp) h.nrm,
   Eq.trans (b := W (Proc.devRef .tc main_v38)) (by after_results_simp) h.x0,
   Eq.trans (b := W (Proc.devRef .tc main_arg5)) (by after_results_simp) h.a5,
   Eq.trans (b := W (Proc.devRef .tc main_arg6)) (by after_results_simp) h.a6,
   Eq.trans (b := W (Proc.devRef .tc main_arg7)) (by after_results_simp) h.a7,
   Eq.trans (b := W (Proc.devRef .tc main_arg8)) (by after_results_simp) h.a8,
   Eq.trans (b := W (Proc.devRef .tc main_arg9)) (by after_results_simp) h.a9,
   Eq.trans (b := W (Proc.devRef .tc main_arg10)) (by after_results_simp) h.a10,
   Eq.trans (b := W (Proc.devRef .tc main_arg11)) (by after_results_simp) h.a11⟩
theorem kept_r1 (h : Kept m c (W5 m ρ c)) : Kept m c (W6 m ρ c) :=
  ⟨(W6_of_ne m ρ c main_v7 (by decide)).trans h.src,
   (W6_of_ne m ρ c main_v8 (by decide)).trans h.dst,
   (W6_of_ne m ρ c main_v35 (by decide)).trans h.nrm,
   ((W6_arr m ρ c 1).trans (((dat1 (V5 m ρ) c).arrAt_in 1 rfl _).trans (A_eq1 (V5 m ρ) c 1))).trans h.x0,
   ((W6_arr m ρ c 2).trans (((dat1 (V5 m ρ) c).arrAt_in 2 rfl _).trans (A_eq1 (V5 m ρ) c 2))).trans h.a5,
   (W6_of_ne m ρ c main_arg6 (by decide)).trans h.a6,
   (W6_of_ne m ρ c main_arg7 (by decide)).trans h.a7,
   (W6_of_ne m ρ c main_arg8 (by decide)).trans h.a8,
   (W6_of_ne m ρ c main_arg9 (by decide)).trans h.a9,
   (W6_of_ne m ρ c main_arg10 (by decide)).trans h.a10,
   (W6_of_ne m ρ c main_arg11 (by decide)).trans h.a11⟩
theorem kept_r2 (h : Kept m c (W9 m ρ c)) : Kept m c (W10 m ρ c) :=
  ⟨(W10_of_ne m ρ c main_v7 (by decide)).trans h.src,
   (W10_of_ne m ρ c main_v8 (by decide)).trans h.dst,
   (W10_of_ne m ρ c main_v35 (by decide)).trans h.nrm,
   (W10_of_ne m ρ c main_v38 (by decide)).trans h.x0,
   (W10_of_ne m ρ c main_arg5 (by decide)).trans h.a5,
   (W10_of_ne m ρ c main_arg6 (by decide)).trans h.a6,
   (W10_of_ne m ρ c main_arg7 (by decide)).trans h.a7,
   (W10_of_ne m ρ c main_arg8 (by decide)).trans h.a8,
   (W10_of_ne m ρ c main_arg9 (by decide)).trans h.a9,
   (W10_of_ne m ρ c main_arg10 (by decide)).trans h.a10,
   (W10_of_ne m ρ c main_arg11 (by decide)).trans h.a11⟩
theorem kept_r3 (h : Kept m c (W11 m ρ c)) : Kept m c (W12 m ρ c) :=
  ⟨(W12_of_ne m ρ c main_v7 (by decide)).trans h.src,
   (W12_of_ne m ρ c main_v8 (by decide)).trans h.dst,
   (W12_of_ne m ρ c main_v35 (by decide)).trans h.nrm,
   ((W12_arr m ρ c 1).trans (((dat3 (V11 m ρ) c).arrAt_in 1 rfl _).trans (A_eq3 (V11 m ρ) c 1))).trans h.x0,
   (W12_of_ne m ρ c main_arg5 (by decide)).trans h.a5,
   ((W12_arr m ρ c 2).trans (((dat3 (V11 m ρ) c).arrAt_in 2 rfl _).trans (A_eq3 (V11 m ρ) c 2))).trans h.a6,
   (W12_of_ne m ρ c main_arg7 (by decide)).trans h.a7,
   (W12_of_ne m ρ c main_arg8 (by decide)).trans h.a8,
   (W12_of_ne m ρ c main_arg9 (by decide)).trans h.a9,
   (W12_of_ne m ρ c main_arg10 (by decide)).trans h.a10,
   (W12_of_ne m ρ c main_arg11 (by decide)).trans h.a11⟩
theorem kept_r4 (h : Kept m c (W15 m ρ c)) : Kept m c (W16 m ρ c) :=
  ⟨(W16_of_ne m ρ c main_v7 (by decide)).trans h.src,
   (W16_of_ne m ρ c main_v8 (by decide)).trans h.dst,
   (W16_of_ne m ρ c main_v35 (by decide)).trans h.nrm,
   (W16_of_ne m ρ c main_v38 (by decide)).trans h.x0,
   (W16_of_ne m ρ c main_arg5 (by decide)).trans h.a5,
   (W16_of_ne m ρ c main_arg6 (by decide)).trans h.a6,
   (W16_of_ne m ρ c main_arg7 (by decide)).trans h.a7,
   (W16_of_ne m ρ c main_arg8 (by decide)).trans h.a8,
   (W16_of_ne m ρ c main_arg9 (by decide)).trans h.a9,
   (W16_of_ne m ρ c main_arg10 (by decide)).trans h.a10,
   (W16_of_ne m ρ c main_arg11 (by decide)).trans h.a11⟩
theorem kept_r5 (h : Kept m c (W17 m ρ c)) : Kept m c (W18 m ρ c) :=
  ⟨(W18_of_ne m ρ c main_v7 (by decide)).trans h.src,
   (W18_of_ne m ρ c main_v8 (by decide)).trans h.dst,
   (W18_of_ne m ρ c main_v35 (by decide)).trans h.nrm,
   ((W18_arr m ρ c 1).trans (((dat5 (V17 m ρ) c).arrAt_in 1 rfl _).trans (A_eq5 (V17 m ρ) c 1))).trans h.x0,
   (W18_of_ne m ρ c main_arg5 (by decide)).trans h.a5,
   (W18_of_ne m ρ c main_arg6 (by decide)).trans h.a6,
   ((W18_arr m ρ c 2).trans (((dat5 (V17 m ρ) c).arrAt_in 2 rfl _).trans (A_eq5 (V17 m ρ) c 2))).trans h.a7,
   (W18_of_ne m ρ c main_arg8 (by decide)).trans h.a8,
   (W18_of_ne m ρ c main_arg9 (by decide)).trans h.a9,
   (W18_of_ne m ρ c main_arg10 (by decide)).trans h.a10,
   (W18_of_ne m ρ c main_arg11 (by decide)).trans h.a11⟩
theorem kept_r6 (h : Kept m c (W21 m ρ c)) : Kept m c (W22 m ρ c) :=
  ⟨(W22_of_ne m ρ c main_v7 (by decide)).trans h.src,
   (W22_of_ne m ρ c main_v8 (by decide)).trans h.dst,
   (W22_of_ne m ρ c main_v35 (by decide)).trans h.nrm,
   (W22_of_ne m ρ c main_v38 (by decide)).trans h.x0,
   (W22_of_ne m ρ c main_arg5 (by decide)).trans h.a5,
   (W22_of_ne m ρ c main_arg6 (by decide)).trans h.a6,
   (W22_of_ne m ρ c main_arg7 (by decide)).trans h.a7,
   (W22_of_ne m ρ c main_arg8 (by decide)).trans h.a8,
   (W22_of_ne m ρ c main_arg9 (by decide)).trans h.a9,
   (W22_of_ne m ρ c main_arg10 (by decide)).trans h.a10,
   (W22_of_ne m ρ c main_arg11 (by decide)).trans h.a11⟩
theorem kept_r7 (h : Kept m c (W23 m ρ c)) : Kept m c (W24 m ρ c) :=
  ⟨(W24_of_ne m ρ c main_v7 (by decide)).trans h.src,
   (W24_of_ne m ρ c main_v8 (by decide)).trans h.dst,
   (W24_of_ne m ρ c main_v35 (by decide)).trans h.nrm,
   (W24_of_ne m ρ c main_v38 (by decide)).trans h.x0,
   (W24_of_ne m ρ c main_arg5 (by decide)).trans h.a5,
   (W24_of_ne m ρ c main_arg6 (by decide)).trans h.a6,
   (W24_of_ne m ρ c main_arg7 (by decide)).trans h.a7,
   (W24_of_ne m ρ c main_arg8 (by decide)).trans h.a8,
   (W24_of_ne m ρ c main_arg9 (by decide)).trans h.a9,
   (W24_of_ne m ρ c main_arg10 (by decide)).trans h.a10,
   (W24_of_ne m ρ c main_arg11 (by decide)).trans h.a11⟩

/-! ## Region 0's entry, read off the three opening stretches -/

theorem e3_src : W3 m ρ c (Proc.devRef .tc main_v7) = SRC m c := by
  dsimp only [W3, W2, W1, W0]
  after_results
  try rfl
theorem e3_dst : W3 m ρ c (Proc.devRef .tc main_v8) = DST m c := by
  dsimp only [W3, W2, W1, W0]
  after_results
  try rfl
theorem e3_arg0 : W3 m ρ c (Proc.devRef .tc main_arg0) = m ((c : Thread nD τ).loc main_arg0) := by
  dsimp only [W3, W2, W1, W0]
  after_results
  try rfl
theorem e3_v36 : W3 m ρ c (Proc.devRef .tc main_v36) = transpose Cert.ReferenceIdeal.S128x128 [1, 0] (m ((c : Thread nD τ).loc main_arg3)) Cert.ReferenceIdeal.Facts₀.transposes_S128x128_S128x128_1_0 := by
  dsimp only [W3, W2, W1, W0]
  after_results
  try rfl
theorem e3_v37 : W3 m ρ c (Proc.devRef .tc main_v37) = shapeCast Cert.KernelIdeal.S1x128 (m ((c : Thread nD τ).loc main_arg4)) Cert.KernelIdeal.Facts₀.shapeCasts_S128_S1x128 := by
  dsimp only [W3, W2, W1, W0]
  after_results
  try rfl
theorem e3_a5 : W3 m ρ c (Proc.devRef .tc main_arg5) = m ((c : Thread nD τ).loc main_arg5) := by
  dsimp only [W3, W2, W1, W0]
  after_results
  try rfl
theorem e3_a6 : W3 m ρ c (Proc.devRef .tc main_arg6) = m ((c : Thread nD τ).loc main_arg6) := by
  dsimp only [W3, W2, W1, W0]
  after_results
  try rfl
theorem e3_a7 : W3 m ρ c (Proc.devRef .tc main_arg7) = m ((c : Thread nD τ).loc main_arg7) := by
  dsimp only [W3, W2, W1, W0]
  after_results
  try rfl
theorem e3_a8 : W3 m ρ c (Proc.devRef .tc main_arg8) = m ((c : Thread nD τ).loc main_arg8) := by
  dsimp only [W3, W2, W1, W0]
  after_results
  try rfl
theorem e3_a9 : W3 m ρ c (Proc.devRef .tc main_arg9) = m ((c : Thread nD τ).loc main_arg9) := by
  dsimp only [W3, W2, W1, W0]
  after_results
  try rfl
theorem e3_a10 : W3 m ρ c (Proc.devRef .tc main_arg10) = m ((c : Thread nD τ).loc main_arg10) := by
  dsimp only [W3, W2, W1, W0]
  after_results
  try rfl
theorem e3_a11 : W3 m ρ c (Proc.devRef .tc main_arg11) = m ((c : Thread nD τ).loc main_arg11) := by
  dsimp only [W3, W2, W1, W0]
  after_results
  try rfl

/-! ## The stretches that compute, for any contents they start from -/

theorem prop1 (W : Valuation τ sig (Elt Ideal)) : StableHlo.after hostOps1 W (Proc.devRef .tc main_v51)
    = Cert.Gcn.propagate (F := Ideal) (W (Proc.devRef .tc main_v7)) (W (Proc.devRef .tc main_v8)) (W (Proc.devRef .tc main_v35)) (W (Proc.devRef .tc main_v38)) := by
  after_results_simp
  try rfl
theorem prop3 (W : Valuation τ sig (Elt Ideal)) : StableHlo.after hostOps3 W (Proc.devRef .tc main_v74)
    = Cert.Gcn.propagate (F := Ideal) (W (Proc.devRef .tc main_v7)) (W (Proc.devRef .tc main_v8)) (W (Proc.devRef .tc main_v35)) (W (Proc.devRef .tc main_v61)) := by
  after_results_simp
  try rfl
theorem prop5 (W : Valuation τ sig (Elt Ideal)) : StableHlo.after hostOps5 W (Proc.devRef .tc main_v97)
    = Cert.Gcn.propagate (F := Ideal) (W (Proc.devRef .tc main_v7)) (W (Proc.devRef .tc main_v8)) (W (Proc.devRef .tc main_v35)) (W (Proc.devRef .tc main_v84)) := by
  after_results_simp
  try rfl
set_option maxHeartbeats 1000000 in
theorem stat2_mean (W : Valuation τ sig (Elt Ideal)) : StableHlo.after hostOps2_2 (StableHlo.after hostOps2_1 (StableHlo.after hostOps2 W)) (Proc.devRef .tc main_v57)
    = shapeCast Cert.KernelIdeal.S1x128 (Cert.Gcn.colMean (F := Ideal) (W (Proc.devRef .tc main_v52))) Cert.KernelIdeal.Facts₀.shapeCasts_S128_S1x128 := by
  after_results_simp
  try rfl
set_option maxHeartbeats 1000000 in
theorem stat2_var (W : Valuation τ sig (Elt Ideal)) : StableHlo.after hostOps2_2 (StableHlo.after hostOps2_1 (StableHlo.after hostOps2 W)) (Proc.devRef .tc main_v58)
    = shapeCast Cert.KernelIdeal.S1x128 (Cert.Gcn.colVar (F := Ideal) (W (Proc.devRef .tc main_v52))) Cert.KernelIdeal.Facts₀.shapeCasts_S128_S1x128 := by
  after_results_simp
  try rfl
theorem stat2_gamma (W : Valuation τ sig (Elt Ideal)) : StableHlo.after hostOps2_2 (StableHlo.after hostOps2_1 (StableHlo.after hostOps2 W)) (Proc.devRef .tc main_v59)
    = shapeCast Cert.KernelIdeal.S1x128 (W (Proc.devRef .tc main_arg8)) Cert.KernelIdeal.Facts₀.shapeCasts_S128_S1x128 := by
  after_results_simp
  try rfl
theorem stat2_beta (W : Valuation τ sig (Elt Ideal)) : StableHlo.after hostOps2_2 (StableHlo.after hostOps2_1 (StableHlo.after hostOps2 W)) (Proc.devRef .tc main_v60)
    = shapeCast Cert.KernelIdeal.S1x128 (W (Proc.devRef .tc main_arg9)) Cert.KernelIdeal.Facts₀.shapeCasts_S128_S1x128 := by
  after_results_simp
  try rfl
theorem stat2_mm (W : Valuation τ sig (Elt Ideal)) : StableHlo.after hostOps2_2 (StableHlo.after hostOps2_1 (StableHlo.after hostOps2 W)) (Proc.devRef .tc main_v52)
    = W (Proc.devRef .tc main_v52) := by
  after_results_simp
  try rfl
set_option maxHeartbeats 1000000 in
theorem stat4_mean (W : Valuation τ sig (Elt Ideal)) : StableHlo.after hostOps4_2 (StableHlo.after hostOps4_1 (StableHlo.after hostOps4 W)) (Proc.devRef .tc main_v80)
    = shapeCast Cert.KernelIdeal.S1x128 (Cert.Gcn.colMean (F := Ideal) (W (Proc.devRef .tc main_v75))) Cert.KernelIdeal.Facts₀.shapeCasts_S128_S1x128 := by
  after_results_simp
  try rfl
set_option maxHeartbeats 1000000 in
theorem stat4_var (W : Valuation τ sig (Elt Ideal)) : StableHlo.after hostOps4_2 (StableHlo.after hostOps4_1 (StableHlo.after hostOps4 W)) (Proc.devRef .tc main_v81)
    = shapeCast Cert.KernelIdeal.S1x128 (Cert.Gcn.colVar (F := Ideal) (W (Proc.devRef .tc main_v75))) Cert.KernelIdeal.Facts₀.shapeCasts_S128_S1x128 := by
  after_results_simp
  try rfl
theorem stat4_gamma (W : Valuation τ sig (Elt Ideal)) : StableHlo.after hostOps4_2 (StableHlo.after hostOps4_1 (StableHlo.after hostOps4 W)) (Proc.devRef .tc main_v82)
    = shapeCast Cert.KernelIdeal.S1x128 (W (Proc.devRef .tc main_arg8)) Cert.KernelIdeal.Facts₀.shapeCasts_S128_S1x128 := by
  after_results_simp
  try rfl
theorem stat4_beta (W : Valuation τ sig (Elt Ideal)) : StableHlo.after hostOps4_2 (StableHlo.after hostOps4_1 (StableHlo.after hostOps4 W)) (Proc.devRef .tc main_v83)
    = shapeCast Cert.KernelIdeal.S1x128 (W (Proc.devRef .tc main_arg9)) Cert.KernelIdeal.Facts₀.shapeCasts_S128_S1x128 := by
  after_results_simp
  try rfl
theorem stat4_mm (W : Valuation τ sig (Elt Ideal)) : StableHlo.after hostOps4_2 (StableHlo.after hostOps4_1 (StableHlo.after hostOps4 W)) (Proc.devRef .tc main_v75)
    = W (Proc.devRef .tc main_v75) := by
  after_results_simp
  try rfl
set_option maxHeartbeats 1000000 in
theorem stat6_mean (W : Valuation τ sig (Elt Ideal)) : StableHlo.after hostOps6_2 (StableHlo.after hostOps6_1 (StableHlo.after hostOps6 W)) (Proc.devRef .tc main_v103)
    = shapeCast Cert.KernelIdeal.S1x128 (Cert.Gcn.colMean (F := Ideal) (W (Proc.devRef .tc main_v98))) Cert.KernelIdeal.Facts₀.shapeCasts_S128_S1x128 := by
  after_results_simp
  try rfl
set_option maxHeartbeats 1000000 in
theorem stat6_var (W : Valuation τ sig (Elt Ideal)) : StableHlo.after hostOps6_2 (StableHlo.after hostOps6_1 (StableHlo.after hostOps6 W)) (Proc.devRef .tc main_v104)
    = shapeCast Cert.KernelIdeal.S1x128 (Cert.Gcn.colVar (F := Ideal) (W (Proc.devRef .tc main_v98))) Cert.KernelIdeal.Facts₀.shapeCasts_S128_S1x128 := by
  after_results_simp
  try rfl
theorem stat6_gamma (W : Valuation τ sig (Elt Ideal)) : StableHlo.after hostOps6_2 (StableHlo.after hostOps6_1 (StableHlo.after hostOps6 W)) (Proc.devRef .tc main_v105)
    = shapeCast Cert.KernelIdeal.S1x128 (W (Proc.devRef .tc main_arg8)) Cert.KernelIdeal.Facts₀.shapeCasts_S128_S1x128 := by
  after_results_simp
  try rfl
theorem stat6_beta (W : Valuation τ sig (Elt Ideal)) : StableHlo.after hostOps6_2 (StableHlo.after hostOps6_1 (StableHlo.after hostOps6 W)) (Proc.devRef .tc main_v106)
    = shapeCast Cert.KernelIdeal.S1x128 (W (Proc.devRef .tc main_arg9)) Cert.KernelIdeal.Facts₀.shapeCasts_S128_S1x128 := by
  after_results_simp
  try rfl
theorem stat6_mm (W : Valuation τ sig (Elt Ideal)) : StableHlo.after hostOps6_2 (StableHlo.after hostOps6_1 (StableHlo.after hostOps6 W)) (Proc.devRef .tc main_v98)
    = W (Proc.devRef .tc main_v98) := by
  after_results_simp
  try rfl
theorem head_w (W : Valuation τ sig (Elt Ideal)) : StableHlo.after hostOps7 W (Proc.devRef .tc main_v108)
    = transpose Cert.ReferenceIdeal.S128x64 [1, 0] (W (Proc.devRef .tc main_arg10)) Cert.ReferenceIdeal.Facts₀.transposes_S64x128_S128x64_1_0 := by
  after_results_simp
  try rfl
theorem head_b (W : Valuation τ sig (Elt Ideal)) : StableHlo.after hostOps7 W (Proc.devRef .tc main_v109)
    = shapeCast Cert.KernelIdeal.S1x64 (W (Proc.devRef .tc main_arg11)) Cert.KernelIdeal.Facts₀.shapeCasts_S64_S1x64 := by
  after_results_simp
  try rfl
theorem head_h (W : Valuation τ sig (Elt Ideal)) : StableHlo.after hostOps7 W (Proc.devRef .tc main_v107) = W (Proc.devRef .tc main_v107) := by
  after_results_simp

end Cert.KernelIdeal.KChain

end
-- ==== Proof.KernelNorm.lean ====
/-
  The edges' normalisation, read off the three opening stretches of host operations. The first stretch builds the edge
  lists with a loop per node, the edge weights with a weight of one per loop, the weighted in-degree of every node, its
  comparison with zero and the inverse root of the degree clamped from below; the second selects the inverse root where the
  degree is positive and zero elsewhere; the third gathers that vector at both endpoints of every edge and multiplies the two
  with the edge's weight. Each stretch is read for an arbitrary starting valuation, at the buffers the next one needs; the
  three readings composed are the symmetric normalisation d(src)^(-1/2) * w * d(dst)^(-1/2) of the arguments.
-/
import proofs.«171907_j55800215109855_1_alg».proof.Proof.KernelKept

set_option maxRecDepth 16384

noncomputable section

namespace Cert.KernelIdeal.KChain

open Idealize.ShloMosaic Idealize.ShloMosaic.TcCoe Idealize.SL.Sem Idealize.ShloMosaic.StableHlo
open Cert.KernelIdeal Cert.KernelIdeal.Gen

section Stretches
variable (W : Valuation τ sig (Elt Ideal))

/-- After the first stretch the source list is the edge sources with loops. -/
theorem s0_src : after hostOps0 W (Proc.devRef .tc main_v7) = Cert.Gcn.srcIdx (F := Ideal) (W (Proc.devRef .tc main_arg1)) := by
  after_results; rfl

/-- … the target list the edge targets with loops … -/
theorem s0_dst : after hostOps0 W (Proc.devRef .tc main_v8) = Cert.Gcn.dstIdx (F := Ideal) (W (Proc.devRef .tc main_arg1)) := by
  after_results; rfl

/-- … the weight list the edge weights with a one per loop … -/
theorem s0_w : after hostOps0 W (Proc.devRef .tc main_v10) = Cert.Gcn.edgeW (F := Ideal) (W (Proc.devRef .tc main_arg2)) := by
  after_results; rfl

/-- … the comparison of the weighted degree against zero … -/
theorem s0_pos : after hostOps0 W (Proc.devRef .tc main_v15)
    = cmpf .ogt (Cert.Gcn.degree (F := Ideal) (Cert.Gcn.dstIdx (F := Ideal) (W (Proc.devRef .tc main_arg1)))
        (Cert.Gcn.edgeW (F := Ideal) (W (Proc.devRef .tc main_arg2))))
      (broadcastInDim S100000 ![] Facts₀.bcast_S_S100000 (constant (F := Ideal) S_ .f32 0x00000000#32)) := by
  after_results; rfl

/-- … the inverse root of the degree clamped from below … -/
theorem s0_rsqrt : after hostOps0 W (Proc.devRef .tc main_v18)
    = Host.rsqrt (maximumf (Cert.Gcn.degree (F := Ideal) (Cert.Gcn.dstIdx (F := Ideal) (W (Proc.devRef .tc main_arg1)))
        (Cert.Gcn.edgeW (F := Ideal) (W (Proc.devRef .tc main_arg2))))
      (broadcastInDim S100000 ![] Facts₀.bcast_S_S100000 (constant (F := Ideal) S_ .f32 0x0DA24260#32))) := by
  after_results; rfl

/-- … and the zero the inverse root is replaced by where the degree is not positive. -/
theorem s0_zero : after hostOps0 W (Proc.devRef .tc main_cst_3) = constant (F := Ideal) S_ .f32 0x00000000#32 := by
  after_results

/-- The second stretch selects, node by node, the inverse root where the degree is positive and the zero elsewhere … -/
theorem s1_inv : after hostOps0_1 W (Proc.devRef .tc main_v19)
    = select (W (Proc.devRef .tc main_v15)) (W (Proc.devRef .tc main_v18))
        (broadcastInDim S100000 ![] Facts₀.bcast_S_S100000 (id (W (Proc.devRef .tc main_cst_3)))) := by
  after_results; rfl

/-- … and writes none of the edge lists or the edge weights. -/
theorem s1_src : after hostOps0_1 W (Proc.devRef .tc main_v7) = W (Proc.devRef .tc main_v7) := by after_results
theorem s1_dst : after hostOps0_1 W (Proc.devRef .tc main_v8) = W (Proc.devRef .tc main_v8) := by after_results
theorem s1_w : after hostOps0_1 W (Proc.devRef .tc main_v10) = W (Proc.devRef .tc main_v10) := by after_results

/-- The third stretch gathers the inverse roots at both endpoints of every edge (a negative endpoint counted from the
    end) and multiplies them with the edge's weight. -/
theorem s2_nrm : after hostOps0_2 W (Proc.devRef .tc main_v35)
    = (mulf (F := Ideal) (φ := .f32) (mulf (F := Ideal) (φ := .f32)
          (Host.gather gather_S100000_S1700000x1_S1700000_n_0_n_n_0_1_1
            (W (Proc.devRef .tc main_v19) : (⟨S100000, .f32⟩ : BufTy).Contents (Elt Ideal))
            (Cert.Gcn.wrapIdx (F := Ideal) (W (Proc.devRef .tc main_v7))))
          (W (Proc.devRef .tc main_v10) : (⟨S1700000, .f32⟩ : BufTy).Contents (Elt Ideal)))
        (Host.gather gather_S100000_S1700000x1_S1700000_n_0_n_n_0_1_1
          (W (Proc.devRef .tc main_v19) : (⟨S100000, .f32⟩ : BufTy).Contents (Elt Ideal))
          (Cert.Gcn.wrapIdx (F := Ideal) (W (Proc.devRef .tc main_v8)))) : (⟨S1700000, .f32⟩ : BufTy).Contents (Elt Ideal)) := by
  after_results_simp
  rfl

end Stretches

variable (m : (ℓ : Loc nD τ sig) → Buf (Elt Ideal) ℓ) (ρ : Dev nD → PrngReg) (c : Dev nD)

/-- After the three opening stretches the normalisation buffer holds the edges' symmetric normalisation of the
    arguments: the three stretches composed, the degree and its inverse root named once. -/
theorem e3_nrm : W3 m ρ c (Proc.devRef .tc main_v35) = NRM m c := by
  show after hostOps0_2 (after hostOps0_1 (after hostOps0 (W0 m ρ c))) (Proc.devRef .tc main_v35) = _
  rw [s2_nrm, s1_inv, s1_src, s1_dst, s1_w, s0_src, s0_dst, s0_w, s0_pos, s0_rsqrt, s0_zero]
  rfl

end Cert.KernelIdeal.KChain

end
-- ==== Proof.KernelChain.lean ====
/-
  The kernel program's two results as the network of the arguments. The kept values (edge lists with loops, the edge
  normalisation, the first layer's output x0, the weights, scale and shift) ride through every segment; at each region the
  output array is the named host function of the region's inputs, and its inputs are what the preceding stretch computed
  from what the preceding region left. So: x0 after region 0; for each of the three layers the product
  (0.75 · propagate h + 0.25 · x0) · w after the combine region and, the statistics stretch having laid the column mean,
  the column variance, the scale and the shift out as rows, the normalised and rectified layer after the batch
  normalisation region; and after the last region the output head of the third layer's features.
-/
import proofs.«171907_j55800215109855_1_alg».proof.Proof.KernelSteps
import proofs.«171907_j55800215109855_1_alg».proof.Proof.KernelNorm

set_option maxRecDepth 16384

noncomputable section

namespace Cert.KernelIdeal.KChain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The first layer's features. -/
abbrev H1 := Cert.Gcn.layer (F := Ideal) (SRC m c) (DST m c) (NRM m c) (X0 m c) (X0 m c)
  (m ((c : Thread nD τ).loc main_arg5)) (m ((c : Thread nD τ).loc main_arg8)) (m ((c : Thread nD τ).loc main_arg9))
/-- The second layer's. -/
abbrev H2 := Cert.Gcn.layer (F := Ideal) (SRC m c) (DST m c) (NRM m c) (X0 m c) (H1 m c)
  (m ((c : Thread nD τ).loc main_arg6)) (m ((c : Thread nD τ).loc main_arg8)) (m ((c : Thread nD τ).loc main_arg9))
/-- The third layer's: the hidden features the program returns. -/
abbrev H3 := Cert.Gcn.layer (F := Ideal) (SRC m c) (DST m c) (NRM m c) (X0 m c) (H2 m c)
  (m ((c : Thread nD τ).loc main_arg7)) (m ((c : Thread nD τ).loc main_arg8)) (m ((c : Thread nD τ).loc main_arg9))

variable (hR : RegionValues)
include hR

/-! ## Region 0: the first layer's output -/

theorem x4 : W4 m ρ c (Proc.devRef .tc main_v38) = X0 m c := by
  refine (W4_arr m ρ c 3).trans ((hR.r0 (V3 m ρ) c).trans ?_)
  show Cert.Gcn.lin1 (F := Ideal) (W3 m ρ c (Proc.devRef .tc main_arg0)) (W3 m ρ c (Proc.devRef .tc main_v36))
    (W3 m ρ c (Proc.devRef .tc main_v37)) = _
  rw [e3_arg0, e3_v36, e3_v37, hR.row128]
  rfl

theorem k4 : Kept m c (W4 m ρ c) :=
  ⟨(W4_of_ne m ρ c main_v7 (by decide)).trans (e3_src m ρ c), (W4_of_ne m ρ c main_v8 (by decide)).trans (e3_dst m ρ c),
   (W4_of_ne m ρ c main_v35 (by decide)).trans (e3_nrm m ρ c), x4 m ρ c hR,
   (W4_of_ne m ρ c main_arg5 (by decide)).trans (e3_a5 m ρ c), (W4_of_ne m ρ c main_arg6 (by decide)).trans (e3_a6 m ρ c),
   (W4_of_ne m ρ c main_arg7 (by decide)).trans (e3_a7 m ρ c), (W4_of_ne m ρ c main_arg8 (by decide)).trans (e3_a8 m ρ c),
   (W4_of_ne m ρ c main_arg9 (by decide)).trans (e3_a9 m ρ c), (W4_of_ne m ρ c main_arg10 (by decide)).trans (e3_a10 m ρ c),
   (W4_of_ne m ρ c main_arg11 (by decide)).trans (e3_a11 m ρ c)⟩

/-! ## Layer 1 -/

theorem k5 : Kept m c (W5 m ρ c) := kept_hostOps1 m c (k4 m ρ c hR)

theorem p5 : W5 m ρ c (Proc.devRef .tc main_v51) = Cert.Gcn.propagate (F := Ideal) (SRC m c) (DST m c) (NRM m c) (X0 m c) := by
  refine (prop1 (W4 m ρ c)).trans ?_
  rw [(k4 m ρ c hR).src, (k4 m ρ c hR).dst, (k4 m ρ c hR).nrm, (k4 m ρ c hR).x0]

theorem mm1 : W6 m ρ c (Proc.devRef .tc main_v52)
    = Cert.Gcn.comb (F := Ideal) (Cert.Gcn.propagate (F := Ideal) (SRC m c) (DST m c) (NRM m c) (X0 m c)) (X0 m c) (m ((c : Thread nD τ).loc main_arg5)) := by
  refine (W6_arr m ρ c 3).trans ((hR.r1 (V5 m ρ) c).trans ?_)
  show Cert.Gcn.comb (F := Ideal) (W5 m ρ c (Proc.devRef .tc main_v51)) (W5 m ρ c (Proc.devRef .tc main_v38))
    (W5 m ρ c (Proc.devRef .tc main_arg5)) = _
  rw [p5 m ρ c hR, (k5 m ρ c hR).x0, (k5 m ρ c hR).a5]

theorem k6 : Kept m c (W6 m ρ c) := kept_r1 m ρ c (k5 m ρ c hR)

theorem k9 : Kept m c (W9 m ρ c) := kept_hostOps2_2 m c (kept_hostOps2_1 m c (kept_hostOps2 m c (k6 m ρ c hR)))

theorem h1 : W10 m ρ c (Proc.devRef .tc main_v61) = H1 m c := by
  refine (W10_arr m ρ c 5).trans ((hR.r2 (V9 m ρ) c).trans ?_)
  show Cert.Gcn.bnrelu (F := Ideal) (W9 m ρ c (Proc.devRef .tc main_v52)) (W9 m ρ c (Proc.devRef .tc main_v57))
    (W9 m ρ c (Proc.devRef .tc main_v58)) (W9 m ρ c (Proc.devRef .tc main_v59)) (W9 m ρ c (Proc.devRef .tc main_v60)) = _
  have e52 : W9 m ρ c (Proc.devRef .tc main_v52) = _ := (stat2_mm (W6 m ρ c)).trans (mm1 m ρ c hR)
  have e57 : W9 m ρ c (Proc.devRef .tc main_v57) = _ := stat2_mean (W6 m ρ c)
  have e58 : W9 m ρ c (Proc.devRef .tc main_v58) = _ := stat2_var (W6 m ρ c)
  have e59 : W9 m ρ c (Proc.devRef .tc main_v59) = _ := stat2_gamma (W6 m ρ c)
  have e60 : W9 m ρ c (Proc.devRef .tc main_v60) = _ := stat2_beta (W6 m ρ c)
  rw [e52, e57, e58, e59, e60, hR.row128, hR.row128, hR.row128, hR.row128, mm1 m ρ c hR, (k6 m ρ c hR).a8, (k6 m ρ c hR).a9]
  rfl

theorem k10 : Kept m c (W10 m ρ c) := kept_r2 m ρ c (k9 m ρ c hR)

/-! ## Layer 2 -/

theorem k11 : Kept m c (W11 m ρ c) := kept_hostOps3 m c (k10 m ρ c hR)

theorem p11 : W11 m ρ c (Proc.devRef .tc main_v74) = Cert.Gcn.propagate (F := Ideal) (SRC m c) (DST m c) (NRM m c) (H1 m c) := by
  refine (prop3 (W10 m ρ c)).trans ?_
  rw [(k10 m ρ c hR).src, (k10 m ρ c hR).dst, (k10 m ρ c hR).nrm, h1 m ρ c hR]

theorem mm2 : W12 m ρ c (Proc.devRef .tc main_v75)
    = Cert.Gcn.comb (F := Ideal) (Cert.Gcn.propagate (F := Ideal) (SRC m c) (DST m c) (NRM m c) (H1 m c)) (X0 m c) (m ((c : Thread nD τ).loc main_arg6)) := by
  refine (W12_arr m ρ c 3).trans ((hR.r3 (V11 m ρ) c).trans ?_)
  show Cert.Gcn.comb (F := Ideal) (W11 m ρ c (Proc.devRef .tc main_v74)) (W11 m ρ c (Proc.devRef .tc main_v38))
    (W11 m ρ c (Proc.devRef .tc main_arg6)) = _
  rw [p11 m ρ c hR, (k11 m ρ c hR).x0, (k11 m ρ c hR).a6]

theorem k12 : Kept m c (W12 m ρ c) := kept_r3 m ρ c (k11 m ρ c hR)

theorem k15 : Kept m c (W15 m ρ c) := kept_hostOps4_2 m c (kept_hostOps4_1 m c (kept_hostOps4 m c (k12 m ρ c hR)))

theorem h2 : W16 m ρ c (Proc.devRef .tc main_v84) = H2 m c := by
  refine (W16_arr m ρ c 5).trans ((hR.r4 (V15 m ρ) c).trans ?_)
  show Cert.Gcn.bnrelu (F := Ideal) (W15 m ρ c (Proc.devRef .tc main_v75)) (W15 m ρ c (Proc.devRef .tc main_v80))
    (W15 m ρ c (Proc.devRef .tc main_v81)) (W15 m ρ c (Proc.devRef .tc main_v82)) (W15 m ρ c (Proc.devRef .tc main_v83)) = _
  have e75 : W15 m ρ c (Proc.devRef .tc main_v75) = _ := (stat4_mm (W12 m ρ c)).trans (mm2 m ρ c hR)
  have e80 : W15 m ρ c (Proc.devRef .tc main_v80) = _ := stat4_mean (W12 m ρ c)
  have e81 : W15 m ρ c (Proc.devRef .tc main_v81) = _ := stat4_var (W12 m ρ c)
  have e82 : W15 m ρ c (Proc.devRef .tc main_v82) = _ := stat4_gamma (W12 m ρ c)
  have e83 : W15 m ρ c (Proc.devRef .tc main_v83) = _ := stat4_beta (W12 m ρ c)
  rw [e75, e80, e81, e82, e83, hR.row128, hR.row128, hR.row128, hR.row128, mm2 m ρ c hR, (k12 m ρ c hR).a8, (k12 m ρ c hR).a9]
  rfl

theorem k16 : Kept m c (W16 m ρ c) := kept_r4 m ρ c (k15 m ρ c hR)

/-! ## Layer 3 -/

theorem k17 : Kept m c (W17 m ρ c) := kept_hostOps5 m c (k16 m ρ c hR)

theorem p17 : W17 m ρ c (Proc.devRef .tc main_v97) = Cert.Gcn.propagate (F := Ideal) (SRC m c) (DST m c) (NRM m c) (H2 m c) := by
  refine (prop5 (W16 m ρ c)).trans ?_
  rw [(k16 m ρ c hR).src, (k16 m ρ c hR).dst, (k16 m ρ c hR).nrm, h2 m ρ c hR]

theorem mm3 : W18 m ρ c (Proc.devRef .tc main_v98)
    = Cert.Gcn.comb (F := Ideal) (Cert.Gcn.propagate (F := Ideal) (SRC m c) (DST m c) (NRM m c) (H2 m c)) (X0 m c) (m ((c : Thread nD τ).loc main_arg7)) := by
  refine (W18_arr m ρ c 3).trans ((hR.r5 (V17 m ρ) c).trans ?_)
  show Cert.Gcn.comb (F := Ideal) (W17 m ρ c (Proc.devRef .tc main_v97)) (W17 m ρ c (Proc.devRef .tc main_v38))
    (W17 m ρ c (Proc.devRef .tc main_arg7)) = _
  rw [p17 m ρ c hR, (k17 m ρ c hR).x0, (k17 m ρ c hR).a7]

theorem k18 : Kept m c (W18 m ρ c) := kept_r5 m ρ c (k17 m ρ c hR)

theorem k21 : Kept m c (W21 m ρ c) := kept_hostOps6_2 m c (kept_hostOps6_1 m c (kept_hostOps6 m c (k18 m ρ c hR)))

theorem h3 : W22 m ρ c (Proc.devRef .tc main_v107) = H3 m c := by
  refine (W22_arr m ρ c 5).trans ((hR.r6 (V21 m ρ) c).trans ?_)
  show Cert.Gcn.bnrelu (F := Ideal) (W21 m ρ c (Proc.devRef .tc main_v98)) (W21 m ρ c (Proc.devRef .tc main_v103))
    (W21 m ρ c (Proc.devRef .tc main_v104)) (W21 m ρ c (Proc.devRef .tc main_v105)) (W21 m ρ c (Proc.devRef .tc main_v106)) = _
  have e98 : W21 m ρ c (Proc.devRef .tc main_v98) = _ := (stat6_mm (W18 m ρ c)).trans (mm3 m ρ c hR)
  have e103 : W21 m ρ c (Proc.devRef .tc main_v103) = _ := stat6_mean (W18 m ρ c)
  have e104 : W21 m ρ c (Proc.devRef .tc main_v104) = _ := stat6_var (W18 m ρ c)
  have e105 : W21 m ρ c (Proc.devRef .tc main_v105) = _ := stat6_gamma (W18 m ρ c)
  have e106 : W21 m ρ c (Proc.devRef .tc main_v106) = _ := stat6_beta (W18 m ρ c)
  rw [e98, e103, e104, e105, e106, hR.row128, hR.row128, hR.row128, hR.row128, mm3 m ρ c hR, (k18 m ρ c hR).a8, (k18 m ρ c hR).a9]
  rfl

theorem k22 : Kept m c (W22 m ρ c) := kept_r6 m ρ c (k21 m ρ c hR)

/-! ## The two results -/

theorem e107 : W23 m ρ c (Proc.devRef .tc main_v107) = H3 m c := (head_h (W22 m ρ c)).trans (h3 m ρ c hR)

/-- The hidden features the program returns are the three-layer network of the first ten arguments. -/
theorem hidden : W24 m ρ c (Proc.devRef .tc main_v107)
    = Cert.Gcn.netH (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) :=
  (((W24_arr m ρ c 0).trans (((dat7 (V23 m ρ) c).arrAt_in 0 rfl _).trans (A_eq7 (V23 m ρ) c 0))).trans (e107 m ρ c hR)).trans rfl

/-- The output it returns is the head of those features. -/
theorem output : W24 m ρ c (Proc.devRef .tc main_v110)
    = Cert.Gcn.netO (F := Ideal)
        (Cert.Gcn.netH (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)))
        (m ((c : Thread nD τ).loc main_arg10)) (m ((c : Thread nD τ).loc main_arg11)) := by
  refine (W24_arr m ρ c 3).trans ((hR.r7 (V23 m ρ) c).trans ?_)
  show Cert.Gcn.lin2 (F := Ideal) (W23 m ρ c (Proc.devRef .tc main_v107)) (W23 m ρ c (Proc.devRef .tc main_v108))
    (W23 m ρ c (Proc.devRef .tc main_v109)) = _
  have e108 : W23 m ρ c (Proc.devRef .tc main_v108) = _ := head_w (W22 m ρ c)
  have e109 : W23 m ρ c (Proc.devRef .tc main_v109) = _ := head_b (W22 m ρ c)
  rw [e107 m ρ c hR, e108, e109, (k22 m ρ c hR).a10, (k22 m ρ c hR).a11, hR.row64]
  rfl

end Cert.KernelIdeal.KChain

end
-- ==== Proof.RegionLin.lean ====
/-
  The two linear regions, read as values. Region 0 maps the 100000 x 128 input through a 128 x 128 weight matrix and adds a
  bias row; region 7 maps the hidden features through a 128 x 64 matrix and adds a bias row. Each runs over twenty blocks of
  5000 rows, the weights and the bias whole at every point. For any contents of the buffers when the region is entered, the
  region's output array afterwards is the reference's affine map of the region's three input arrays.

  At the extended reals both sides at (r, j) are (sum over k of x (r, k) * w (k, j)) + b (0, j): a narrowing format change
  is the identity, a matrix product into a zero accumulator is the contraction sum, and the host's product is the same sum;
  the two sums run over each record's own one-axis contraction index and are re-indexed by that axis' coordinate. Row r of
  the array is row r mod 5000 of block r / 5000.
-/
import proofs.«171907_j55800215109855_1_alg».proof.Proof.Gen.KernelIdeal.Frame
import proofs.«171907_j55800215109855_1_alg».proof.Proof.Gen.ReferenceIdeal
import proofs.«171907_j55800215109855_1_alg».proof.Proof.Terms
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

noncomputable section

namespace Cert.KernelIdeal.RegVal

open Cert.KernelIdeal Cert.KernelIdeal.Gen Idealize.ShloMosaic Idealize.ShloMosaic.ValueIdx Idealize.ShloMosaic.TcCoe
open Idealize.ShloMosaic.Pipeline (Dat)

/-- A matrix product's contraction sum over a one-axis contraction index, re-indexed by that axis' coordinate. -/
theorem contr_sum {M K N : Nat} (D : DotDims ⟨2, ![M, K]⟩ ⟨2, ![K, N]⟩ ⟨2, ![M, N]⟩)
    (hr : D.contr.rank = 1) (hs : D.contr.size ⟨0, by omega⟩ = K)
    (hl : ∀ (p : Fin M) (q : Fin N) (k : D.contr.Idx), D.lhsIdx (ix2 p q) k = ix2 p ((k ⟨0, by omega⟩).cast hs))
    (hr' : ∀ (p : Fin M) (q : Fin N) (k : D.contr.Idx), D.rhsIdx (ix2 p q) k = ix2 ((k ⟨0, by omega⟩).cast hs) q)
    (lhs : (⟨2, ![M, K]⟩ : Shape).Idx → EReal) (rhs : (⟨2, ![K, N]⟩ : Shape).Idx → EReal) (p : Fin M) (q : Fin N) :
    ∑ k : D.contr.Idx, lhs (D.lhsIdx (ix2 p q) k) * rhs (D.rhsIdx (ix2 p q) k) = ∑ k : Fin K, lhs (ix2 p k) * rhs (ix2 k q) := by
  refine Eq.trans (Finset.sum_congr rfl fun k _ => ?_)
    (Equiv.sum_comp (contrEquiv1 D K hr hs) (fun k => lhs (ix2 p k) * rhs (ix2 k q)))
  rw [hl, hr']
  rfl

/-- The first kernel's product reads its left operand at (row, contraction coordinate). -/
theorem k0_lhs (p : Fin 5000) (q : Fin 128) (k : dot_S5000x128_S128x128_S5000x128_1_0_0_1_n_n.contr.Idx) :
    dot_S5000x128_S128x128_S5000x128_1_0_0_1_n_n.lhsIdx (ix2 p q) k = ix2 p ((k ⟨0, Nat.one_pos⟩).cast rfl) :=
  funext fun a => Fin.ext (by match a with | ⟨0, _⟩ => rfl | ⟨1, _⟩ => rfl)

/-- … and its right operand at (contraction coordinate, column). -/
theorem k0_rhs (p : Fin 5000) (q : Fin 128) (k : dot_S5000x128_S128x128_S5000x128_1_0_0_1_n_n.contr.Idx) :
    dot_S5000x128_S128x128_S5000x128_1_0_0_1_n_n.rhsIdx (ix2 p q) k = ix2 ((k ⟨0, Nat.one_pos⟩).cast rfl) q :=
  funext fun a => Fin.ext (by match a with | ⟨0, _⟩ => rfl | ⟨1, _⟩ => rfl)

/-- The first linear kernel's block at (p, q): the row of the input block times the column of the weights, plus the bias. -/
theorem pay0_apply (x0 : Vec Ideal S5000x128 .f32) (x1 : Vec Ideal S128x128 .f32) (x2 : Vec Ideal S1x128 .f32)
    (p : Fin 5000) (q : Fin 128) :
    k0_pay1 x0 x1 x2 (ix2 p q) = (∑ k : Fin 128, x0 (ix2 p k) * x1 (ix2 k q)) + x2 (ix2 (0 : Fin 1) q) := by
  unfold k0_pay1
  rw [shapeCast_self, shapeCast_self]
  refine (addf_apply _ _ (ix2 p q)).trans ?_
  refine congrArg₂ (· + ·) ?_ ?_
  · refine (Ideal.matmul_constant_zero_apply _ none _ _ (ix2 p q)).trans ?_
    exact contr_sum dot_S5000x128_S128x128_S5000x128_1_0_0_1_n_n rfl rfl k0_lhs k0_rhs x0 x1 p q
  · exact broadcastTo_apply x2 broadcasts_S1x128_S5000x128 (ix2 p q) (ix2 (0 : Fin 1) q)
      (by intro a; match a with | ⟨0, _⟩ => rfl | ⟨1, _⟩ => rfl)

/-- The reference's product into 128 features reads its operands at the same places. -/
theorem r1_lhs (r : Fin 100000) (q : Fin 128) (k : Cert.ReferenceIdeal.dot_S100000x128_S128x128_S100000x128_1_0_0_1_n_n.contr.Idx) :
    Cert.ReferenceIdeal.dot_S100000x128_S128x128_S100000x128_1_0_0_1_n_n.lhsIdx (ix2 r q) k = ix2 r ((k ⟨0, Nat.one_pos⟩).cast rfl) :=
  funext fun a => Fin.ext (by match a with | ⟨0, _⟩ => rfl | ⟨1, _⟩ => rfl)

theorem r1_rhs (r : Fin 100000) (q : Fin 128) (k : Cert.ReferenceIdeal.dot_S100000x128_S128x128_S100000x128_1_0_0_1_n_n.contr.Idx) :
    Cert.ReferenceIdeal.dot_S100000x128_S128x128_S100000x128_1_0_0_1_n_n.rhsIdx (ix2 r q) k = ix2 ((k ⟨0, Nat.one_pos⟩).cast rfl) q :=
  funext fun a => Fin.ext (by match a with | ⟨0, _⟩ => rfl | ⟨1, _⟩ => rfl)

/-- The affine map into 128 features at (r, q). -/
theorem lin1_apply (X : (⟨Cert.ReferenceIdeal.S100000x128, .f32⟩ : BufTy).Contents (Elt Ideal))
    (W : (⟨Cert.ReferenceIdeal.S128x128, .f32⟩ : BufTy).Contents (Elt Ideal))
    (B : (⟨Cert.ReferenceIdeal.S1x128, .f32⟩ : BufTy).Contents (Elt Ideal)) (r : Fin 100000) (q : Fin 128) :
    Cert.Gcn.lin1 (F := Ideal) X W B (ix2 r q) = (∑ k : Fin 128, X (ix2 r k) * W (ix2 k q)) + B (ix2 (0 : Fin 1) q) := by
  unfold Cert.Gcn.lin1 Cert.Gcn.rows
  refine (addf_apply _ _ (ix2 r q)).trans ?_
  refine congrArg₂ (· + ·) ?_ ?_
  · refine (Ideal.dotGeneral_apply _ none _ _ _ (ix2 r q)).trans ?_
    exact contr_sum Cert.ReferenceIdeal.dot_S100000x128_S128x128_S100000x128_1_0_0_1_n_n rfl rfl r1_lhs r1_rhs X W r q
  · exact broadcastInDim_oneRow_apply _ B r q

variable (V : (c : Dev nD) → (b : Ref sig .tc) → Buf (Elt Ideal) ((c : Thread nD τ).loc b))

/-- The zero offsets of a whole-block access. -/
theorem hz : (![0, 0] : Fin 2 → Nat) = fun _ => 0 := funext fun a => by fin_cases a <;> rfl

/-- The index maps over the twenty points: the row blocks follow the point, the small operands sit at block zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t of region 0 writes back is block t of the affine map of the region's input arrays. -/
theorem flushed0_eq (c : Dev nD) (t : Fin cfg0.N) :
    (Gen.dat0 V c).flushed 3 t = ((cfg0.win 3).blk t).view.read (Elt Ideal)
      (Cert.Gcn.lin1 (F := Ideal) (V c main_arg0) (V c main_v36) (V c main_v37)) := by
  show (cfg0.win 3).cut (grid0.coords t) ((Gen.dat0 V c).after 3 t) = _
  rw [Gen.after0_3]
  unfold Gen.out0_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨e00, e01, e10, e11, e20, e21, e30, e31⟩ := idx_facts0 t
  have ht : t.val < 20 := t.isLt
  have hp : p.val < 5000 := p.isLt
  have hr : t.val * 5000 + p.val < 100000 := by omega
  have h3 : ((cfg0.win 3).blk t).view.emb (ix2 p q) = ix2 (⟨t.val * 5000 + p.val, hr⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  show k0_pay1 (iblk0 V c 0 t) (iblk0 V c 1 t) (iblk0 V c 2 t) (ix2 p q)
     = Cert.Gcn.lin1 (F := Ideal) (V c main_arg0) (V c main_v36) (V c main_v37) (((cfg0.win 3).blk t).view.emb (ix2 p q))
  rw [h3]
  refine (pay0_apply _ _ _ p q).trans (Eq.symm ((lin1_apply _ _ _ ⟨_, hr⟩ q).trans ?_))
  refine congrArg₂ (· + ·) (Finset.sum_congr rfl fun k _ => congrArg₂ (· * ·) ?_ ?_) ?_
  · show V c main_arg0 _ = V c main_arg0 (((cfg0.win 0).blk t).view.emb (ix2 p k))
    refine congrArg _ (Eq.symm ?_)
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_v36 _ = V c main_v36 (((cfg0.win 1).blk t).view.emb (ix2 k q))
    refine congrArg _ (Eq.symm ?_)
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  · show V c main_v37 _ = V c main_v37 (((cfg0.win 2).blk t).view.emb (ix2 (0 : Fin 1) q))
    refine congrArg _ (Eq.symm ?_)
    funext a; apply Fin.ext
    match a with
    | ⟨0, _⟩ => show win0_2.index t (0 : Fin 2) * 1 + 1 * 0 = 0; omega
    | ⟨1, _⟩ => show win0_2.index t (1 : Fin 2) * 128 + 1 * q.val = q.val; omega

/-- An index of the output array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v38).slice (win0_3.rect t)).set ↔ _
  rw [View.set_slice_whole, Rect.mem_set_unit]
  exact Iff.rfl

/-- Row r of the output lies in the block of point r / 5000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have h20 : (i 0).val / 5000 < 20 := by omega
  refine ⟨⟨(i 0).val / 5000, h20⟩, flush0_3 _, ?_⟩
  rw [mem_blk0]
  obtain ⟨-, -, -, -, -, -, e30, e31⟩ := idx_facts0 ⟨(i 0).val / 5000, h20⟩
  have e30' : win0_3.index ⟨(i 0).val / 5000, h20⟩ (0 : Fin 2) = (i 0).val / 5000 := e30
  intro a
  match a with
  | ⟨0, _⟩ =>
    show win0_3.index ⟨(i 0).val / 5000, h20⟩ (0 : Fin 2) * 5000 ≤ (i 0).val
      ∧ (i 0).val < win0_3.index ⟨(i 0).val / 5000, h20⟩ (0 : Fin 2) * 5000 + 5000
    omega
  | ⟨1, _⟩ =>
    show win0_3.index ⟨(i 0).val / 5000, h20⟩ (1 : Fin 2) * 128 ≤ (i 1).val
      ∧ (i 1).val < win0_3.index ⟨(i 0).val / 5000, h20⟩ (1 : Fin 2) * 128 + 128
    omega

/-- After region 0 its output array is the affine map of the region's input arrays. -/
theorem final0 (c : Dev nD) : (Gen.dat0 V c).arrAt 3 cfg0.N
    = Cert.Gcn.lin1 (F := Ideal) (V c main_arg0) (V c main_v36) (V c main_v37) :=
  (Gen.dat0 V c).arrAt_eq_of_cover 3 _ (fun t _ => flushed0_eq V c t) cover0

/-! ## Region 7: the affine map onto 64 outputs -/

theorem k7_lhs (p : Fin 5000) (q : Fin 64) (k : dot_S5000x128_S128x64_S5000x64_1_0_0_1_n_n.contr.Idx) :
    dot_S5000x128_S128x64_S5000x64_1_0_0_1_n_n.lhsIdx (ix2 p q) k = ix2 p ((k ⟨0, Nat.one_pos⟩).cast rfl) :=
  funext fun a => Fin.ext (by match a with | ⟨0, _⟩ => rfl | ⟨1, _⟩ => rfl)

theorem k7_rhs (p : Fin 5000) (q : Fin 64) (k : dot_S5000x128_S128x64_S5000x64_1_0_0_1_n_n.contr.Idx) :
    dot_S5000x128_S128x64_S5000x64_1_0_0_1_n_n.rhsIdx (ix2 p q) k = ix2 ((k ⟨0, Nat.one_pos⟩).cast rfl) q :=
  funext fun a => Fin.ext (by match a with | ⟨0, _⟩ => rfl | ⟨1, _⟩ => rfl)

/-- The second linear kernel's block at (p, q): the row of the input block times the column of the weights, plus the bias. -/
theorem pay7_apply (x0 : Vec Ideal S5000x128 .f32) (x1 : Vec Ideal S128x64 .f32) (x2 : Vec Ideal S1x64 .f32)
    (p : Fin 5000) (q : Fin 64) :
    k7_pay1 x0 x1 x2 (ix2 p q) = (∑ k : Fin 128, x0 (ix2 p k) * x1 (ix2 k q)) + x2 (ix2 (0 : Fin 1) q) := by
  unfold k7_pay1
  rw [shapeCast_self, shapeCast_self, shapeCast_self]
  refine (addf_apply _ _ (ix2 p q)).trans ?_
  refine congrArg₂ (· + ·) ?_ ?_
  · refine (Ideal.matmul_constant_zero_apply _ none _ _ (ix2 p q)).trans ?_
    exact contr_sum dot_S5000x128_S128x64_S5000x64_1_0_0_1_n_n rfl rfl k7_lhs k7_rhs x0 x1 p q
  · exact broadcastTo_apply x2 broadcasts_S1x64_S5000x64 (ix2 p q) (ix2 (0 : Fin 1) q)
      (by intro a; match a with | ⟨0, _⟩ => rfl | ⟨1, _⟩ => rfl)

theorem r2_lhs (r : Fin 100000) (q : Fin 64) (k : Cert.ReferenceIdeal.dot_S100000x128_S128x64_S100000x64_1_0_0_1_n_n.contr.Idx) :
    Cert.ReferenceIdeal.dot_S100000x128_S128x64_S100000x64_1_0_0_1_n_n.lhsIdx (ix2 r q) k = ix2 r ((k ⟨0, Nat.one_pos⟩).cast rfl) :=
  funext fun a => Fin.ext (by match a with | ⟨0, _⟩ => rfl | ⟨1, _⟩ => rfl)

theorem r2_rhs (r : Fin 100000) (q : Fin 64) (k : Cert.ReferenceIdeal.dot_S100000x128_S128x64_S100000x64_1_0_0_1_n_n.contr.Idx) :
    Cert.ReferenceIdeal.dot_S100000x128_S128x64_S100000x64_1_0_0_1_n_n.rhsIdx (ix2 r q) k = ix2 ((k ⟨0, Nat.one_pos⟩).cast rfl) q :=
  funext fun a => Fin.ext (by match a with | ⟨0, _⟩ => rfl | ⟨1, _⟩ => rfl)

/-- The output head at (r, q). -/
theorem lin2_apply (X : (⟨Cert.ReferenceIdeal.S100000x128, .f32⟩ : BufTy).Contents (Elt Ideal))
    (W : (⟨Cert.ReferenceIdeal.S128x64, .f32⟩ : BufTy).Contents (Elt Ideal))
    (B : (⟨Cert.ReferenceIdeal.S1x64, .f32⟩ : BufTy).Contents (Elt Ideal)) (r : Fin 100000) (q : Fin 64) :
    Cert.Gcn.lin2 (F := Ideal) X W B (ix2 r q) = (∑ k : Fin 128, X (ix2 r k) * W (ix2 k q)) + B (ix2 (0 : Fin 1) q) := by
  unfold Cert.Gcn.lin2
  refine (addf_apply _ _ (ix2 r q)).trans ?_
  refine congrArg₂ (· + ·) ?_ ?_
  · refine (Ideal.dotGeneral_apply _ none _ _ _ (ix2 r q)).trans ?_
    exact contr_sum Cert.ReferenceIdeal.dot_S100000x128_S128x64_S100000x64_1_0_0_1_n_n rfl rfl r2_lhs r2_rhs X W r q
  · exact broadcastInDim_oneRow_apply _ B r q

/-- Region 7's index maps over the twenty points. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What point t of region 7 writes back is block t of the output head of the region's input arrays. -/
theorem flushed7_eq (c : Dev nD) (t : Fin cfg7.N) :
    (Gen.dat7 V c).flushed 3 t = ((cfg7.win 3).blk t).view.read (Elt Ideal)
      (Cert.Gcn.lin2 (F := Ideal) (V c main_v107) (V c main_v108) (V c main_v109)) := by
  show (cfg7.win 3).cut (grid7.coords t) ((Gen.dat7 V c).after 3 t) = _
  rw [Gen.after7_3]
  unfold Gen.out7_3
  rw [View.canon_unit_zero hz]
  simp only [View.ld_unit_zero (S := S5000x128) hz, View.ld_unit_zero (S := S128x64) hz, View.ld_unit_zero (S := S1x64) hz]
  funext j
  obtain ⟨p, q, rfl⟩ : ∃ (p : Fin 5000) (q : Fin 64), j = ix2 p q := ⟨j 0, j 1, eq_ix2 j⟩
  obtain ⟨e00, e01, e10, e11, e20, e21, e30, e31⟩ := idx_facts7 t
  have ht : t.val < 20 := t.isLt
  have hp : p.val < 5000 := p.isLt
  have hr : t.val * 5000 + p.val < 100000 := by omega
  have h3 : ((cfg7.win 3).blk t).view.emb (ix2 p q) = ix2 (⟨t.val * 5000 + p.val, hr⟩ : Fin 100000) q := by
    funext a; apply Fin.ext
    match a with
    | ⟨0, _⟩ => show win7_3.index t (0 : Fin 2) * 5000 + 1 * p.val = t.val * 5000 + p.val; omega
    | ⟨1, _⟩ => show win7_3.index t (1 : Fin 2) * 64 + 1 * q.val = q.val; omega
  show k7_pay1 (iblk7 V c 0 t) (iblk7 V c 1 t) (iblk7 V c 2 t) (ix2 p q)
     = Cert.Gcn.lin2 (F := Ideal) (V c main_v107) (V c main_v108) (V c main_v109) (((cfg7.win 3).blk t).view.emb (ix2 p q))
  rw [h3]
  refine (pay7_apply _ _ _ p q).trans (Eq.symm ((lin2_apply _ _ _ ⟨_, hr⟩ q).trans ?_))
  refine congrArg₂ (· + ·) (Finset.sum_congr rfl fun k _ => congrArg₂ (· * ·) ?_ ?_) ?_
  · show V c main_v107 _ = V c main_v107 (((cfg7.win 0).blk t).view.emb (ix2 p k))
    refine congrArg _ (Eq.symm ?_)
    funext a; apply Fin.ext
    match a with
    | ⟨0, _⟩ => show win7_0.index t (0 : Fin 2) * 5000 + 1 * p.val = t.val * 5000 + p.val; omega
    | ⟨1, _⟩ => show win7_0.index t (1 : Fin 2) * 128 + 1 * k.val = k.val; omega
  · show V c main_v108 _ = V c main_v108 (((cfg7.win 1).blk t).view.emb (ix2 k q))
    refine congrArg _ (Eq.symm ?_)
    funext a; apply Fin.ext
    match a with
    | ⟨0, _⟩ => show win7_1.index t (0 : Fin 2) * 128 + 1 * k.val = k.val; omega
    | ⟨1, _⟩ => show win7_1.index t (1 : Fin 2) * 64 + 1 * q.val = q.val; omega
  · show V c main_v109 _ = V c main_v109 (((cfg7.win 2).blk t).view.emb (ix2 (0 : Fin 1) q))
    refine congrArg _ (Eq.symm ?_)
    funext a; apply Fin.ext
    match a with
    | ⟨0, _⟩ => show win7_2.index t (0 : Fin 2) * 1 + 1 * 0 = 0; omega
    | ⟨1, _⟩ => show win7_2.index t (1 : Fin 2) * 64 + 1 * q.val = q.val; omega

/-- Membership in point t's block of region 7's output, by coordinates. -/
theorem mem_blk7 (t : Fin cfg7.N) (i : S100000x64.Idx) :
    i ∈ ((cfg7.win 3).blk t).view.set ↔ ∀ a : Fin 2, win7_3.index t a * S5000x64.size a ≤ (i a).val
      ∧ (i a).val < win7_3.index t a * S5000x64.size a + S5000x64.size a := by
  show i ∈ ((View.whole main_v110).slice (win7_3.rect t)).set ↔ _
  rw [View.set_slice_whole, Rect.mem_set_unit]
  exact Iff.rfl

/-- Row r of region 7's output lies in the block of point r / 5000. -/
theorem cover7 (i : S100000x64.Idx) :
    ∃ t : Fin cfg7.N, (cfg7.win 3).flush t = true ∧ i ∈ ((cfg7.win 3).blk t).view.set := by
  have hi0 : (i 0).val < 100000 := (i 0).isLt
  have hi1 : (i 1).val < 64 := (i 1).isLt
  have h20 : (i 0).val / 5000 < 20 := by omega
  refine ⟨⟨(i 0).val / 5000, h20⟩, flush7_3 _, ?_⟩
  rw [mem_blk7]
  obtain ⟨-, -, -, -, -, -, e30, e31⟩ := idx_facts7 ⟨(i 0).val / 5000, h20⟩
  have e30' : win7_3.index ⟨(i 0).val / 5000, h20⟩ (0 : Fin 2) = (i 0).val / 5000 := e30
  intro a
  match a with
  | ⟨0, _⟩ =>
    show win7_3.index ⟨(i 0).val / 5000, h20⟩ (0 : Fin 2) * 5000 ≤ (i 0).val
      ∧ (i 0).val < win7_3.index ⟨(i 0).val / 5000, h20⟩ (0 : Fin 2) * 5000 + 5000
    omega
  | ⟨1, _⟩ =>
    show win7_3.index ⟨(i 0).val / 5000, h20⟩ (1 : Fin 2) * 64 ≤ (i 1).val
      ∧ (i 1).val < win7_3.index ⟨(i 0).val / 5000, h20⟩ (1 : Fin 2) * 64 + 64
    omega

/-- After region 7 its output array is the output head of the region's input arrays. -/
theorem final7 (c : Dev nD) : (Gen.dat7 V c).arrAt 3 cfg7.N
    = Cert.Gcn.lin2 (F := Ideal) (V c main_v107) (V c main_v108) (V c main_v109) :=
  (Gen.dat7 V c).arrAt_eq_of_cover 3 _ (fun t _ => flushed7_eq V c t) cover7

end Cert.KernelIdeal.RegVal

end
-- ==== Proof.RegionComb.lean ====
/-
  The combine regions of the graph network, read as values. Such a region runs over 20 grid points; point t holds
  rows 5000·t … 5000·t + 4999 of the aggregated features and of the first layer's output, and all of the 128 × 128
  weights. Its body forms the blend 0.75 · agg + 0.25 · x0 on the block and multiplies it with the weights into a zero
  accumulator. On the extended reals a change of float format is the identity and the product into zero is the plain
  contraction sum, so entry (p, q) of the block is ∑ k, (0.75 · agg(5000·t + p, k) + 0.25 · x0(5000·t + p, k)) · w(k, q):
  the same sum that the whole-array blend followed by the whole-array product has at row 5000·t + p. The 20 blocks
  cover the 100000 rows (row r is in block r / 5000), so after the region the output array is that whole-array term of
  the region's input arrays, whatever these hold when the region is entered. This file has the sums on both sides, the
  comparison of one block with the whole arrays, and the first of the three regions; the other two layers' regions run
  the same body on their own arrays.

  The last law: 0 · m + 1 · y = y on the extended reals, with no finiteness needed, since 0 · m = 0 there for every m.
-/
import proofs.«171907_j55800215109855_1_alg».proof.Proof.Gen.KernelIdeal.Frame
import proofs.«171907_j55800215109855_1_alg».proof.Proof.Gen.ReferenceIdeal
import proofs.«171907_j55800215109855_1_alg».proof.Proof.Terms
import Idealize.ShloMosaic.PureOps.Ideal
import Idealize.ShloMosaic.Lib.ValueIdx
import Idealize.ShloMosaic.Lib.Pipeline.Value
import Idealize.ShloMosaic.Lib.ValueLayout
import Idealize.ShloMosaic.PureOps.Ideal.Laws

noncomputable section
namespace Cert.Gcn
open Idealize.ShloMosaic Cert.ReferenceIdeal
open Idealize.ShloMosaic.ValueIdx

/-- The word of one denotes the extended real one. -/
theorem one_f32 : Ideal.ofBits .f32 0x3F800000#32 = 1 := by
  simp [Ideal.ofBits, Ideal.ieee, -EReal.coe_mul]; norm_num

/-- A repeated scalar word reads the word's value at every index. -/
theorem splat_apply (w : BitVec 32) (i : S100000x128.Idx) : splat (F := Ideal) w i = Ideal.ofBits .f32 w := rfl

theorem combId_eq (agg x0 : (⟨S100000x128, .f32⟩ : BufTy).Contents (Elt Ideal)) (w : (⟨S128x128, .f32⟩ : BufTy).Contents (Elt Ideal)) : Cert.Gcn.combId (F := Ideal) agg x0 w = Cert.Gcn.comb agg x0 w := by
  funext i
  show Ideal.ofBits .f32 0x00000000#32 * blend agg x0 i + Ideal.ofBits .f32 0x3F800000#32 * comb agg x0 w i = comb agg x0 w i
  rw [Ideal.ofBits_zero_f32, one_f32, zero_mul, zero_add, one_mul]

/-! The reference's contraction: rows of the left operand against columns of the right, one contracted axis of 128. -/

theorem refL0 (i : S100000x128.Idx) (k : dot_S100000x128_S128x128_S100000x128_1_0_0_1_n_n.contr.Idx) :
    (dot_S100000x128_S128x128_S100000x128_1_0_0_1_n_n.lhsIdx i k 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

theorem refL1 (i : S100000x128.Idx) (k : dot_S100000x128_S128x128_S100000x128_1_0_0_1_n_n.contr.Idx) :
    (dot_S100000x128_S128x128_S100000x128_1_0_0_1_n_n.lhsIdx i k 1).val = (k ⟨0, by decide⟩).val :=
  dot_S100000x128_S128x128_S100000x128_1_0_0_1_n_n.lhsIdx_val_of_single rfl i k

theorem refR0 (i : S100000x128.Idx) (k : dot_S100000x128_S128x128_S100000x128_1_0_0_1_n_n.contr.Idx) :
    (dot_S100000x128_S128x128_S100000x128_1_0_0_1_n_n.rhsIdx i k 0).val = (k ⟨0, by decide⟩).val :=
  dot_S100000x128_S128x128_S100000x128_1_0_0_1_n_n.rhsIdx_val_of_single rfl i k

theorem refR1 (i : S100000x128.Idx) (k : dot_S100000x128_S128x128_S100000x128_1_0_0_1_n_n.contr.Idx) :
    (dot_S100000x128_S128x128_S100000x128_1_0_0_1_n_n.rhsIdx i k 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The blend times the weights at row r, column q: the sum over the 128 features. -/
theorem comb_at (agg x0 : (⟨S100000x128, .f32⟩ : BufTy).Contents (Elt Ideal)) (w : (⟨S128x128, .f32⟩ : BufTy).Contents (Elt Ideal))
    (r : Fin 100000) (q : Fin 128) :
    comb (F := Ideal) agg x0 w (ix2 r q)
      = ∑ k : Fin 128, (Ideal.ofBits .f32 0x3F400000#32 * agg (ix2 r k) + Ideal.ofBits .f32 0x3E800000#32 * x0 (ix2 r k)) * w (ix2 k q) := by
  unfold comb
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r q) ((contrEquiv1 dot_S100000x128_S128x128_S100000x128_1_0_0_1_n_n 128 rfl rfl).symm k) = ix2 r k := funext fun a => Fin.ext (by
    match a with
    | ⟨0, _⟩ => exact refL0 _ _
    | ⟨1, _⟩ => exact (refL1 _ _).trans hk)
  have er : dot_S100000x128_S128x128_S100000x128_1_0_0_1_n_n.rhsIdx (ix2 r q) ((contrEquiv1 dot_S100000x128_S128x128_S100000x128_1_0_0_1_n_n 128 rfl rfl).symm k) = ix2 k q := funext fun a => Fin.ext (by
    match a with
    | ⟨0, _⟩ => exact (refR0 _ _).trans hk
    | ⟨1, _⟩ => exact refR1 _ _)
  rw [el, er]
  rfl

end Cert.Gcn

namespace Cert.KernelIdeal.RegVal

open Cert.KernelIdeal Cert.KernelIdeal.Gen Idealize.ShloMosaic Idealize.ShloMosaic.TcCoe
open Idealize.ShloMosaic.ValueIdx
open Idealize.ShloMosaic.Pipeline (Dat)

/-! The kernel's contraction on a block: 5000 rows against the 128 columns of the weights, one contracted axis of 128. -/

theorem kerL0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem kerL1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k

theorem kerR0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k

theorem kerR1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The body's arithmetic with the identity casts removed: the product of the blended block with the weights. -/
theorem pay_eq (x0 x1 : Vec Ideal S5000x128 .f32) (x2 : Vec Ideal S128x128 .f32) :
    k1_pay1 x0 x1 x2 = matmul dot_S5000x128_S128x128_S5000x128_1_0_0_1_n_n none
      (truncf .bf16 (addf (mulf (broadcast S5000x128 (Scalar.ofBits (F := Ideal) .f32 0x3F400000#32)) x0)
        (mulf (broadcast S5000x128 (Scalar.ofBits (F := Ideal) .f32 0x3E800000#32)) x1)) bitsLt_bf16_f32)
      (truncf .bf16 x2 bitsLt_bf16_f32) (constant S5000x128 .f32 0x00000000#32) := by
  unfold k1_pay1
  simp only [shapeCast_self]

/-- The body's result at row p, column q of a block: the sum over the 128 features. -/
theorem pay_at (x0 x1 : Vec Ideal S5000x128 .f32) (x2 : Vec Ideal S128x128 .f32) (p : Fin 5000) (q : Fin 128) :
    k1_pay1 x0 x1 x2 (ix2 p q)
      = ∑ k : Fin 128, (Ideal.ofBits .f32 0x3F400000#32 * x0 (ix2 p k) + Ideal.ofBits .f32 0x3E800000#32 * x1 (ix2 p k)) * x2 (ix2 k q) := by
  rw [pay_eq]
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact kerL0 _ _
    | ⟨1, _⟩ => exact (kerL1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (kerR0 _ _).trans hk
    | ⟨1, _⟩ => exact kerR1 _ _)
  rw [el, er]
  rfl

theorem hz : (![0, 0] : Fin 2 → Nat) = fun _ => 0 := funext fun a => by fin_cases a <;> rfl

/-- One block of the result against the whole arrays: when the two feature blocks are rows b·5000 … of the feature arrays
    and the weight block is the weights, the body's result at row p of the block is the blend-times-weights array at row
    b·5000 + p. Both sides are the same sum over the 128 features. -/
theorem pay_eq_comb (A X : (⟨Cert.ReferenceIdeal.S100000x128, .f32⟩ : BufTy).Contents (Elt Ideal))
    (W : (⟨Cert.ReferenceIdeal.S128x128, .f32⟩ : BufTy).Contents (Elt Ideal)) (b : Nat)
    (x0 x1 : Vec Ideal S5000x128 .f32) (x2 : Vec Ideal S128x128 .f32)
    (h0 : ∀ (p : Fin 5000) (k : Fin 128) (r : Fin 100000), r.val = b * 5000 + p.val → x0 (ix2 p k) = A (ix2 r k))
    (h1 : ∀ (p : Fin 5000) (k : Fin 128) (r : Fin 100000), r.val = b * 5000 + p.val → x1 (ix2 p k) = X (ix2 r k))
    (h2 : ∀ (k q : Fin 128), x2 (ix2 k q) = W (ix2 k q))
    (p : Fin 5000) (q : Fin 128) (r : Fin 100000) (hr : r.val = b * 5000 + p.val) :
    k1_pay1 x0 x1 x2 (ix2 p q) = Cert.Gcn.comb (F := Ideal) A X W (ix2 r q) := by
  rw [pay_at, Cert.Gcn.comb_at]
  refine Finset.sum_congr rfl fun k _ => ?_
  rw [h0 p k r hr, h1 p k r hr, h2 k q]

/-- Regions 3 and 5 run the same body as region 1. -/
theorem pay3_eq (x0 x1 : Vec Ideal S5000x128 .f32) (x2 : Vec Ideal S128x128 .f32) : k3_pay1 x0 x1 x2 = k1_pay1 x0 x1 x2 := rfl
theorem pay5_eq (x0 x1 : Vec Ideal S5000x128 .f32) (x2 : Vec Ideal S128x128 .f32) : k5_pay1 x0 x1 x2 = k1_pay1 x0 x1 x2 := rfl

variable (V : (c : Dev nD) → (b : Ref sig .tc) → Buf (Elt Ideal) ((c : Thread nD τ).loc b))

/-! ## Region 1: every grid point t holds rows 5000·t … 5000·t + 4999 of the two feature arrays and all of the weights -/

/-- The block index maps, decided over the 20 points: the two feature windows move with the output down the rows, the
    weights stay at block (0, 0). -/
theorem idx1 : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the blend-times-weights array. -/
theorem flushed1 (c : Dev nD) (t : Fin cfg1.N) :
    (dat1 V c).flushed 3 t = ((cfg1.win 3).blk t).view.read (Elt Ideal)
      (Cert.Gcn.comb (F := Ideal) (V c main_v51) (V c main_v38) (V c main_arg5)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz]
  obtain ⟨e0, e1, e2, e3, e4, e5, e6, e7⟩ := idx1 t
  have hN : cfg1.N = 20 := N_1
  have ht : t.val < 20 := by have := t.isLt; omega
  funext j
  obtain ⟨p, q, rfl⟩ : ∃ (p : Fin 5000) (q : Fin 128), j = ix2 p q := ⟨j 0, j 1, eq_ix2 j⟩
  have hp : p.val < 5000 := p.isLt
  have hr : win1_3.index t (0 : Fin 2) * 5000 + p.val < 100000 := by rw [e6]; omega
  have hemb : ((cfg1.win 3).blk t).view.emb (ix2 p q)
      = ix2 (⟨win1_3.index t (0 : Fin 2) * 5000 + p.val, hr⟩ : Fin 100000) q := by
    funext a; apply Fin.ext
    match a with
    | ⟨0, _⟩ => show win1_3.index t (0 : Fin 2) * 5000 + 1 * p.val = win1_3.index t (0 : Fin 2) * 5000 + p.val; omega
    | ⟨1, _⟩ => show win1_3.index t (1 : Fin 2) * 128 + 1 * q.val = q.val; rw [e7]; omega
  show k1_pay1 (iblk1 V c 0 t) (iblk1 V c 1 t) (iblk1 V c 2 t) (ix2 p q)
    = Cert.Gcn.comb (F := Ideal) (V c main_v51) (V c main_v38) (V c main_arg5) (((cfg1.win 3).blk t).view.emb (ix2 p q))
  rw [hemb]
  refine pay_eq_comb (V c main_v51) (V c main_v38) (V c main_arg5) (win1_3.index t (0 : Fin 2))
    (iblk1 V c 0 t) (iblk1 V c 1 t) (iblk1 V c 2 t) ?_ ?_ ?_ p q _ rfl
  · intro p' k r hr'
    show V c main_v51 (((cfg1.win 0).blk t).view.emb (ix2 p' k)) = V c main_v51 (ix2 r k)
    refine congrArg (V c main_v51) (funext fun a => Fin.ext ?_)
    match a with
    | ⟨0, _⟩ => show win1_0.index t (0 : Fin 2) * 5000 + 1 * p'.val = r.val; rw [e0, hr']; omega
    | ⟨1, _⟩ => show win1_0.index t (1 : Fin 2) * 128 + 1 * k.val = k.val; rw [e1]; omega
  · intro p' k r hr'
    show V c main_v38 (((cfg1.win 1).blk t).view.emb (ix2 p' k)) = V c main_v38 (ix2 r k)
    refine congrArg (V c main_v38) (funext fun a => Fin.ext ?_)
    match a with
    | ⟨0, _⟩ => show win1_1.index t (0 : Fin 2) * 5000 + 1 * p'.val = r.val; rw [e2, hr']; omega
    | ⟨1, _⟩ => show win1_1.index t (1 : Fin 2) * 128 + 1 * k.val = k.val; rw [e3]; omega
  · intro k q'
    show V c main_arg5 (((cfg1.win 2).blk t).view.emb (ix2 k q')) = V c main_arg5 (ix2 k q')
    refine congrArg (V c main_arg5) (funext fun a => Fin.ext ?_)
    match a with
    | ⟨0, _⟩ => show win1_2.index t (0 : Fin 2) * 128 + 1 * k.val = k.val; rw [e4]; omega
    | ⟨1, _⟩ => show win1_2.index t (1 : Fin 2) * 128 + 1 * q'.val = q'.val; rw [e5]; omega

/-- An index of the array is in point t's block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v52).slice (win1_3.rect t)).set ↔ _
  rw [View.set_slice_whole, Rect.mem_set_unit]
  exact Iff.rfl

/-- Row r lies in the block of point r / 5000, so the blocks cover the array. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨e0, e1, e2, e3, e4, e5, e6, e7⟩ := idx1 ⟨(i 0).val / 5000, hlt⟩
  refine ⟨⟨(i 0).val / 5000, hlt⟩, flush1_3 _, ?_⟩
  rw [mem_blk1]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    rw [e6]
    show (i 0).val / 5000 * 5000 ≤ (i 0).val ∧ (i 0).val < (i 0).val / 5000 * 5000 + 5000
    omega
  | ⟨1, _⟩ =>
    show win1_3.index ⟨(i 0).val / 5000, hlt⟩ (1 : Fin 2) * 128 ≤ (i 1).val
      ∧ (i 1).val < win1_3.index ⟨(i 0).val / 5000, hlt⟩ (1 : Fin 2) * 128 + 128
    rw [e7]
    omega

/-- After region 1 its output array is the blend of its two feature arrays times its weights. -/
theorem final1 (c : Dev nD) : (Gen.dat1 V c).arrAt 3 cfg1.N
    = Cert.Gcn.comb (F := Ideal) (V c main_v51) (V c main_v38) (V c main_arg5) :=
  (dat1 V c).arrAt_eq_of_cover 3 (Cert.Gcn.comb (F := Ideal) (V c main_v51) (V c main_v38) (V c main_arg5))
    (fun t _ => flushed1 V c t) (cover1)

end Cert.KernelIdeal.RegVal

end
-- ==== Proof.RegionCombTwins.lean ====
/-
  The second and third layers' combine regions. They run the first layer's combine body on their own arrays: the
  aggregated features of that layer, the first layer's output again, and that layer's 128 × 128 weights. So each is the
  first region's argument word for word at the other arrays: point t holds rows 5000·t … 5000·t + 4999, the block's
  entry (p, q) is the blend-times-weights sum at row 5000·t + p, and the 20 blocks cover the 100000 rows.
-/
import proofs.«171907_j55800215109855_1_alg».proof.Proof.RegionComb

noncomputable section

namespace Cert.KernelIdeal.RegVal

open Cert.KernelIdeal Cert.KernelIdeal.Gen Idealize.ShloMosaic Idealize.ShloMosaic.TcCoe
open Idealize.ShloMosaic.ValueIdx
open Idealize.ShloMosaic.Pipeline (Dat)

variable (V : (c : Dev nD) → (b : Ref sig .tc) → Buf (Elt Ideal) ((c : Thread nD τ).loc b))

/-! ## Region 3: every grid point t holds rows 5000·t … 5000·t + 4999 of the two feature arrays and all of the weights -/

/-- The block index maps, decided over the 20 points: the two feature windows move with the output down the rows, the
    weights stay at block (0, 0). -/
theorem idx3 : ∀ t : Fin cfg3.N,
    win3_0.index t (0 : Fin 2) = win3_3.index t (0 : Fin 2) ∧ win3_0.index t (1 : Fin 2) = 0
    ∧ win3_1.index t (0 : Fin 2) = win3_3.index t (0 : Fin 2) ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the blend-times-weights array. -/
theorem flushed3 (c : Dev nD) (t : Fin cfg3.N) :
    (dat3 V c).flushed 3 t = ((cfg3.win 3).blk t).view.read (Elt Ideal)
      (Cert.Gcn.comb (F := Ideal) (V c main_v74) (V c main_v38) (V c main_arg6)) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x128) hz]
  obtain ⟨e0, e1, e2, e3, e4, e5, e6, e7⟩ := idx3 t
  have hN : cfg3.N = 20 := N_3
  have ht : t.val < 20 := by have := t.isLt; omega
  funext j
  obtain ⟨p, q, rfl⟩ : ∃ (p : Fin 5000) (q : Fin 128), j = ix2 p q := ⟨j 0, j 1, eq_ix2 j⟩
  have hp : p.val < 5000 := p.isLt
  have hr : win3_3.index t (0 : Fin 2) * 5000 + p.val < 100000 := by rw [e6]; omega
  have hemb : ((cfg3.win 3).blk t).view.emb (ix2 p q)
      = ix2 (⟨win3_3.index t (0 : Fin 2) * 5000 + p.val, hr⟩ : Fin 100000) q := by
    funext a; apply Fin.ext
    match a with
    | ⟨0, _⟩ => show win3_3.index t (0 : Fin 2) * 5000 + 1 * p.val = win3_3.index t (0 : Fin 2) * 5000 + p.val; omega
    | ⟨1, _⟩ => show win3_3.index t (1 : Fin 2) * 128 + 1 * q.val = q.val; rw [e7]; omega
  show k3_pay1 (iblk3 V c 0 t) (iblk3 V c 1 t) (iblk3 V c 2 t) (ix2 p q)
    = Cert.Gcn.comb (F := Ideal) (V c main_v74) (V c main_v38) (V c main_arg6) (((cfg3.win 3).blk t).view.emb (ix2 p q))
  rw [pay3_eq, hemb]
  refine pay_eq_comb (V c main_v74) (V c main_v38) (V c main_arg6) (win3_3.index t (0 : Fin 2))
    (iblk3 V c 0 t) (iblk3 V c 1 t) (iblk3 V c 2 t) ?_ ?_ ?_ p q _ rfl
  · intro p' k r hr'
    show V c main_v74 (((cfg3.win 0).blk t).view.emb (ix2 p' k)) = V c main_v74 (ix2 r k)
    refine congrArg (V c main_v74) (funext fun a => Fin.ext ?_)
    match a with
    | ⟨0, _⟩ => show win3_0.index t (0 : Fin 2) * 5000 + 1 * p'.val = r.val; rw [e0, hr']; omega
    | ⟨1, _⟩ => show win3_0.index t (1 : Fin 2) * 128 + 1 * k.val = k.val; rw [e1]; omega
  · intro p' k r hr'
    show V c main_v38 (((cfg3.win 1).blk t).view.emb (ix2 p' k)) = V c main_v38 (ix2 r k)
    refine congrArg (V c main_v38) (funext fun a => Fin.ext ?_)
    match a with
    | ⟨0, _⟩ => show win3_1.index t (0 : Fin 2) * 5000 + 1 * p'.val = r.val; rw [e2, hr']; omega
    | ⟨1, _⟩ => show win3_1.index t (1 : Fin 2) * 128 + 1 * k.val = k.val; rw [e3]; omega
  · intro k q'
    show V c main_arg6 (((cfg3.win 2).blk t).view.emb (ix2 k q')) = V c main_arg6 (ix2 k q')
    refine congrArg (V c main_arg6) (funext fun a => Fin.ext ?_)
    match a with
    | ⟨0, _⟩ => show win3_2.index t (0 : Fin 2) * 128 + 1 * k.val = k.val; rw [e4]; omega
    | ⟨1, _⟩ => show win3_2.index t (1 : Fin 2) * 128 + 1 * q'.val = q'.val; rw [e5]; omega

/-- An index of the array is in point t's block iff each coordinate is in the block's range on its axis. -/
theorem mem_blk3 (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v75).slice (win3_3.rect t)).set ↔ _
  rw [View.set_slice_whole, Rect.mem_set_unit]
  exact Iff.rfl

/-- Row r lies in the block of point r / 5000, so the blocks cover the array. -/
theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  have hlt : (i 0).val / 5000 < cfg3.N := by rw [hN]; omega
  obtain ⟨e0, e1, e2, e3, e4, e5, e6, e7⟩ := idx3 ⟨(i 0).val / 5000, hlt⟩
  refine ⟨⟨(i 0).val / 5000, hlt⟩, flush3_3 _, ?_⟩
  rw [mem_blk3]
  intro a
  match a with
  | ⟨0, _⟩ =>
    show win3_3.index ⟨(i 0).val / 5000, hlt⟩ (0 : Fin 2) * 5000 ≤ (i 0).val
      ∧ (i 0).val < win3_3.index ⟨(i 0).val / 5000, hlt⟩ (0 : Fin 2) * 5000 + 5000
    rw [e6]
    show (i 0).val / 5000 * 5000 ≤ (i 0).val ∧ (i 0).val < (i 0).val / 5000 * 5000 + 5000
    omega
  | ⟨1, _⟩ =>
    show win3_3.index ⟨(i 0).val / 5000, hlt⟩ (1 : Fin 2) * 128 ≤ (i 1).val
      ∧ (i 1).val < win3_3.index ⟨(i 0).val / 5000, hlt⟩ (1 : Fin 2) * 128 + 128
    rw [e7]
    omega

/-- After region 3 its output array is the blend of its two feature arrays times its weights. -/
theorem final3 (c : Dev nD) : (Gen.dat3 V c).arrAt 3 cfg3.N
    = Cert.Gcn.comb (F := Ideal) (V c main_v74) (V c main_v38) (V c main_arg6) :=
  (dat3 V c).arrAt_eq_of_cover 3 (Cert.Gcn.comb (F := Ideal) (V c main_v74) (V c main_v38) (V c main_arg6))
    (fun t _ => flushed3 V c t) (cover3)

/-! ## Region 5: every grid point t holds rows 5000·t … 5000·t + 4999 of the two feature arrays and all of the weights -/

/-- The block index maps, decided over the 20 points: the two feature windows move with the output down the rows, the
    weights stay at block (0, 0). -/
theorem idx5 : ∀ t : Fin cfg5.N,
    win5_0.index t (0 : Fin 2) = win5_3.index t (0 : Fin 2) ∧ win5_0.index t (1 : Fin 2) = 0
    ∧ win5_1.index t (0 : Fin 2) = win5_3.index t (0 : Fin 2) ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point t writes back is block t of the blend-times-weights array. -/
theorem flushed5 (c : Dev nD) (t : Fin cfg5.N) :
    (dat5 V c).flushed 3 t = ((cfg5.win 3).blk t).view.read (Elt Ideal)
      (Cert.Gcn.comb (F := Ideal) (V c main_v97) (V c main_v38) (V c main_arg7)) := by
  show (cfg5.win 3).cut (grid5.coords t) ((dat5 V c).after 3 t) = _
  rw [after5_3]
  unfold out5_3
  rw [View.canon_unit_zero hz]
  simp only [View.ld_unit_zero (S := S5000x128) hz, View.ld_unit_zero (S := S128x128) hz]
  obtain ⟨e0, e1, e2, e3, e4, e5, e6, e7⟩ := idx5 t
  have hN : cfg5.N = 20 := N_5
  have ht : t.val < 20 := by have := t.isLt; omega
  funext j
  obtain ⟨p, q, rfl⟩ : ∃ (p : Fin 5000) (q : Fin 128), j = ix2 p q := ⟨j 0, j 1, eq_ix2 j⟩
  have hp : p.val < 5000 := p.isLt
  have hr : win5_3.index t (0 : Fin 2) * 5000 + p.val < 100000 := by rw [e6]; omega
  have hemb : ((cfg5.win 3).blk t).view.emb (ix2 p q)
      = ix2 (⟨win5_3.index t (0 : Fin 2) * 5000 + p.val, hr⟩ : Fin 100000) q := by
    funext a; apply Fin.ext
    match a with
    | ⟨0, _⟩ => show win5_3.index t (0 : Fin 2) * 5000 + 1 * p.val = win5_3.index t (0 : Fin 2) * 5000 + p.val; omega
    | ⟨1, _⟩ => show win5_3.index t (1 : Fin 2) * 128 + 1 * q.val = q.val; rw [e7]; omega
  show k5_pay1 (iblk5 V c 0 t) (iblk5 V c 1 t) (iblk5 V c 2 t) (ix2 p q)
    = Cert.Gcn.comb (F := Ideal) (V c main_v97) (V c main_v38) (V c main_arg7) (((cfg5.win 3).blk t).view.emb (ix2 p q))
  rw [pay5_eq, hemb]
  refine pay_eq_comb (V c main_v97) (V c main_v38) (V c main_arg7) (win5_3.index t (0 : Fin 2))
    (iblk5 V c 0 t) (iblk5 V c 1 t) (iblk5 V c 2 t) ?_ ?_ ?_ p q _ rfl
  · intro p' k r hr'
    show V c main_v97 (((cfg5.win 0).blk t).view.emb (ix2 p' k)) = V c main_v97 (ix2 r k)
    refine congrArg (V c main_v97) (funext fun a => Fin.ext ?_)
    match a with
    | ⟨0, _⟩ => show win5_0.index t (0 : Fin 2) * 5000 + 1 * p'.val = r.val; rw [e0, hr']; omega
    | ⟨1, _⟩ => show win5_0.index t (1 : Fin 2) * 128 + 1 * k.val = k.val; rw [e1]; omega
  · intro p' k r hr'
    show V c main_v38 (((cfg5.win 1).blk t).view.emb (ix2 p' k)) = V c main_v38 (ix2 r k)
    refine congrArg (V c main_v38) (funext fun a => Fin.ext ?_)
    match a with
    | ⟨0, _⟩ => show win5_1.index t (0 : Fin 2) * 5000 + 1 * p'.val = r.val; rw [e2, hr']; omega
    | ⟨1, _⟩ => show win5_1.index t (1 : Fin 2) * 128 + 1 * k.val = k.val; rw [e3]; omega
  · intro k q'
    show V c main_arg7 (((cfg5.win 2).blk t).view.emb (ix2 k q')) = V c main_arg7 (ix2 k q')
    refine congrArg (V c main_arg7) (funext fun a => Fin.ext ?_)
    match a with
    | ⟨0, _⟩ => show win5_2.index t (0 : Fin 2) * 128 + 1 * k.val = k.val; rw [e4]; omega
    | ⟨1, _⟩ => show win5_2.index t (1 : Fin 2) * 128 + 1 * q'.val = q'.val; rw [e5]; omega

/-- An index of the array is in point t's block iff each coordinate is in the block's range on its axis. -/
theorem mem_blk5 (t : Fin cfg5.N) (i : S100000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v98).slice (win5_3.rect t)).set ↔ _
  rw [View.set_slice_whole, Rect.mem_set_unit]
  exact Iff.rfl

/-- Row r lies in the block of point r / 5000, so the blocks cover the array. -/
theorem cover5 (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 20 := N_5
  have hlt : (i 0).val / 5000 < cfg5.N := by rw [hN]; omega
  obtain ⟨e0, e1, e2, e3, e4, e5, e6, e7⟩ := idx5 ⟨(i 0).val / 5000, hlt⟩
  refine ⟨⟨(i 0).val / 5000, hlt⟩, flush5_3 _, ?_⟩
  rw [mem_blk5]
  intro a
  match a with
  | ⟨0, _⟩ =>
    show win5_3.index ⟨(i 0).val / 5000, hlt⟩ (0 : Fin 2) * 5000 ≤ (i 0).val
      ∧ (i 0).val < win5_3.index ⟨(i 0).val / 5000, hlt⟩ (0 : Fin 2) * 5000 + 5000
    rw [e6]
    show (i 0).val / 5000 * 5000 ≤ (i 0).val ∧ (i 0).val < (i 0).val / 5000 * 5000 + 5000
    omega
  | ⟨1, _⟩ =>
    show win5_3.index ⟨(i 0).val / 5000, hlt⟩ (1 : Fin 2) * 128 ≤ (i 1).val
      ∧ (i 1).val < win5_3.index ⟨(i 0).val / 5000, hlt⟩ (1 : Fin 2) * 128 + 128
    rw [e7]
    omega

/-- After region 5 its output array is the blend of its two feature arrays times its weights. -/
theorem final5 (c : Dev nD) : (Gen.dat5 V c).arrAt 3 cfg5.N
    = Cert.Gcn.comb (F := Ideal) (V c main_v97) (V c main_v38) (V c main_arg7) :=
  (dat5 V c).arrAt_eq_of_cover 3 (Cert.Gcn.comb (F := Ideal) (V c main_v97) (V c main_v38) (V c main_arg7))
    (fun t _ => flushed5 V c t) (cover5)

end Cert.KernelIdeal.RegVal

end
-- ==== Proof.RegionBn.lean ====
/-
  The batch-normalisation regions. Each runs over twenty blocks of 5000 rows of a [100000, 128] array with four whole
  [1, 128] rows (mean, variance, scale, shift): per element max (γ · (x − μ) · (σ² + ε)^(−1/2) + β, 0). For any contents
  of the buffers at the region's entry, the region's output array afterwards is the whole-array term
  `Cert.Gcn.bnrelu` of its five operand arrays: both sides are read at one element and are the same expression of the
  operands' elements; the blocks' rectangles say which element of the array a block's element is, and the twenty
  blocks cover the rows. Here: the element lemmas shared by the three regions, the first of the three regions in full
  (the other two differ from it only in the region's number and its buffers' names), and the laws of layout: a [128]
  vector laid out as a [1, 128] row commutes with pointwise operations, and a row-major reshape [n] → [1, n] is that
  same re-layout.
-/
import proofs.«171907_j55800215109855_1_alg».proof.Proof.Gen.KernelIdeal.Frame
import proofs.«171907_j55800215109855_1_alg».proof.Proof.Gen.ReferenceIdeal
import proofs.«171907_j55800215109855_1_alg».proof.Proof.Terms
import Idealize.ShloMosaic.PureOps.Ideal
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegVal

open Cert.KernelIdeal Cert.KernelIdeal.Gen Idealize.ShloMosaic Idealize.ShloMosaic.ValueIdx
open Idealize.ShloMosaic.TcCoe Idealize.SL.Sem
open Idealize.ShloMosaic.Pipeline (Dat)

/-- The value of one element: max (γ · (x − μ) · (σ² + ε)^(−1/2) + β, 0). -/
def bnAt (x mu va ga be : EReal) : EReal :=
  max (ga * (x - mu) * Ideal.rsqrt (va + Ideal.ofBits .f32 0x3727C5AC#32) + be) (Ideal.ofBits .f32 0x00000000#32)

/-- The block payload at (p, q): the element's value from the block's element and the four rows at q. -/
theorem pay_apply (x0 : Vec Ideal S5000x128 .f32) (x1 x2 x3 x4 : Vec Ideal S1x128 .f32) (p : Fin 5000) (q : Fin 128) :
    k2_pay1 x0 x1 x2 x3 x4 (ix2 p q) = bnAt (x0 (ix2 p q)) (x1 (ix2 0 q)) (x2 (ix2 0 q)) (x3 (ix2 0 q)) (x4 (ix2 0 q)) := by
  unfold k2_pay1
  simp only [shapeCast_self, maximumf_apply, addf_apply, mulf_apply, subf_apply, broadcast_apply, broadcastTo_1b_ab_apply]
  rfl

/-- A row repeated over the 100000 rows, read at (r, q), is the row at q. -/
theorem rows_apply (v : (⟨Cert.ReferenceIdeal.S1x128, .f32⟩ : BufTy).Contents (Elt Ideal)) (r : Fin 100000) (q : Fin 128) :
    Cert.Gcn.rows (F := Ideal) v (ix2 r q) = v (ix2 0 q) := by
  unfold Cert.Gcn.rows
  refine broadcastInDim_apply _ _ v (ix2 r q) (ix2 0 q) fun a => ?_
  match a with
  | ⟨0, _⟩ => rfl
  | ⟨1, _⟩ => rfl

/-- The whole-array term at (r, q): the same element value. -/
theorem bnrelu_apply (mm : (⟨Cert.ReferenceIdeal.S100000x128, .f32⟩ : BufTy).Contents (Elt Ideal))
    (mean var gamma beta : (⟨Cert.ReferenceIdeal.S1x128, .f32⟩ : BufTy).Contents (Elt Ideal)) (r : Fin 100000) (q : Fin 128) :
    Cert.Gcn.bnrelu (F := Ideal) mm mean var gamma beta (ix2 r q)
      = bnAt (mm (ix2 r q)) (mean (ix2 0 q)) (var (ix2 0 q)) (gamma (ix2 0 q)) (beta (ix2 0 q)) := by
  unfold Cert.Gcn.bnrelu
  simp only [maximumf_apply, addf_apply, mulf_apply, subf_apply, rows_apply]
  rfl

/-- One element of a block's payload is one element of the whole-array term, when the block's element is the array's at
    that index (same column) and the four rows are the array's rows. -/
theorem point_eq (x0 : Vec Ideal S5000x128 .f32) (x1 x2 x3 x4 : Vec Ideal S1x128 .f32)
    (mm : (⟨Cert.ReferenceIdeal.S100000x128, .f32⟩ : BufTy).Contents (Elt Ideal))
    (mean var gamma beta : (⟨Cert.ReferenceIdeal.S1x128, .f32⟩ : BufTy).Contents (Elt Ideal))
    (j : S5000x128.Idx) (i : Cert.ReferenceIdeal.S100000x128.Idx)
    (hq : (i 1).val = (j 1).val) (h0 : x0 j = mm i)
    (h1 : ∀ q : Fin 128, x1 (ix2 0 q) = mean (ix2 0 q)) (h2 : ∀ q : Fin 128, x2 (ix2 0 q) = var (ix2 0 q))
    (h3 : ∀ q : Fin 128, x3 (ix2 0 q) = gamma (ix2 0 q)) (h4 : ∀ q : Fin 128, x4 (ix2 0 q) = beta (ix2 0 q)) :
    k2_pay1 x0 x1 x2 x3 x4 j = Cert.Gcn.bnrelu (F := Ideal) mm mean var gamma beta i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hq
  rw [pay_apply, bnrelu_apply, h0, h1, h2, h3, h4]

/-- The three regions' payloads are one function. -/
theorem pay4_eq : k4_pay1 (F := Ideal) = k2_pay1 (F := Ideal) := rfl
theorem pay6_eq : k6_pay1 (F := Ideal) = k2_pay1 (F := Ideal) := rfl

theorem hz : (![0, 0] : Fin 2 → Nat) = fun _ => 0 := funext fun a => by fin_cases a <;> rfl

variable (V : (c : Dev nD) → (b : Ref sig .tc) → Buf (Elt Ideal) ((c : Thread nD τ).loc b))

/-! ## Region 2 -/

/-- The index maps over the twenty points: the output block and the first operand's move together along the rows, point t
    at block row t; the four rows stay at block (0, 0). -/
theorem idx_facts2 : ∀ t : Fin cfg2.N, win2_0.index t (0 : Fin 2) = win2_5.index t (0 : Fin 2)
    ∧ win2_0.index t (1 : Fin 2) = win2_5.index t (1 : Fin 2)
    ∧ win2_5.index t (1 : Fin 2) = 0
    ∧ win2_5.index t (0 : Fin 2) = t.val
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- What point t writes back is block t of the normalised, rectified array. -/
theorem flushed2_eq (c : Dev nD) (t : Fin cfg2.N) :
    (Gen.dat2 V c).flushed 5 t = ((cfg2.win 5).blk t).view.read (Elt Ideal)
      (Cert.Gcn.bnrelu (F := Ideal) (V c main_v52) (V c main_v57) (V c main_v58) (V c main_v59) (V c main_v60)) := by
  show (cfg2.win 5).cut (grid2.coords t) ((Gen.dat2 V c).after 5 t) = _
  rw [Gen.after2_5]
  unfold Gen.out2_5
  rw [View.canon_unit_zero hz]
  simp only [View.ld_unit_zero (S := S5000x128) hz, View.ld_unit_zero (S := S1x128) hz]
  obtain ⟨e0, e1, e2, e3, f10, f11, f20, f21, f30, f31, f40, f41⟩ := idx_facts2 t
  funext j
  have hj0 : (j 0).val < 5000 := (j 0).isLt
  have hj1 : (j 1).val < 128 := (j 1).isLt
  refine point_eq _ _ _ _ _ _ _ _ _ _ (win2_5.xinj (grid2.coords t) j) (((cfg2.win 5).blk t).view.emb j) ?_ ?_ ?_ ?_ ?_ ?_
  · show win2_5.index t (1 : Fin 2) * 128 + 1 * (j 1).val = (j 1).val
    omega
  · unfold Gen.iblk2
    show V c main_v52 (((cfg2.win 0).blk t).view.emb _) = V c main_v52 _
    refine congrArg _ (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * (j 1).val = win2_5.index t (1 : Fin 2) * 128 + 1 * (j 1).val; omega
  · intro q
    unfold Gen.iblk2
    show V c main_v57 (((cfg2.win 1).blk t).view.emb (ix2 0 q)) = V c main_v57 (ix2 0 q)
    refine congrArg _ (funext fun a => Fin.ext ?_)
    match a with
    | ⟨0, _⟩ => show win2_1.index t (0 : Fin 2) * 1 + 1 * 0 = 0; omega
    | ⟨1, _⟩ => show win2_1.index t (1 : Fin 2) * 128 + 1 * q.val = q.val; omega
  · intro q
    unfold Gen.iblk2
    show V c main_v58 (((cfg2.win 2).blk t).view.emb (ix2 0 q)) = V c main_v58 (ix2 0 q)
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega
  · intro q
    unfold Gen.iblk2
    show V c main_v59 (((cfg2.win 3).blk t).view.emb (ix2 0 q)) = V c main_v59 (ix2 0 q)
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega
  · intro q
    unfold Gen.iblk2
    show V c main_v60 (((cfg2.win 4).blk t).view.emb (ix2 0 q)) = V c main_v60 (ix2 0 q)
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * q.val = q.val; omega

/-- An index of the array is in point t's block iff each coordinate is in the block's range on its axis. -/
theorem mem_blk2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v61).slice (win2_5.rect t)).set ↔ _
  rw [View.set_slice_whole, Rect.mem_set_unit]
  exact Iff.rfl

/-- Row r lies in the block of point r / 5000: the twenty blocks of 5000 rows cover the array. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := Gen.N_2
  refine ⟨⟨(i 0).val / 5000, by rw [hN]; omega⟩, Gen.flush2_5 _, ?_⟩
  obtain ⟨e0, e1, e2, e3, -⟩ := idx_facts2 ⟨(i 0).val / 5000, by rw [hN]; omega⟩
  rw [mem_blk2]
  intro a
  match a with
  | ⟨0, _⟩ =>
    show win2_5.index _ (0 : Fin 2) * 5000 ≤ (i 0).val ∧ (i 0).val < win2_5.index _ (0 : Fin 2) * 5000 + 5000
    rw [e3]; show (i 0).val / 5000 * 5000 ≤ (i 0).val ∧ (i 0).val < (i 0).val / 5000 * 5000 + 5000; omega
  | ⟨1, _⟩ =>
    show win2_5.index _ (1 : Fin 2) * 128 ≤ (i 1).val ∧ (i 1).val < win2_5.index _ (1 : Fin 2) * 128 + 128
    rw [e2]; omega

/-- After the region its output array is the normalised, rectified array of its five operands. -/
theorem final2 (c : Dev nD) : (Gen.dat2 V c).arrAt 5 cfg2.N = Cert.Gcn.bnrelu (F := Ideal) (V c main_v52) (V c main_v57) (V c main_v58) (V c main_v59) (V c main_v60) :=
  (Gen.dat2 V c).arrAt_eq_of_cover 5 _ (fun t _ => flushed2_eq V c t) cover2

end Cert.KernelIdeal.RegVal

namespace Cert.Gcn

open Idealize.ShloMosaic Idealize.ShloMosaic.ValueIdx Cert.ReferenceIdeal
open Facts₀

/-- Laying a [128] vector out as a [1, 128] row commutes with the pointwise inverse root of (vector + ε): both read the
    vector's element at the column. -/
theorem bnreluVec_eq (mm : (⟨S100000x128, .f32⟩ : BufTy).Contents (Elt Ideal)) (mean var gamma beta : (⟨S128, .f32⟩ : BufTy).Contents (Elt Ideal)) :
    Cert.Gcn.bnreluVec (F := Ideal) mm mean var gamma beta = Cert.Gcn.bnrelu mm (asRow mean) (asRow var) (asRow gamma) (asRow beta) := by
  have h : asRow (F := Ideal) (Host.rsqrt (F := Ideal) (addf var (broadcastInDim S128 ![] bcast_S_S128 (constant (F := Ideal) S_ .f32 0x3727C5AC#32))))
      = Host.rsqrt (F := Ideal) (addf (asRow (F := Ideal) var) (broadcastInDim S1x128 ![] bcast_S_S1x128 (constant (F := Ideal) S_ .f32 0x3727C5AC#32))) := rfl
  unfold Cert.Gcn.bnreluVec Cert.Gcn.bnrelu
  rw [h]

/-- The row-major reshape [128] → [1, 128] and the broadcast along axis 1 are one re-layout: element (0, i) is element i. -/
theorem reshape_eq_asRow (v : (⟨S128, .f32⟩ : BufTy).Contents (Elt Ideal)) (h : Cert.ReferenceIdeal.S128.ShapeCasts Cert.ReferenceIdeal.S1x128) :
    shapeCast Cert.ReferenceIdeal.S1x128 v h = Cert.Gcn.asRow (F := Ideal) v := by
  funext j
  obtain ⟨u, i, rfl⟩ : ∃ (u : Fin 1) (i : Fin 128), j = ix2 u i := ⟨j 0, j 1, eq_ix2 j⟩
  rw [shapeCast_a_1a_apply]
  unfold Cert.Gcn.asRow
  refine (broadcastInDim_apply _ _ v (ix2 u i) (ix1 i) fun a => ?_).symm
  match a with
  | ⟨0, _⟩ => rfl

/-- The same law over the kernel program's (equal-valued) shape constants. -/
theorem reshape_eq_asRow' (v : (⟨Cert.KernelIdeal.S128, .f32⟩ : BufTy).Contents (Elt Ideal)) (h : Cert.KernelIdeal.S128.ShapeCasts Cert.KernelIdeal.S1x128) :
    shapeCast Cert.KernelIdeal.S1x128 v h = Cert.Gcn.asRow (F := Ideal) v :=
  reshape_eq_asRow v h

/-- The same re-layout at 64 columns: the row-major reshape [64] → [1, 64] is the broadcast along axis 1. -/
theorem reshape64_eq (v : (⟨Cert.ReferenceIdeal.S64, .f32⟩ : BufTy).Contents (Elt Ideal)) (h : Cert.KernelIdeal.S64.ShapeCasts Cert.KernelIdeal.S1x64) :
    shapeCast Cert.KernelIdeal.S1x64 v h = broadcastInDim Cert.ReferenceIdeal.S1x64 ![1] Cert.ReferenceIdeal.Facts₀.bcast_S64_S1x64_1 v := by
  funext j
  obtain ⟨u, i, rfl⟩ : ∃ (u : Fin 1) (i : Fin 64), j = ix2 u i := ⟨j 0, j 1, eq_ix2 j⟩
  rw [shapeCast_a_1a_apply]
  refine (broadcastInDim_apply _ _ v (ix2 u i) (ix1 i) fun a => ?_).symm
  match a with
  | ⟨0, _⟩ => rfl

end Cert.Gcn

end
-- ==== Proof.RegionBnTwins.lean ====
/-
  The second and third batch-normalisation regions: region 2's statements and proofs with the region's number and its
  buffers' names replaced, the payload rewritten to region 2's (the three payloads are one function).
-/
import proofs.«171907_j55800215109855_1_alg».proof.Proof.RegionBn

noncomputable section

namespace Cert.KernelIdeal.RegVal

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## Region 4 -/

/-- The index maps over the twenty points: the output block and the first operand's move together along the rows, point t
    at block row t; the four rows stay at block (0, 0). -/
theorem idx_facts4 : ∀ t : Fin cfg4.N, win4_0.index t (0 : Fin 2) = win4_5.index t (0 : Fin 2)
    ∧ win4_0.index t (1 : Fin 2) = win4_5.index t (1 : Fin 2)
    ∧ win4_5.index t (1 : Fin 2) = 0
    ∧ win4_5.index t (0 : Fin 2) = t.val
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- What point t writes back is block t of the normalised, rectified array. -/
theorem flushed4_eq (c : Dev nD) (t : Fin cfg4.N) :
    (Gen.dat4 V c).flushed 5 t = ((cfg4.win 5).blk t).view.read (Elt Ideal)
      (Cert.Gcn.bnrelu (F := Ideal) (V c main_v75) (V c main_v80) (V c main_v81) (V c main_v82) (V c main_v83)) := by
  show (cfg4.win 5).cut (grid4.coords t) ((Gen.dat4 V c).after 5 t) = _
  rw [Gen.after4_5]
  unfold Gen.out4_5
  rw [View.canon_unit_zero hz]
  simp only [View.ld_unit_zero (S := S5000x128) hz, View.ld_unit_zero (S := S1x128) hz]
  rw [pay4_eq]
  obtain ⟨e0, e1, e2, e3, f10, f11, f20, f21, f30, f31, f40, f41⟩ := idx_facts4 t
  funext j
  have hj0 : (j 0).val < 5000 := (j 0).isLt
  have hj1 : (j 1).val < 128 := (j 1).isLt
  refine point_eq _ _ _ _ _ _ _ _ _ _ (win4_5.xinj (grid4.coords t) j) (((cfg4.win 5).blk t).view.emb j) ?_ ?_ ?_ ?_ ?_ ?_
  · show win4_5.index t (1 : Fin 2) * 128 + 1 * (j 1).val = (j 1).val
    omega
  · unfold Gen.iblk4
    show V c main_v75 (((cfg4.win 0).blk t).view.emb _) = V c main_v75 _
    refine congrArg _ (funext fun a => Fin.ext ?_)
    match a with
    | ⟨0, _⟩ => show win4_0.index t (0 : Fin 2) * 5000 + 1 * (j 0).val = win4_5.index t (0 : Fin 2) * 5000 + 1 * (j 0).val; omega
    | ⟨1, _⟩ => show win4_0.index t (1 : Fin 2) * 128 + 1 * (j 1).val = win4_5.index t (1 : Fin 2) * 128 + 1 * (j 1).val; omega
  · intro q
    unfold Gen.iblk4
    show V c main_v80 (((cfg4.win 1).blk t).view.emb (ix2 0 q)) = V c main_v80 (ix2 0 q)
    refine congrArg _ (funext fun a => Fin.ext ?_)
    match a with
    | ⟨0, _⟩ => show win4_1.index t (0 : Fin 2) * 1 + 1 * 0 = 0; omega
    | ⟨1, _⟩ => show win4_1.index t (1 : Fin 2) * 128 + 1 * q.val = q.val; omega
  · intro q
    unfold Gen.iblk4
    show V c main_v81 (((cfg4.win 2).blk t).view.emb (ix2 0 q)) = V c main_v81 (ix2 0 q)
    refine congrArg _ (funext fun a => Fin.ext ?_)
    match a with
    | ⟨0, _⟩ => show win4_2.index t (0 : Fin 2) * 1 + 1 * 0 = 0; omega
    | ⟨1, _⟩ => show win4_2.index t (1 : Fin 2) * 128 + 1 * q.val = q.val; omega
  · intro q
    unfold Gen.iblk4
    show V c main_v82 (((cfg4.win 3).blk t).view.emb (ix2 0 q)) = V c main_v82 (ix2 0 q)
    refine congrArg _ (funext fun a => Fin.ext ?_)
    match a with
    | ⟨0, _⟩ => show win4_3.index t (0 : Fin 2) * 1 + 1 * 0 = 0; omega
    | ⟨1, _⟩ => show win4_3.index t (1 : Fin 2) * 128 + 1 * q.val = q.val; omega
  · intro q
    unfold Gen.iblk4
    show V c main_v83 (((cfg4.win 4).blk t).view.emb (ix2 0 q)) = V c main_v83 (ix2 0 q)
    refine congrArg _ (funext fun a => Fin.ext ?_)
    match a with
    | ⟨0, _⟩ => show win4_4.index t (0 : Fin 2) * 1 + 1 * 0 = 0; omega
    | ⟨1, _⟩ => show win4_4.index t (1 : Fin 2) * 128 + 1 * q.val = q.val; omega

/-- An index of the array is in point t's block iff each coordinate is in the block's range on its axis. -/
theorem mem_blk4 (t : Fin cfg4.N) (i : S100000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v84).slice (win4_5.rect t)).set ↔ _
  rw [View.set_slice_whole, Rect.mem_set_unit]
  exact Iff.rfl

/-- Row r lies in the block of point r / 5000: the twenty blocks of 5000 rows cover the array. -/
theorem cover4 (i : S100000x128.Idx) :
    ∃ t : Fin cfg4.N, (cfg4.win 5).flush t = true ∧ i ∈ ((cfg4.win 5).blk t).view.set := by
  have hi0 : (i 0).val < 100000 := (i 0).isLt
  have hi1 : (i 1).val < 128 := (i 1).isLt
  have hN : cfg4.N = 20 := Gen.N_4
  refine ⟨⟨(i 0).val / 5000, by rw [hN]; omega⟩, Gen.flush4_5 _, ?_⟩
  obtain ⟨e0, e1, e2, e3, -⟩ := idx_facts4 ⟨(i 0).val / 5000, by rw [hN]; omega⟩
  rw [mem_blk4]
  intro a
  match a with
  | ⟨0, _⟩ =>
    show win4_5.index _ (0 : Fin 2) * 5000 ≤ (i 0).val ∧ (i 0).val < win4_5.index _ (0 : Fin 2) * 5000 + 5000
    rw [e3]; show (i 0).val / 5000 * 5000 ≤ (i 0).val ∧ (i 0).val < (i 0).val / 5000 * 5000 + 5000; omega
  | ⟨1, _⟩ =>
    show win4_5.index _ (1 : Fin 2) * 128 ≤ (i 1).val ∧ (i 1).val < win4_5.index _ (1 : Fin 2) * 128 + 128
    rw [e2]; omega

/-- After the region its output array is the normalised, rectified array of its five operands. -/
theorem final4 (c : Dev nD) : (Gen.dat4 V c).arrAt 5 cfg4.N = Cert.Gcn.bnrelu (F := Ideal) (V c main_v75) (V c main_v80) (V c main_v81) (V c main_v82) (V c main_v83) :=
  (Gen.dat4 V c).arrAt_eq_of_cover 5 _ (fun t _ => flushed4_eq V c t) cover4

/-! ## Region 6 -/

/-- The index maps over the twenty points: the output block and the first operand's move together along the rows, point t
    at block row t; the four rows stay at block (0, 0). -/
theorem idx_facts6 : ∀ t : Fin cfg6.N, win6_0.index t (0 : Fin 2) = win6_5.index t (0 : Fin 2)
    ∧ win6_0.index t (1 : Fin 2) = win6_5.index t (1 : Fin 2)
    ∧ win6_5.index t (1 : Fin 2) = 0
    ∧ win6_5.index t (0 : Fin 2) = t.val
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

/-- What point t writes back is block t of the normalised, rectified array. -/
theorem flushed6_eq (c : Dev nD) (t : Fin cfg6.N) :
    (Gen.dat6 V c).flushed 5 t = ((cfg6.win 5).blk t).view.read (Elt Ideal)
      (Cert.Gcn.bnrelu (F := Ideal) (V c main_v98) (V c main_v103) (V c main_v104) (V c main_v105) (V c main_v106)) := by
  show (cfg6.win 5).cut (grid6.coords t) ((Gen.dat6 V c).after 5 t) = _
  rw [Gen.after6_5]
  unfold Gen.out6_5
  rw [View.canon_unit_zero hz]
  simp only [View.ld_unit_zero (S := S5000x128) hz, View.ld_unit_zero (S := S1x128) hz]
  rw [pay6_eq]
  obtain ⟨e0, e1, e2, e3, f10, f11, f20, f21, f30, f31, f40, f41⟩ := idx_facts6 t
  funext j
  have hj0 : (j 0).val < 5000 := (j 0).isLt
  have hj1 : (j 1).val < 128 := (j 1).isLt
  refine point_eq _ _ _ _ _ _ _ _ _ _ (win6_5.xinj (grid6.coords t) j) (((cfg6.win 5).blk t).view.emb j) ?_ ?_ ?_ ?_ ?_ ?_
  · show win6_5.index t (1 : Fin 2) * 128 + 1 * (j 1).val = (j 1).val
    omega
  · unfold Gen.iblk6
    show V c main_v98 (((cfg6.win 0).blk t).view.emb _) = V c main_v98 _
    refine congrArg _ (funext fun a => Fin.ext ?_)
    match a with
    | ⟨0, _⟩ => show win6_0.index t (0 : Fin 2) * 5000 + 1 * (j 0).val = win6_5.index t (0 : Fin 2) * 5000 + 1 * (j 0).val; omega
    | ⟨1, _⟩ => show win6_0.index t (1 : Fin 2) * 128 + 1 * (j 1).val = win6_5.index t (1 : Fin 2) * 128 + 1 * (j 1).val; omega
  · intro q
    unfold Gen.iblk6
    show V c main_v103 (((cfg6.win 1).blk t).view.emb (ix2 0 q)) = V c main_v103 (ix2 0 q)
    refine congrArg _ (funext fun a => Fin.ext ?_)
    match a with
    | ⟨0, _⟩ => show win6_1.index t (0 : Fin 2) * 1 + 1 * 0 = 0; omega
    | ⟨1, _⟩ => show win6_1.index t (1 : Fin 2) * 128 + 1 * q.val = q.val; omega
  · intro q
    unfold Gen.iblk6
    show V c main_v104 (((cfg6.win 2).blk t).view.emb (ix2 0 q)) = V c main_v104 (ix2 0 q)
    refine congrArg _ (funext fun a => Fin.ext ?_)
    match a with
    | ⟨0, _⟩ => show win6_2.index t (0 : Fin 2) * 1 + 1 * 0 = 0; omega
    | ⟨1, _⟩ => show win6_2.index t (1 : Fin 2) * 128 + 1 * q.val = q.val; omega
  · intro q
    unfold Gen.iblk6
    show V c main_v105 (((cfg6.win 3).blk t).view.emb (ix2 0 q)) = V c main_v105 (ix2 0 q)
    refine congrArg _ (funext fun a => Fin.ext ?_)
    match a with
    | ⟨0, _⟩ => show win6_3.index t (0 : Fin 2) * 1 + 1 * 0 = 0; omega
    | ⟨1, _⟩ => show win6_3.index t (1 : Fin 2) * 128 + 1 * q.val = q.val; omega
  · intro q
    unfold Gen.iblk6
    show V c main_v106 (((cfg6.win 4).blk t).view.emb (ix2 0 q)) = V c main_v106 (ix2 0 q)
    refine congrArg _ (funext fun a => Fin.ext ?_)
    match a with
    | ⟨0, _⟩ => show win6_4.index t (0 : Fin 2) * 1 + 1 * 0 = 0; omega
    | ⟨1, _⟩ => show win6_4.index t (1 : Fin 2) * 128 + 1 * q.val = q.val; omega

/-- An index of the array is in point t's block iff each coordinate is in the block's range on its axis. -/
theorem mem_blk6 (t : Fin cfg6.N) (i : S100000x128.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole main_v107).slice (win6_5.rect t)).set ↔ _
  rw [View.set_slice_whole, Rect.mem_set_unit]
  exact Iff.rfl

/-- Row r lies in the block of point r / 5000: the twenty blocks of 5000 rows cover the array. -/
theorem cover6 (i : S100000x128.Idx) :
    ∃ t : Fin cfg6.N, (cfg6.win 5).flush t = true ∧ i ∈ ((cfg6.win 5).blk t).view.set := by
  have hi0 : (i 0).val < 100000 := (i 0).isLt
  have hi1 : (i 1).val < 128 := (i 1).isLt
  have hN : cfg6.N = 20 := Gen.N_6
  refine ⟨⟨(i 0).val / 5000, by rw [hN]; omega⟩, Gen.flush6_5 _, ?_⟩
  obtain ⟨e0, e1, e2, e3, -⟩ := idx_facts6 ⟨(i 0).val / 5000, by rw [hN]; omega⟩
  rw [mem_blk6]
  intro a
  match a with
  | ⟨0, _⟩ =>
    show win6_5.index _ (0 : Fin 2) * 5000 ≤ (i 0).val ∧ (i 0).val < win6_5.index _ (0 : Fin 2) * 5000 + 5000
    rw [e3]; show (i 0).val / 5000 * 5000 ≤ (i 0).val ∧ (i 0).val < (i 0).val / 5000 * 5000 + 5000; omega
  | ⟨1, _⟩ =>
    show win6_5.index _ (1 : Fin 2) * 128 ≤ (i 1).val ∧ (i 1).val < win6_5.index _ (1 : Fin 2) * 128 + 128
    rw [e2]; omega

/-- After the region its output array is the normalised, rectified array of its five operands. -/
theorem final6 (c : Dev nD) : (Gen.dat6 V c).arrAt 5 cfg6.N = Cert.Gcn.bnrelu (F := Ideal) (V c main_v98) (V c main_v103) (V c main_v104) (V c main_v105) (V c main_v106) :=
  (Gen.dat6 V c).arrAt_eq_of_cover 5 _ (fun t _ => flushed6_eq V c t) cover6

end Cert.KernelIdeal.RegVal

end
-- ==== Proof.NetEq.lean ====
/-
  The network's two spellings. One program writes each layer's product in the identity-weighted form
  0 · m + 1 · (m · w) and normalises with the column statistics as vectors; the other writes the plain product m · w and
  normalises with the statistics laid out as rows. The two layers are one function of their arguments, and so are the
  three-layer compositions. The arrays are never opened: only the named layer terms are rewritten.
-/
import proofs.«171907_j55800215109855_1_alg».proof.Proof.RegionComb
import proofs.«171907_j55800215109855_1_alg».proof.Proof.RegionBn

noncomputable section

namespace Cert.Gcn

open Idealize.ShloMosaic Cert.ReferenceIdeal

/-- One convolution layer: its two spellings agree. The identity-weighted product 0 · m + 1 · (m · w) is the plain
    product m · w, and batch normalisation with vector statistics is the one with the statistics laid out as rows. -/
theorem layerId_eq (src dst : (⟨S1700000, .i32⟩ : BufTy).Contents (Elt Ideal)) (nrm : (⟨S1700000, .f32⟩ : BufTy).Contents (Elt Ideal))
    (x0 h : (⟨S100000x128, .f32⟩ : BufTy).Contents (Elt Ideal)) (w : (⟨S128x128, .f32⟩ : BufTy).Contents (Elt Ideal))
    (gamma beta : (⟨S128, .f32⟩ : BufTy).Contents (Elt Ideal)) :
    Cert.Gcn.layerId (F := Ideal) src dst nrm x0 h w gamma beta = Cert.Gcn.layer src dst nrm x0 h w gamma beta := by
  unfold Cert.Gcn.layerId Cert.Gcn.layer
  rw [combId_eq, bnreluVec_eq]

/-- The hidden features after three layers: the two spellings agree, layer by layer. -/
theorem netHId_eq (x : (⟨S100000x128, .f32⟩ : BufTy).Contents (Elt Ideal)) (ei : (⟨S2x1600000, .i32⟩ : BufTy).Contents (Elt Ideal))
    (ea : (⟨S1600000x4, .f32⟩ : BufTy).Contents (Elt Ideal)) (w1 : (⟨S128x128, .f32⟩ : BufTy).Contents (Elt Ideal))
    (b1 : (⟨S128, .f32⟩ : BufTy).Contents (Elt Ideal)) (c1 c2 c3 : (⟨S128x128, .f32⟩ : BufTy).Contents (Elt Ideal))
    (gamma beta : (⟨S128, .f32⟩ : BufTy).Contents (Elt Ideal)) :
    Cert.Gcn.netHId (F := Ideal) x ei ea w1 b1 c1 c2 c3 gamma beta = Cert.Gcn.netH x ei ea w1 b1 c1 c2 c3 gamma beta := by
  unfold Cert.Gcn.netHId Cert.Gcn.netH
  simp only [layerId_eq]

end Cert.Gcn

end
-- ==== Proof.RefRunTable.lean ====
/-
  Tables for the run of the plain array program of the three-layer graph convolution. The program's operations, in
  order, the body of each outlined function written at its call over that call's own arrays: once cut where the
  printed program is cut into windows of statements, once cut where the mathematics cuts it (the edge normalisation
  and first affine layer, the three convolution layers, the output head). Per operation, that it touches arrays of
  the tensor core only and determines its result. Per piece and per array the composition reads across it, that
  the piece writes no such array, so what it held before the piece it holds after.
-/
import proofs.«171907_j55800215109855_1_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]

open Facts₀ Facts

/-- The operations of the first window of statements. -/
abbrev part0ops : List (HloOp τ sig (Elt F)) :=
  [ StableHlo.unary main_arg2 main_v0 ((extractStridedSlice S1600000x1 ![0, 3] · slices_S1600000x4_S1600000x1_0_3) : (⟨S1600000x4, .f32⟩ : BufTy).Contents (Elt F) → (⟨S1600000x1, .f32⟩ : BufTy).Contents (Elt F)),
    StableHlo.reshape main_v0 main_v1 rfl shapeCasts_S1600000x1_S1600000,
    StableHlo.unary main_arg1 main_v2 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v2 main_v3 rfl shapeCasts_S1x1600000_S1600000,
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.nullary main_v6 (iotaInDim S100000 32 0),
    StableHlo.binary main_v3 main_v6 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v5 main_v6 main_v8 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v9 (broadcastInDim S100000 ![] bcast_S_S100000 : (⟨S_, .f32⟩ : BufTy).Contents (Elt F) → (⟨S100000, .f32⟩ : BufTy).Contents (Elt F)),
    StableHlo.binary main_v1 main_v9 main_v10 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_0 (constant S_ .f32 0x00000000#32),
    StableHlo.unary main_cst_0 main_v11 (broadcastInDim S100000 ![] bcast_S_S100000 : (⟨S_, .f32⟩ : BufTy).Contents (Elt F) → (⟨S100000, .f32⟩ : BufTy).Contents (Elt F)),
    StableHlo.unary main_v8 main_v12 (broadcastInDim S1700000x1 ![0] bcast_S1700000_S1700000x1_0 : (⟨S1700000, .i32⟩ : BufTy).Contents (Elt F) → (⟨S1700000x1, .i32⟩ : BufTy).Contents (Elt F)),
    StableHlo.ternary main_v11 main_v12 main_v10 main_v13 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v14 (broadcastInDim S100000 ![] bcast_S_S100000 : (⟨S_, .f32⟩ : BufTy).Contents (Elt F) → (⟨S100000, .f32⟩ : BufTy).Contents (Elt F)),
    StableHlo.binary main_v13 main_v14 main_v15 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x0DA24260#32),
    StableHlo.unary main_cst_2 main_v16 (broadcastInDim S100000 ![] bcast_S_S100000 : (⟨S_, .f32⟩ : BufTy).Contents (Elt F) → (⟨S100000, .f32⟩ : BufTy).Contents (Elt F)),
    StableHlo.binary main_v13 main_v16 main_v17 (maximumf : (⟨S100000, .f32⟩ : BufTy).Contents (Elt F) → (⟨S100000, .f32⟩ : BufTy).Contents (Elt F) → (⟨S100000, .f32⟩ : BufTy).Contents (Elt F)),
    StableHlo.unary main_v17 main_v18 (Host.rsqrt : (⟨S100000, .f32⟩ : BufTy).Contents (Elt F) → (⟨S100000, .f32⟩ : BufTy).Contents (Elt F)),
    StableHlo.nullary main_cst_3 (constant S_ .f32 0x00000000#32),
    StableHlo.TRef.unary (StableHlo.TRef.of main_cst_3 : StableHlo.TRef sig ⟨S_, .f32⟩) main_call0.v0 id,
    StableHlo.TRef.unary main_call0.v0 main_call0.v1 (broadcastInDim S100000 ![] bcast_S_S100000),
    StableHlo.TRef.ternary (StableHlo.TRef.of main_v15 : StableHlo.TRef sig ⟨S100000, .i1⟩) (StableHlo.TRef.of main_v18 : StableHlo.TRef sig ⟨S100000, .f32⟩) main_call0.v1 main_call0.v2 select,
    StableHlo.nullary main_c (constantI S_ 32 0#32),
    StableHlo.unary main_c main_v20 (broadcastInDim S1700000 ![] bcast_S_S1700000 : (⟨S_, .i32⟩ : BufTy).Contents (Elt F) → (⟨S1700000, .i32⟩ : BufTy).Contents (Elt F)),
    StableHlo.binary main_v7 main_v20 main_v21 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v22 (broadcastInDim S1700000 ![] bcast_S_S1700000 : (⟨S_, .i32⟩ : BufTy).Contents (Elt F) → (⟨S1700000, .i32⟩ : BufTy).Contents (Elt F)),
    StableHlo.binary main_v7 main_v22 main_v23 (addi : (⟨S1700000, .i32⟩ : BufTy).Contents (Elt F) → (⟨S1700000, .i32⟩ : BufTy).Contents (Elt F) → (⟨S1700000, .i32⟩ : BufTy).Contents (Elt F)),
    StableHlo.ternary main_v21 main_v23 main_v7 main_v24 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v24 main_v25 (broadcastInDim S1700000x1 ![0] bcast_S1700000_S1700000x1_0 : (⟨S1700000, .i32⟩ : BufTy).Contents (Elt F) → (⟨S1700000x1, .i32⟩ : BufTy).Contents (Elt F)),
    StableHlo.binary main_v19 main_v25 main_v26 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v26 main_v10 main_v27 (mulf : (⟨S1700000, .f32⟩ : BufTy).Contents (Elt F) → (⟨S1700000, .f32⟩ : BufTy).Contents (Elt F) → (⟨S1700000, .f32⟩ : BufTy).Contents (Elt F)),
    StableHlo.nullary main_c_5 (constantI S_ 32 0#32),
    StableHlo.unary main_c_5 main_v28 (broadcastInDim S1700000 ![] bcast_S_S1700000 : (⟨S_, .i32⟩ : BufTy).Contents (Elt F) → (⟨S1700000, .i32⟩ : BufTy).Contents (Elt F)),
    StableHlo.binary main_v8 main_v28 main_v29 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v30 (broadcastInDim S1700000 ![] bcast_S_S1700000 : (⟨S_, .i32⟩ : BufTy).Contents (Elt F) → (⟨S1700000, .i32⟩ : BufTy).Contents (Elt F)),
    StableHlo.binary main_v8 main_v30 main_v31 (addi : (⟨S1700000, .i32⟩ : BufTy).Contents (Elt F) → (⟨S1700000, .i32⟩ : BufTy).Contents (Elt F) → (⟨S1700000, .i32⟩ : BufTy).Contents (Elt F)),
    StableHlo.ternary main_v29 main_v31 main_v8 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v32 main_v33 (broadcastInDim S1700000x1 ![0] bcast_S1700000_S1700000x1_0 : (⟨S1700000, .i32⟩ : BufTy).Contents (Elt F) → (⟨S1700000x1, .i32⟩ : BufTy).Contents (Elt F)),
    StableHlo.binary main_v19 main_v33 main_v34 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v27 main_v34 main_v35 (mulf : (⟨S1700000, .f32⟩ : BufTy).Contents (Elt F) → (⟨S1700000, .f32⟩ : BufTy).Contents (Elt F) → (⟨S1700000, .f32⟩ : BufTy).Contents (Elt F)),
    StableHlo.unary main_arg3 main_v36 ((transpose S128x128 [1, 0] · transposes_S128x128_S128x128_1_0) : (⟨S128x128, .f32⟩ : BufTy).Contents (Elt F) → (⟨S128x128, .f32⟩ : BufTy).Contents (Elt F)),
    StableHlo.binary main_arg0 main_v36 main_v37 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v39 main_v40 (addf : (⟨S100000x128, .f32⟩ : BufTy).Contents (Elt F) → (⟨S100000x128, .f32⟩ : BufTy).Contents (Elt F) → (⟨S100000x128, .f32⟩ : BufTy).Contents (Elt F)),
    StableHlo.unary main_v35 main_v41 (broadcastInDim S1700000x1 ![0] bcast_S1700000_S1700000x1_0 : (⟨S1700000, .f32⟩ : BufTy).Contents (Elt F) → (⟨S1700000x1, .f32⟩ : BufTy).Contents (Elt F)),
    StableHlo.nullary main_c_7 (constantI S_ 32 0#32),
    StableHlo.unary main_c_7 main_v42 (broadcastInDim S1700000 ![] bcast_S_S1700000 : (⟨S_, .i32⟩ : BufTy).Contents (Elt F) → (⟨S1700000, .i32⟩ : BufTy).Contents (Elt F)),
    StableHlo.binary main_v7 main_v42 main_v43 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v44 (broadcastInDim S1700000 ![] bcast_S_S1700000 : (⟨S_, .i32⟩ : BufTy).Contents (Elt F) → (⟨S1700000, .i32⟩ : BufTy).Contents (Elt F)),
    StableHlo.binary main_v7 main_v44 main_v45 (addi : (⟨S1700000, .i32⟩ : BufTy).Contents (Elt F) → (⟨S1700000, .i32⟩ : BufTy).Contents (Elt F) → (⟨S1700000, .i32⟩ : BufTy).Contents (Elt F)),
    StableHlo.ternary main_v43 main_v45 main_v7 main_v46 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v46 main_v47 (broadcastInDim S1700000x1 ![0] bcast_S1700000_S1700000x1_0 : (⟨S1700000, .i32⟩ : BufTy).Contents (Elt F) → (⟨S1700000x1, .i32⟩ : BufTy).Contents (Elt F)),
    StableHlo.binary main_v40 main_v47 main_v48 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)) ]

theorem part0_sub : (part0ops : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩

theorem part0_fresh : (part0ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of the second window of statements. -/
abbrev part1ops : List (HloOp τ sig (Elt F)) :=
  [ StableHlo.unary main_v41 main_v49 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v49 main_v48 main_v50 (mulf : (⟨S1700000x128, .f32⟩ : BufTy).Contents (Elt F) → (⟨S1700000x128, .f32⟩ : BufTy).Contents (Elt F) → (⟨S1700000x128, .f32⟩ : BufTy).Contents (Elt F)),
    StableHlo.nullary main_cst_9 (constant S_ .f32 0x00000000#32),
    StableHlo.unary main_cst_9 main_v51 (broadcastInDim S100000x128 ![] bcast_S_S100000x128 : (⟨S_, .f32⟩ : BufTy).Contents (Elt F) → (⟨S100000x128, .f32⟩ : BufTy).Contents (Elt F)),
    StableHlo.unary main_v8 main_v52 (broadcastInDim S1700000x1 ![0] bcast_S1700000_S1700000x1_0 : (⟨S1700000, .i32⟩ : BufTy).Contents (Elt F) → (⟨S1700000x1, .i32⟩ : BufTy).Contents (Elt F)),
    StableHlo.ternary main_v51 main_v52 main_v50 main_v53 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.nullary main_cst_10 (constant S_ .f32 0x3F400000#32),
    StableHlo.unary main_cst_10 main_v54 (broadcastInDim S100000x128 ![] bcast_S_S100000x128 : (⟨S_, .f32⟩ : BufTy).Contents (Elt F) → (⟨S100000x128, .f32⟩ : BufTy).Contents (Elt F)),
    StableHlo.binary main_v54 main_v53 main_v55 (mulf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3E800000#32),
    StableHlo.unary main_cst_11 main_v56 (broadcastInDim S100000x128 ![] bcast_S_S100000x128 : (⟨S_, .f32⟩ : BufTy).Contents (Elt F) → (⟨S100000x128, .f32⟩ : BufTy).Contents (Elt F)),
    StableHlo.binary main_v56 main_v40 main_v57 (mulf : (⟨S100000x128, .f32⟩ : BufTy).Contents (Elt F) → (⟨S100000x128, .f32⟩ : BufTy).Contents (Elt F) → (⟨S100000x128, .f32⟩ : BufTy).Contents (Elt F)),
    StableHlo.binary main_v55 main_v57 main_v58 (addf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x00000000#32),
    StableHlo.unary main_cst_12 main_v59 (broadcastInDim S100000x128 ![] bcast_S_S100000x128 : (⟨S_, .f32⟩ : BufTy).Contents (Elt F) → (⟨S100000x128, .f32⟩ : BufTy).Contents (Elt F)),
    StableHlo.binary main_v59 main_v58 main_v60 (mulf : (⟨S100000x128, .f32⟩ : BufTy).Contents (Elt F) → (⟨S100000x128, .f32⟩ : BufTy).Contents (Elt F) → (⟨S100000x128, .f32⟩ : BufTy).Contents (Elt F)),
    StableHlo.binary main_v58 main_arg5 main_v61 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_13 (constant S_ .f32 0x3F800000#32),
    StableHlo.unary main_cst_13 main_v62 (broadcastInDim S100000x128 ![] bcast_S_S100000x128 : (⟨S_, .f32⟩ : BufTy).Contents (Elt F) → (⟨S100000x128, .f32⟩ : BufTy).Contents (Elt F)),
    StableHlo.binary main_v62 main_v61 main_v63 (mulf : (⟨S100000x128, .f32⟩ : BufTy).Contents (Elt F) → (⟨S100000x128, .f32⟩ : BufTy).Contents (Elt F) → (⟨S100000x128, .f32⟩ : BufTy).Contents (Elt F)),
    StableHlo.binary main_v60 main_v63 main_v64 (addf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x00000000#32),
    StableHlo.binary main_v64 main_cst_14 main_v65 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_15 (constant S_ .f32 0x47C35000#32),
    StableHlo.unary main_cst_15 main_v66 (broadcastInDim S128 ![] bcast_S_S128 : (⟨S_, .f32⟩ : BufTy).Contents (Elt F) → (⟨S128, .f32⟩ : BufTy).Contents (Elt F)),
    StableHlo.binary main_v65 main_v66 main_v67 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary main_call1.cst (constant S_ .f32 0x00000000#32),
    StableHlo.TRef.binary (StableHlo.TRef.of main_v64 : StableHlo.TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (StableHlo.TRef.of main_v64 : StableHlo.TRef sig ⟨S100000x128, .f32⟩) main_call1.v4 main_call1.v5 subf,
    StableHlo.TRef.binary main_call1.v5 main_call1.v5 main_call1.v6 mulf,
    StableHlo.TRef.unary (StableHlo.TRef.of main_c_16 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v67 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v70 main_v71 (subf : (⟨S100000x128, .f32⟩ : BufTy).Contents (Elt F) → (⟨S100000x128, .f32⟩ : BufTy).Contents (Elt F) → (⟨S100000x128, .f32⟩ : BufTy).Contents (Elt F)),
    StableHlo.unary main_arg8 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S100000x128 ![0, 1] bcast_S1x128_S100000x128_0_1 : (⟨S1x128, .f32⟩ : BufTy).Contents (Elt F) → (⟨S100000x128, .f32⟩ : BufTy).Contents (Elt F)),
    StableHlo.binary main_v73 main_v71 main_v74 (mulf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x3727C5AC#32),
    StableHlo.unary main_cst_17 main_v75 (broadcastInDim S128 ![] bcast_S_S128 : (⟨S_, .f32⟩ : BufTy).Contents (Elt F) → (⟨S128, .f32⟩ : BufTy).Contents (Elt F)),
    StableHlo.binary main_v68 main_v75 main_v76 (addf : (⟨S128, .f32⟩ : BufTy).Contents (Elt F) → (⟨S128, .f32⟩ : BufTy).Contents (Elt F) → (⟨S128, .f32⟩ : BufTy).Contents (Elt F)),
    StableHlo.unary main_v76 main_v77 (Host.rsqrt : (⟨S128, .f32⟩ : BufTy).Contents (Elt F) → (⟨S128, .f32⟩ : BufTy).Contents (Elt F)),
    StableHlo.unary main_v77 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S100000x128 ![0, 1] bcast_S1x128_S100000x128_0_1 : (⟨S1x128, .f32⟩ : BufTy).Contents (Elt F) → (⟨S100000x128, .f32⟩ : BufTy).Contents (Elt F)),
    StableHlo.binary main_v74 main_v79 main_v80 (mulf : (⟨S100000x128, .f32⟩ : BufTy).Contents (Elt F) → (⟨S100000x128, .f32⟩ : BufTy).Contents (Elt F) → (⟨S100000x128, .f32⟩ : BufTy).Contents (Elt F)),
    StableHlo.unary main_arg9 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v82 main_v83 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (StableHlo.TRef.of main_v83 : StableHlo.TRef sig ⟨S100000x128, .f32⟩) main_call2.v0 main_call2.v1 maximumf,
    StableHlo.unary main_v35 main_v85 (broadcastInDim S1700000x1 ![0] bcast_S1700000_S1700000x1_0 : (⟨S1700000, .f32⟩ : BufTy).Contents (Elt F) → (⟨S1700000x1, .f32⟩ : BufTy).Contents (Elt F)),
    StableHlo.nullary main_c_18 (constantI S_ 32 0#32),
    StableHlo.unary main_c_18 main_v86 (broadcastInDim S1700000 ![] bcast_S_S1700000 : (⟨S_, .i32⟩ : BufTy).Contents (Elt F) → (⟨S1700000, .i32⟩ : BufTy).Contents (Elt F)),
    StableHlo.binary main_v7 main_v86 main_v87 (cmpi .slt : (⟨S1700000, .i32⟩ : BufTy).Contents (Elt F) → (⟨S1700000, .i32⟩ : BufTy).Contents (Elt F) → (⟨S1700000, .i1⟩ : BufTy).Contents (Elt F)),
    StableHlo.nullary main_c_19 (constantI S_ 32 100000#32),
    StableHlo.unary main_c_19 main_v88 (broadcastInDim S1700000 ![] bcast_S_S1700000 : (⟨S_, .i32⟩ : BufTy).Contents (Elt F) → (⟨S1700000, .i32⟩ : BufTy).Contents (Elt F)),
    StableHlo.binary main_v7 main_v88 main_v89 (addi : (⟨S1700000, .i32⟩ : BufTy).Contents (Elt F) → (⟨S1700000, .i32⟩ : BufTy).Contents (Elt F) → (⟨S1700000, .i32⟩ : BufTy).Contents (Elt F)),
    StableHlo.ternary main_v87 main_v89 main_v7 main_v90 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v90 main_v91 (broadcastInDim S1700000x1 ![0] bcast_S1700000_S1700000x1_0 : (⟨S1700000, .i32⟩ : BufTy).Contents (Elt F) → (⟨S1700000x1, .i32⟩ : BufTy).Contents (Elt F)),
    StableHlo.binary main_v84 main_v91 main_v92 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v85 main_v93 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v93 main_v92 main_v94 (mulf : (⟨S1700000x128, .f32⟩ : BufTy).Contents (Elt F) → (⟨S1700000x128, .f32⟩ : BufTy).Contents (Elt F) → (⟨S1700000x128, .f32⟩ : BufTy).Contents (Elt F)),
    StableHlo.nullary main_cst_20 (constant S_ .f32 0x00000000#32),
    StableHlo.unary main_cst_20 main_v95 (broadcastInDim S100000x128 ![] bcast_S_S100000x128 : (⟨S_, .f32⟩ : BufTy).Contents (Elt F) → (⟨S100000x128, .f32⟩ : BufTy).Contents (Elt F)),
    StableHlo.unary main_v8 main_v96 (broadcastInDim S1700000x1 ![0] bcast_S1700000_S1700000x1_0 : (⟨S1700000, .i32⟩ : BufTy).Contents (Elt F) → (⟨S1700000x1, .i32⟩ : BufTy).Contents (Elt F)) ]

theorem part1_sub : (part1ops : List (HloOp τ sig (Elt F))).Forall fun op => op.bufs ⊆ tcRefs τ sig :=
  ⟨unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub ..⟩

theorem part1_fresh : (part1ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of the third window of statements. -/
abbrev part2ops : List (HloOp τ sig (Elt F)) :=
  [ StableHlo.ternary main_v95 main_v96 main_v94 main_v97 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.nullary main_cst_21 (constant S_ .f32 0x3F400000#32),
    StableHlo.unary main_cst_21 main_v98 (broadcastInDim S100000x128 ![] bcast_S_S100000x128 : (⟨S_, .f32⟩ : BufTy).Contents (Elt F) → (⟨S100000x128, .f32⟩ : BufTy).Contents (Elt F)),
    StableHlo.binary main_v98 main_v97 main_v99 (mulf : (⟨S100000x128, .f32⟩ : BufTy).Contents (Elt F) → (⟨S100000x128, .f32⟩ : BufTy).Contents (Elt F) → (⟨S100000x128, .f32⟩ : BufTy).Contents (Elt F)),
    StableHlo.nullary main_cst_22 (constant S_ .f32 0x3E800000#32),
    StableHlo.unary main_cst_22 main_v100 (broadcastInDim S100000x128 ![] bcast_S_S100000x128 : (⟨S_, .f32⟩ : BufTy).Contents (Elt F) → (⟨S100000x128, .f32⟩ : BufTy).Contents (Elt F)),
    StableHlo.binary main_v100 main_v40 main_v101 (mulf : (⟨S100000x128, .f32⟩ : BufTy).Contents (Elt F) → (⟨S100000x128, .f32⟩ : BufTy).Contents (Elt F) → (⟨S100000x128, .f32⟩ : BufTy).Contents (Elt F)),
    StableHlo.binary main_v99 main_v101 main_v102 (addf : (⟨S100000x128, .f32⟩ : BufTy).Contents (Elt F) → (⟨S100000x128, .f32⟩ : BufTy).Contents (Elt F) → (⟨S100000x128, .f32⟩ : BufTy).Contents (Elt F)),
    StableHlo.nullary main_cst_23 (constant S_ .f32 0x00000000#32),
    StableHlo.unary main_cst_23 main_v103 (broadcastInDim S100000x128 ![] bcast_S_S100000x128 : (⟨S_, .f32⟩ : BufTy).Contents (Elt F) → (⟨S100000x128, .f32⟩ : BufTy).Contents (Elt F)),
    StableHlo.binary main_v103 main_v102 main_v104 (mulf : (⟨S100000x128, .f32⟩ : BufTy).Contents (Elt F) → (⟨S100000x128, .f32⟩ : BufTy).Contents (Elt F) → (⟨S100000x128, .f32⟩ : BufTy).Contents (Elt F)),
    StableHlo.binary main_v102 main_arg6 main_v105 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_24 (constant S_ .f32 0x3F800000#32),
    StableHlo.unary main_cst_24 main_v106 (broadcastInDim S100000x128 ![] bcast_S_S100000x128 : (⟨S_, .f32⟩ : BufTy).Contents (Elt F) → (⟨S100000x128, .f32⟩ : BufTy).Contents (Elt F)),
    StableHlo.binary main_v106 main_v105 main_v107 (mulf : (⟨S100000x128, .f32⟩ : BufTy).Contents (Elt F) → (⟨S100000x128, .f32⟩ : BufTy).Contents (Elt F) → (⟨S100000x128, .f32⟩ : BufTy).Contents (Elt F)),
    StableHlo.binary main_v104 main_v107 main_v108 (addf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x00000000#32),
    StableHlo.binary main_v108 main_cst_25 main_v109 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_26 (constant S_ .f32 0x47C35000#32),
    StableHlo.unary main_cst_26 main_v110 (broadcastInDim S128 ![] bcast_S_S128 : (⟨S_, .f32⟩ : BufTy).Contents (Elt F) → (⟨S128, .f32⟩ : BufTy).Contents (Elt F)),
    StableHlo.binary main_v109 main_v110 main_v111 (Host.divf : (⟨S128, .f32⟩ : BufTy).Contents (Elt F) → (⟨S128, .f32⟩ : BufTy).Contents (Elt F) → (⟨S128, .f32⟩ : BufTy).Contents (Elt F)),
    StableHlo.nullary main_c_27 (constantI S_ 32 0#32),
    StableHlo.TRef.nullary main_call3.cst (constant S_ .f32 0x00000000#32),
    StableHlo.TRef.binary (StableHlo.TRef.of main_v108 : StableHlo.TRef sig ⟨S100000x128, .f32⟩) main_call3.cst main_call3.v0 (fun x v => Host.reduceAdd x v reducesTo_S100000x128_S128_d0 h_S_),
    StableHlo.TRef.unary main_call3.v0 main_call3.v1 (broadcastInDim S1x128 ![1] bcast_S128_S1x128_1),
    StableHlo.TRef.nullary main_call3.cst_0 (constant S_ .f32 0x47C35000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S100000x128 ![0, 1] bcast_S1x128_S100000x128_0_1),
    StableHlo.TRef.binary (StableHlo.TRef.of main_v108 : StableHlo.TRef sig ⟨S100000x128, .f32⟩) main_call3.v4 main_call3.v5 subf,
    StableHlo.TRef.binary main_call3.v5 main_call3.v5 main_call3.v6 mulf,
    StableHlo.TRef.unary (StableHlo.TRef.of main_c_27 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v111 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S100000x128 ![0, 1] bcast_S1x128_S100000x128_0_1 : (⟨S1x128, .f32⟩ : BufTy).Contents (Elt F) → (⟨S100000x128, .f32⟩ : BufTy).Contents (Elt F)),
    StableHlo.binary main_v108 main_v114 main_v115 (subf : (⟨S100000x128, .f32⟩ : BufTy).Contents (Elt F) → (⟨S100000x128, .f32⟩ : BufTy).Contents (Elt F) → (⟨S100000x128, .f32⟩ : BufTy).Contents (Elt F)),
    StableHlo.unary main_arg8 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S100000x128 ![0, 1] bcast_S1x128_S100000x128_0_1 : (⟨S1x128, .f32⟩ : BufTy).Contents (Elt F) → (⟨S100000x128, .f32⟩ : BufTy).Contents (Elt F)),
    StableHlo.binary main_v117 main_v115 main_v118 (mulf : (⟨S100000x128, .f32⟩ : BufTy).Contents (Elt F) → (⟨S100000x128, .f32⟩ : BufTy).Contents (Elt F) → (⟨S100000x128, .f32⟩ : BufTy).Contents (Elt F)),
    StableHlo.nullary main_cst_28 (constant S_ .f32 0x3727C5AC#32),
    StableHlo.unary main_cst_28 main_v119 (broadcastInDim S128 ![] bcast_S_S128 : (⟨S_, .f32⟩ : BufTy).Contents (Elt F) → (⟨S128, .f32⟩ : BufTy).Contents (Elt F)),
    StableHlo.binary main_v112 main_v119 main_v120 (addf : (⟨S128, .f32⟩ : BufTy).Contents (Elt F) → (⟨S128, .f32⟩ : BufTy).Contents (Elt F) → (⟨S128, .f32⟩ : BufTy).Contents (Elt F)),
    StableHlo.unary main_v120 main_v121 (Host.rsqrt : (⟨S128, .f32⟩ : BufTy).Contents (Elt F) → (⟨S128, .f32⟩ : BufTy).Contents (Elt F)),
    StableHlo.unary main_v121 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S100000x128 ![0, 1] bcast_S1x128_S100000x128_0_1 : (⟨S1x128, .f32⟩ : BufTy).Contents (Elt F) → (⟨S100000x128, .f32⟩ : BufTy).Contents (Elt F)),
    StableHlo.binary main_v118 main_v123 main_v124 (mulf : (⟨S100000x128, .f32⟩ : BufTy).Contents (Elt F) → (⟨S100000x128, .f32⟩ : BufTy).Contents (Elt F) → (⟨S100000x128, .f32⟩ : BufTy).Contents (Elt F)),
    StableHlo.unary main_arg9 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S100000x128 ![0, 1] bcast_S1x128_S100000x128_0_1 : (⟨S1x128, .f32⟩ : BufTy).Contents (Elt F) → (⟨S100000x128, .f32⟩ : BufTy).Contents (Elt F)),
    StableHlo.binary main_v124 main_v126 main_v127 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (StableHlo.TRef.of main_v127 : StableHlo.TRef sig ⟨S100000x128, .f32⟩) main_call4.v0 main_call4.v1 maximumf,
    StableHlo.unary main_v35 main_v129 (broadcastInDim S1700000x1 ![0] bcast_S1700000_S1700000x1_0 : (⟨S1700000, .f32⟩ : BufTy).Contents (Elt F) → (⟨S1700000x1, .f32⟩ : BufTy).Contents (Elt F)),
    StableHlo.nullary main_c_29 (constantI S_ 32 0#32),
    StableHlo.unary main_c_29 main_v130 (broadcastInDim S1700000 ![] bcast_S_S1700000 : (⟨S_, .i32⟩ : BufTy).Contents (Elt F) → (⟨S1700000, .i32⟩ : BufTy).Contents (Elt F)),
    StableHlo.binary main_v7 main_v130 main_v131 (cmpi .slt : (⟨S1700000, .i32⟩ : BufTy).Contents (Elt F) → (⟨S1700000, .i32⟩ : BufTy).Contents (Elt F) → (⟨S1700000, .i1⟩ : BufTy).Contents (Elt F)),
    StableHlo.nullary main_c_30 (constantI S_ 32 100000#32),
    StableHlo.unary main_c_30 main_v132 (broadcastInDim S1700000 ![] bcast_S_S1700000 : (⟨S_, .i32⟩ : BufTy).Contents (Elt F) → (⟨S1700000, .i32⟩ : BufTy).Contents (Elt F)),
    StableHlo.binary main_v7 main_v132 main_v133 (addi : (⟨S1700000, .i32⟩ : BufTy).Contents (Elt F) → (⟨S1700000, .i32⟩ : BufTy).Contents (Elt F) → (⟨S1700000, .i32⟩ : BufTy).Contents (Elt F)),
    StableHlo.ternary main_v131 main_v133 main_v7 main_v134 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v134 main_v135 (broadcastInDim S1700000x1 ![0] bcast_S1700000_S1700000x1_0 : (⟨S1700000, .i32⟩ : BufTy).Contents (Elt F) → (⟨S1700000x1, .i32⟩ : BufTy).Contents (Elt F)),
    StableHlo.binary main_v128 main_v135 main_v136 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v129 main_v137 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v137 main_v136 main_v138 (mulf : (⟨S1700000x128, .f32⟩ : BufTy).Contents (Elt F) → (⟨S1700000x128, .f32⟩ : BufTy).Contents (Elt F) → (⟨S1700000x128, .f32⟩ : BufTy).Contents (Elt F)),
    StableHlo.nullary main_cst_31 (constant S_ .f32 0x00000000#32),
    StableHlo.unary main_cst_31 main_v139 (broadcastInDim S100000x128 ![] bcast_S_S100000x128 : (⟨S_, .f32⟩ : BufTy).Contents (Elt F) → (⟨S100000x128, .f32⟩ : BufTy).Contents (Elt F)),
    StableHlo.unary main_v8 main_v140 (broadcastInDim S1700000x1 ![0] bcast_S1700000_S1700000x1_0 : (⟨S1700000, .i32⟩ : BufTy).Contents (Elt F) → (⟨S1700000x1, .i32⟩ : BufTy).Contents (Elt F)),
    StableHlo.ternary main_v139 main_v140 main_v138 main_v141 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.nullary main_cst_32 (constant S_ .f32 0x3F400000#32),
    StableHlo.unary main_cst_32 main_v142 (broadcastInDim S100000x128 ![] bcast_S_S100000x128 : (⟨S_, .f32⟩ : BufTy).Contents (Elt F) → (⟨S100000x128, .f32⟩ : BufTy).Contents (Elt F)),
    StableHlo.binary main_v142 main_v141 main_v143 (mulf : (⟨S100000x128, .f32⟩ : BufTy).Contents (Elt F) → (⟨S100000x128, .f32⟩ : BufTy).Contents (Elt F) → (⟨S100000x128, .f32⟩ : BufTy).Contents (Elt F)),
    StableHlo.nullary main_cst_33 (constant S_ .f32 0x3E800000#32) ]

theorem part2_sub : (part2ops : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub ..⟩

theorem part2_fresh : (part2ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of the fourth window of statements. -/
abbrev part3ops : List (HloOp τ sig (Elt F)) :=
  [ StableHlo.unary main_cst_33 main_v144 (broadcastInDim S100000x128 ![] bcast_S_S100000x128 : (⟨S_, .f32⟩ : BufTy).Contents (Elt F) → (⟨S100000x128, .f32⟩ : BufTy).Contents (Elt F)),
    StableHlo.binary main_v144 main_v40 main_v145 (mulf : (⟨S100000x128, .f32⟩ : BufTy).Contents (Elt F) → (⟨S100000x128, .f32⟩ : BufTy).Contents (Elt F) → (⟨S100000x128, .f32⟩ : BufTy).Contents (Elt F)),
    StableHlo.binary main_v143 main_v145 main_v146 (addf : (⟨S100000x128, .f32⟩ : BufTy).Contents (Elt F) → (⟨S100000x128, .f32⟩ : BufTy).Contents (Elt F) → (⟨S100000x128, .f32⟩ : BufTy).Contents (Elt F)),
    StableHlo.nullary main_cst_34 (constant S_ .f32 0x00000000#32),
    StableHlo.unary main_cst_34 main_v147 (broadcastInDim S100000x128 ![] bcast_S_S100000x128 : (⟨S_, .f32⟩ : BufTy).Contents (Elt F) → (⟨S100000x128, .f32⟩ : BufTy).Contents (Elt F)),
    StableHlo.binary main_v147 main_v146 main_v148 (mulf : (⟨S100000x128, .f32⟩ : BufTy).Contents (Elt F) → (⟨S100000x128, .f32⟩ : BufTy).Contents (Elt F) → (⟨S100000x128, .f32⟩ : BufTy).Contents (Elt F)),
    StableHlo.binary main_v146 main_arg7 main_v149 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_35 (constant S_ .f32 0x3F800000#32),
    StableHlo.unary main_cst_35 main_v150 (broadcastInDim S100000x128 ![] bcast_S_S100000x128 : (⟨S_, .f32⟩ : BufTy).Contents (Elt F) → (⟨S100000x128, .f32⟩ : BufTy).Contents (Elt F)),
    StableHlo.binary main_v150 main_v149 main_v151 (mulf : (⟨S100000x128, .f32⟩ : BufTy).Contents (Elt F) → (⟨S100000x128, .f32⟩ : BufTy).Contents (Elt F) → (⟨S100000x128, .f32⟩ : BufTy).Contents (Elt F)),
    StableHlo.binary main_v148 main_v151 main_v152 (addf : (⟨S100000x128, .f32⟩ : BufTy).Contents (Elt F) → (⟨S100000x128, .f32⟩ : BufTy).Contents (Elt F) → (⟨S100000x128, .f32⟩ : BufTy).Contents (Elt F)),
    StableHlo.nullary main_cst_36 (constant S_ .f32 0x00000000#32),
    StableHlo.binary main_v152 main_cst_36 main_v153 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_37 (constant S_ .f32 0x47C35000#32),
    StableHlo.unary main_cst_37 main_v154 (broadcastInDim S128 ![] bcast_S_S128 : (⟨S_, .f32⟩ : BufTy).Contents (Elt F) → (⟨S128, .f32⟩ : BufTy).Contents (Elt F)),
    StableHlo.binary main_v153 main_v154 main_v155 (Host.divf : (⟨S128, .f32⟩ : BufTy).Contents (Elt F) → (⟨S128, .f32⟩ : BufTy).Contents (Elt F) → (⟨S128, .f32⟩ : BufTy).Contents (Elt F)),
    StableHlo.nullary main_c_38 (constantI S_ 32 0#32),
    StableHlo.TRef.nullary main_call5.cst (constant S_ .f32 0x00000000#32),
    StableHlo.TRef.binary (StableHlo.TRef.of main_v152 : StableHlo.TRef sig ⟨S100000x128, .f32⟩) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (StableHlo.TRef.of main_v152 : StableHlo.TRef sig ⟨S100000x128, .f32⟩) main_call5.v4 main_call5.v5 subf,
    StableHlo.TRef.binary main_call5.v5 main_call5.v5 main_call5.v6 mulf,
    StableHlo.TRef.unary (StableHlo.TRef.of main_c_38 : StableHlo.TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v155 main_v157 (broadcastInDim S1x128 ![1] bcast_S128_S1x128_1 : (⟨S128, .f32⟩ : BufTy).Contents (Elt F) → (⟨S1x128, .f32⟩ : BufTy).Contents (Elt F)),
    StableHlo.unary main_v157 main_v158 (broadcastInDim S100000x128 ![0, 1] bcast_S1x128_S100000x128_0_1 : (⟨S1x128, .f32⟩ : BufTy).Contents (Elt F) → (⟨S100000x128, .f32⟩ : BufTy).Contents (Elt F)),
    StableHlo.binary main_v152 main_v158 main_v159 (subf : (⟨S100000x128, .f32⟩ : BufTy).Contents (Elt F) → (⟨S100000x128, .f32⟩ : BufTy).Contents (Elt F) → (⟨S100000x128, .f32⟩ : BufTy).Contents (Elt F)),
    StableHlo.unary main_arg8 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S100000x128 ![0, 1] bcast_S1x128_S100000x128_0_1 : (⟨S1x128, .f32⟩ : BufTy).Contents (Elt F) → (⟨S100000x128, .f32⟩ : BufTy).Contents (Elt F)),
    StableHlo.binary main_v161 main_v159 main_v162 (mulf : (⟨S100000x128, .f32⟩ : BufTy).Contents (Elt F) → (⟨S100000x128, .f32⟩ : BufTy).Contents (Elt F) → (⟨S100000x128, .f32⟩ : BufTy).Contents (Elt F)),
    StableHlo.nullary main_cst_39 (constant S_ .f32 0x3727C5AC#32),
    StableHlo.unary main_cst_39 main_v163 (broadcastInDim S128 ![] bcast_S_S128 : (⟨S_, .f32⟩ : BufTy).Contents (Elt F) → (⟨S128, .f32⟩ : BufTy).Contents (Elt F)),
    StableHlo.binary main_v156 main_v163 main_v164 (addf : (⟨S128, .f32⟩ : BufTy).Contents (Elt F) → (⟨S128, .f32⟩ : BufTy).Contents (Elt F) → (⟨S128, .f32⟩ : BufTy).Contents (Elt F)),
    StableHlo.unary main_v164 main_v165 (Host.rsqrt : (⟨S128, .f32⟩ : BufTy).Contents (Elt F) → (⟨S128, .f32⟩ : BufTy).Contents (Elt F)),
    StableHlo.unary main_v165 main_v166 (broadcastInDim S1x128 ![1] bcast_S128_S1x128_1 : (⟨S128, .f32⟩ : BufTy).Contents (Elt F) → (⟨S1x128, .f32⟩ : BufTy).Contents (Elt F)),
    StableHlo.unary main_v166 main_v167 (broadcastInDim S100000x128 ![0, 1] bcast_S1x128_S100000x128_0_1 : (⟨S1x128, .f32⟩ : BufTy).Contents (Elt F) → (⟨S100000x128, .f32⟩ : BufTy).Contents (Elt F)),
    StableHlo.binary main_v162 main_v167 main_v168 (mulf : (⟨S100000x128, .f32⟩ : BufTy).Contents (Elt F) → (⟨S100000x128, .f32⟩ : BufTy).Contents (Elt F) → (⟨S100000x128, .f32⟩ : BufTy).Contents (Elt F)),
    StableHlo.unary main_arg9 main_v169 (broadcastInDim S1x128 ![1] bcast_S128_S1x128_1 : (⟨S128, .f32⟩ : BufTy).Contents (Elt F) → (⟨S1x128, .f32⟩ : BufTy).Contents (Elt F)),
    StableHlo.unary main_v169 main_v170 (broadcastInDim S100000x128 ![0, 1] bcast_S1x128_S100000x128_0_1 : (⟨S1x128, .f32⟩ : BufTy).Contents (Elt F) → (⟨S100000x128, .f32⟩ : BufTy).Contents (Elt F)),
    StableHlo.binary main_v168 main_v170 main_v171 (addf : (⟨S100000x128, .f32⟩ : BufTy).Contents (Elt F) → (⟨S100000x128, .f32⟩ : BufTy).Contents (Elt F) → (⟨S100000x128, .f32⟩ : BufTy).Contents (Elt F)),
    StableHlo.TRef.nullary main_call6.cst (constant S_ .f32 0x00000000#32),
    StableHlo.TRef.unary main_call6.cst main_call6.v0 (broadcastInDim S100000x128 ![] bcast_S_S100000x128),
    StableHlo.TRef.binary (StableHlo.TRef.of main_v171 : StableHlo.TRef sig ⟨S100000x128, .f32⟩) main_call6.v0 main_call6.v1 maximumf,
    StableHlo.unary main_arg10 main_v173 ((transpose S128x64 [1, 0] · transposes_S64x128_S128x64_1_0) : (⟨S64x128, .f32⟩ : BufTy).Contents (Elt F) → (⟨S128x64, .f32⟩ : BufTy).Contents (Elt F)),
    StableHlo.binary main_v172 main_v173 main_v174 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg11 main_v175 (broadcastInDim S1x64 ![1] bcast_S64_S1x64_1 : (⟨S64, .f32⟩ : BufTy).Contents (Elt F) → (⟨S1x64, .f32⟩ : BufTy).Contents (Elt F)),
    StableHlo.unary main_v175 main_v176 (broadcastInDim S100000x64 ![0, 1] bcast_S1x64_S100000x64_0_1 : (⟨S1x64, .f32⟩ : BufTy).Contents (Elt F) → (⟨S100000x64, .f32⟩ : BufTy).Contents (Elt F)),
    StableHlo.binary main_v174 main_v176 main_v177 (addf : (⟨S100000x64, .f32⟩ : BufTy).Contents (Elt F) → (⟨S100000x64, .f32⟩ : BufTy).Contents (Elt F) → (⟨S100000x64, .f32⟩ : BufTy).Contents (Elt F)) ]

theorem part3_sub : (part3ops : List (HloOp τ sig (Elt F))).Forall fun op => op.bufs ⊆ tcRefs τ sig :=
  ⟨unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

theorem part3_fresh : (part3ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The edge endpoints with their loops, the edge weights, the degrees and the symmetric normalisation, and the first affine layer. -/
abbrev opsP : List (HloOp τ sig (Elt F)) :=
  [ StableHlo.unary main_arg2 main_v0 ((extractStridedSlice S1600000x1 ![0, 3] · slices_S1600000x4_S1600000x1_0_3) : (⟨S1600000x4, .f32⟩ : BufTy).Contents (Elt F) → (⟨S1600000x1, .f32⟩ : BufTy).Contents (Elt F)),
    StableHlo.reshape main_v0 main_v1 rfl shapeCasts_S1600000x1_S1600000,
    StableHlo.unary main_arg1 main_v2 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v2 main_v3 rfl shapeCasts_S1x1600000_S1600000,
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.nullary main_v6 (iotaInDim S100000 32 0),
    StableHlo.binary main_v3 main_v6 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v5 main_v6 main_v8 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v9 (broadcastInDim S100000 ![] bcast_S_S100000 : (⟨S_, .f32⟩ : BufTy).Contents (Elt F) → (⟨S100000, .f32⟩ : BufTy).Contents (Elt F)),
    StableHlo.binary main_v1 main_v9 main_v10 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_0 (constant S_ .f32 0x00000000#32),
    StableHlo.unary main_cst_0 main_v11 (broadcastInDim S100000 ![] bcast_S_S100000 : (⟨S_, .f32⟩ : BufTy).Contents (Elt F) → (⟨S100000, .f32⟩ : BufTy).Contents (Elt F)),
    StableHlo.unary main_v8 main_v12 (broadcastInDim S1700000x1 ![0] bcast_S1700000_S1700000x1_0 : (⟨S1700000, .i32⟩ : BufTy).Contents (Elt F) → (⟨S1700000x1, .i32⟩ : BufTy).Contents (Elt F)),
    StableHlo.ternary main_v11 main_v12 main_v10 main_v13 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v14 (broadcastInDim S100000 ![] bcast_S_S100000 : (⟨S_, .f32⟩ : BufTy).Contents (Elt F) → (⟨S100000, .f32⟩ : BufTy).Contents (Elt F)),
    StableHlo.binary main_v13 main_v14 main_v15 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x0DA24260#32),
    StableHlo.unary main_cst_2 main_v16 (broadcastInDim S100000 ![] bcast_S_S100000 : (⟨S_, .f32⟩ : BufTy).Contents (Elt F) → (⟨S100000, .f32⟩ : BufTy).Contents (Elt F)),
    StableHlo.binary main_v13 main_v16 main_v17 (maximumf : (⟨S100000, .f32⟩ : BufTy).Contents (Elt F) → (⟨S100000, .f32⟩ : BufTy).Contents (Elt F) → (⟨S100000, .f32⟩ : BufTy).Contents (Elt F)),
    StableHlo.unary main_v17 main_v18 (Host.rsqrt : (⟨S100000, .f32⟩ : BufTy).Contents (Elt F) → (⟨S100000, .f32⟩ : BufTy).Contents (Elt F)),
    StableHlo.nullary main_cst_3 (constant S_ .f32 0x00000000#32),
    StableHlo.TRef.unary (StableHlo.TRef.of main_cst_3 : StableHlo.TRef sig ⟨S_, .f32⟩) main_call0.v0 id,
    StableHlo.TRef.unary main_call0.v0 main_call0.v1 (broadcastInDim S100000 ![] bcast_S_S100000),
    StableHlo.TRef.ternary (StableHlo.TRef.of main_v15 : StableHlo.TRef sig ⟨S100000, .i1⟩) (StableHlo.TRef.of main_v18 : StableHlo.TRef sig ⟨S100000, .f32⟩) main_call0.v1 main_call0.v2 select,
    StableHlo.nullary main_c (constantI S_ 32 0#32),
    StableHlo.unary main_c main_v20 (broadcastInDim S1700000 ![] bcast_S_S1700000 : (⟨S_, .i32⟩ : BufTy).Contents (Elt F) → (⟨S1700000, .i32⟩ : BufTy).Contents (Elt F)),
    StableHlo.binary main_v7 main_v20 main_v21 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v22 (broadcastInDim S1700000 ![] bcast_S_S1700000 : (⟨S_, .i32⟩ : BufTy).Contents (Elt F) → (⟨S1700000, .i32⟩ : BufTy).Contents (Elt F)),
    StableHlo.binary main_v7 main_v22 main_v23 (addi : (⟨S1700000, .i32⟩ : BufTy).Contents (Elt F) → (⟨S1700000, .i32⟩ : BufTy).Contents (Elt F) → (⟨S1700000, .i32⟩ : BufTy).Contents (Elt F)),
    StableHlo.ternary main_v21 main_v23 main_v7 main_v24 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v24 main_v25 (broadcastInDim S1700000x1 ![0] bcast_S1700000_S1700000x1_0 : (⟨S1700000, .i32⟩ : BufTy).Contents (Elt F) → (⟨S1700000x1, .i32⟩ : BufTy).Contents (Elt F)),
    StableHlo.binary main_v19 main_v25 main_v26 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v26 main_v10 main_v27 (mulf : (⟨S1700000, .f32⟩ : BufTy).Contents (Elt F) → (⟨S1700000, .f32⟩ : BufTy).Contents (Elt F) → (⟨S1700000, .f32⟩ : BufTy).Contents (Elt F)),
    StableHlo.nullary main_c_5 (constantI S_ 32 0#32),
    StableHlo.unary main_c_5 main_v28 (broadcastInDim S1700000 ![] bcast_S_S1700000 : (⟨S_, .i32⟩ : BufTy).Contents (Elt F) → (⟨S1700000, .i32⟩ : BufTy).Contents (Elt F)),
    StableHlo.binary main_v8 main_v28 main_v29 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v30 (broadcastInDim S1700000 ![] bcast_S_S1700000 : (⟨S_, .i32⟩ : BufTy).Contents (Elt F) → (⟨S1700000, .i32⟩ : BufTy).Contents (Elt F)),
    StableHlo.binary main_v8 main_v30 main_v31 (addi : (⟨S1700000, .i32⟩ : BufTy).Contents (Elt F) → (⟨S1700000, .i32⟩ : BufTy).Contents (Elt F) → (⟨S1700000, .i32⟩ : BufTy).Contents (Elt F)),
    StableHlo.ternary main_v29 main_v31 main_v8 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v32 main_v33 (broadcastInDim S1700000x1 ![0] bcast_S1700000_S1700000x1_0 : (⟨S1700000, .i32⟩ : BufTy).Contents (Elt F) → (⟨S1700000x1, .i32⟩ : BufTy).Contents (Elt F)),
    StableHlo.binary main_v19 main_v33 main_v34 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v27 main_v34 main_v35 (mulf : (⟨S1700000, .f32⟩ : BufTy).Contents (Elt F) → (⟨S1700000, .f32⟩ : BufTy).Contents (Elt F) → (⟨S1700000, .f32⟩ : BufTy).Contents (Elt F)),
    StableHlo.unary main_arg3 main_v36 ((transpose S128x128 [1, 0] · transposes_S128x128_S128x128_1_0) : (⟨S128x128, .f32⟩ : BufTy).Contents (Elt F) → (⟨S128x128, .f32⟩ : BufTy).Contents (Elt F)),
    StableHlo.binary main_arg0 main_v36 main_v37 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v39 main_v40 (addf : (⟨S100000x128, .f32⟩ : BufTy).Contents (Elt F) → (⟨S100000x128, .f32⟩ : BufTy).Contents (Elt F) → (⟨S100000x128, .f32⟩ : BufTy).Contents (Elt F)) ]

/-- The first convolution layer. -/
abbrev opsL1 : List (HloOp τ sig (Elt F)) :=
  [ StableHlo.unary main_v35 main_v41 (broadcastInDim S1700000x1 ![0] bcast_S1700000_S1700000x1_0 : (⟨S1700000, .f32⟩ : BufTy).Contents (Elt F) → (⟨S1700000x1, .f32⟩ : BufTy).Contents (Elt F)),
    StableHlo.nullary main_c_7 (constantI S_ 32 0#32),
    StableHlo.unary main_c_7 main_v42 (broadcastInDim S1700000 ![] bcast_S_S1700000 : (⟨S_, .i32⟩ : BufTy).Contents (Elt F) → (⟨S1700000, .i32⟩ : BufTy).Contents (Elt F)),
    StableHlo.binary main_v7 main_v42 main_v43 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v44 (broadcastInDim S1700000 ![] bcast_S_S1700000 : (⟨S_, .i32⟩ : BufTy).Contents (Elt F) → (⟨S1700000, .i32⟩ : BufTy).Contents (Elt F)),
    StableHlo.binary main_v7 main_v44 main_v45 (addi : (⟨S1700000, .i32⟩ : BufTy).Contents (Elt F) → (⟨S1700000, .i32⟩ : BufTy).Contents (Elt F) → (⟨S1700000, .i32⟩ : BufTy).Contents (Elt F)),
    StableHlo.ternary main_v43 main_v45 main_v7 main_v46 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v46 main_v47 (broadcastInDim S1700000x1 ![0] bcast_S1700000_S1700000x1_0 : (⟨S1700000, .i32⟩ : BufTy).Contents (Elt F) → (⟨S1700000x1, .i32⟩ : BufTy).Contents (Elt F)),
    StableHlo.binary main_v40 main_v47 main_v48 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v41 main_v49 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v49 main_v48 main_v50 (mulf : (⟨S1700000x128, .f32⟩ : BufTy).Contents (Elt F) → (⟨S1700000x128, .f32⟩ : BufTy).Contents (Elt F) → (⟨S1700000x128, .f32⟩ : BufTy).Contents (Elt F)),
    StableHlo.nullary main_cst_9 (constant S_ .f32 0x00000000#32),
    StableHlo.unary main_cst_9 main_v51 (broadcastInDim S100000x128 ![] bcast_S_S100000x128 : (⟨S_, .f32⟩ : BufTy).Contents (Elt F) → (⟨S100000x128, .f32⟩ : BufTy).Contents (Elt F)),
    StableHlo.unary main_v8 main_v52 (broadcastInDim S1700000x1 ![0] bcast_S1700000_S1700000x1_0 : (⟨S1700000, .i32⟩ : BufTy).Contents (Elt F) → (⟨S1700000x1, .i32⟩ : BufTy).Contents (Elt F)),
    StableHlo.ternary main_v51 main_v52 main_v50 main_v53 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.nullary main_cst_10 (constant S_ .f32 0x3F400000#32),
    StableHlo.unary main_cst_10 main_v54 (broadcastInDim S100000x128 ![] bcast_S_S100000x128 : (⟨S_, .f32⟩ : BufTy).Contents (Elt F) → (⟨S100000x128, .f32⟩ : BufTy).Contents (Elt F)),
    StableHlo.binary main_v54 main_v53 main_v55 (mulf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3E800000#32),
    StableHlo.unary main_cst_11 main_v56 (broadcastInDim S100000x128 ![] bcast_S_S100000x128 : (⟨S_, .f32⟩ : BufTy).Contents (Elt F) → (⟨S100000x128, .f32⟩ : BufTy).Contents (Elt F)),
    StableHlo.binary main_v56 main_v40 main_v57 (mulf : (⟨S100000x128, .f32⟩ : BufTy).Contents (Elt F) → (⟨S100000x128, .f32⟩ : BufTy).Contents (Elt F) → (⟨S100000x128, .f32⟩ : BufTy).Contents (Elt F)),
    StableHlo.binary main_v55 main_v57 main_v58 (addf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x00000000#32),
    StableHlo.unary main_cst_12 main_v59 (broadcastInDim S100000x128 ![] bcast_S_S100000x128 : (⟨S_, .f32⟩ : BufTy).Contents (Elt F) → (⟨S100000x128, .f32⟩ : BufTy).Contents (Elt F)),
    StableHlo.binary main_v59 main_v58 main_v60 (mulf : (⟨S100000x128, .f32⟩ : BufTy).Contents (Elt F) → (⟨S100000x128, .f32⟩ : BufTy).Contents (Elt F) → (⟨S100000x128, .f32⟩ : BufTy).Contents (Elt F)),
    StableHlo.binary main_v58 main_arg5 main_v61 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_13 (constant S_ .f32 0x3F800000#32),
    StableHlo.unary main_cst_13 main_v62 (broadcastInDim S100000x128 ![] bcast_S_S100000x128 : (⟨S_, .f32⟩ : BufTy).Contents (Elt F) → (⟨S100000x128, .f32⟩ : BufTy).Contents (Elt F)),
    StableHlo.binary main_v62 main_v61 main_v63 (mulf : (⟨S100000x128, .f32⟩ : BufTy).Contents (Elt F) → (⟨S100000x128, .f32⟩ : BufTy).Contents (Elt F) → (⟨S100000x128, .f32⟩ : BufTy).Contents (Elt F)),
    StableHlo.binary main_v60 main_v63 main_v64 (addf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x00000000#32),
    StableHlo.binary main_v64 main_cst_14 main_v65 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_15 (constant S_ .f32 0x47C35000#32),
    StableHlo.unary main_cst_15 main_v66 (broadcastInDim S128 ![] bcast_S_S128 : (⟨S_, .f32⟩ : BufTy).Contents (Elt F) → (⟨S128, .f32⟩ : BufTy).Contents (Elt F)),
    StableHlo.binary main_v65 main_v66 main_v67 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary main_call1.cst (constant S_ .f32 0x00000000#32),
    StableHlo.TRef.binary (StableHlo.TRef.of main_v64 : StableHlo.TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (StableHlo.TRef.of main_v64 : StableHlo.TRef sig ⟨S100000x128, .f32⟩) main_call1.v4 main_call1.v5 subf,
    StableHlo.TRef.binary main_call1.v5 main_call1.v5 main_call1.v6 mulf,
    StableHlo.TRef.unary (StableHlo.TRef.of main_c_16 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v67 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v70 main_v71 (subf : (⟨S100000x128, .f32⟩ : BufTy).Contents (Elt F) → (⟨S100000x128, .f32⟩ : BufTy).Contents (Elt F) → (⟨S100000x128, .f32⟩ : BufTy).Contents (Elt F)),
    StableHlo.unary main_arg8 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S100000x128 ![0, 1] bcast_S1x128_S100000x128_0_1 : (⟨S1x128, .f32⟩ : BufTy).Contents (Elt F) → (⟨S100000x128, .f32⟩ : BufTy).Contents (Elt F)),
    StableHlo.binary main_v73 main_v71 main_v74 (mulf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x3727C5AC#32),
    StableHlo.unary main_cst_17 main_v75 (broadcastInDim S128 ![] bcast_S_S128 : (⟨S_, .f32⟩ : BufTy).Contents (Elt F) → (⟨S128, .f32⟩ : BufTy).Contents (Elt F)),
    StableHlo.binary main_v68 main_v75 main_v76 (addf : (⟨S128, .f32⟩ : BufTy).Contents (Elt F) → (⟨S128, .f32⟩ : BufTy).Contents (Elt F) → (⟨S128, .f32⟩ : BufTy).Contents (Elt F)),
    StableHlo.unary main_v76 main_v77 (Host.rsqrt : (⟨S128, .f32⟩ : BufTy).Contents (Elt F) → (⟨S128, .f32⟩ : BufTy).Contents (Elt F)),
    StableHlo.unary main_v77 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S100000x128 ![0, 1] bcast_S1x128_S100000x128_0_1 : (⟨S1x128, .f32⟩ : BufTy).Contents (Elt F) → (⟨S100000x128, .f32⟩ : BufTy).Contents (Elt F)),
    StableHlo.binary main_v74 main_v79 main_v80 (mulf : (⟨S100000x128, .f32⟩ : BufTy).Contents (Elt F) → (⟨S100000x128, .f32⟩ : BufTy).Contents (Elt F) → (⟨S100000x128, .f32⟩ : BufTy).Contents (Elt F)),
    StableHlo.unary main_arg9 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v82 main_v83 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (StableHlo.TRef.of main_v83 : StableHlo.TRef sig ⟨S100000x128, .f32⟩) main_call2.v0 main_call2.v1 maximumf ]

/-- The second convolution layer. -/
abbrev opsL2 : List (HloOp τ sig (Elt F)) :=
  [ StableHlo.unary main_v35 main_v85 (broadcastInDim S1700000x1 ![0] bcast_S1700000_S1700000x1_0 : (⟨S1700000, .f32⟩ : BufTy).Contents (Elt F) → (⟨S1700000x1, .f32⟩ : BufTy).Contents (Elt F)),
    StableHlo.nullary main_c_18 (constantI S_ 32 0#32),
    StableHlo.unary main_c_18 main_v86 (broadcastInDim S1700000 ![] bcast_S_S1700000 : (⟨S_, .i32⟩ : BufTy).Contents (Elt F) → (⟨S1700000, .i32⟩ : BufTy).Contents (Elt F)),
    StableHlo.binary main_v7 main_v86 main_v87 (cmpi .slt : (⟨S1700000, .i32⟩ : BufTy).Contents (Elt F) → (⟨S1700000, .i32⟩ : BufTy).Contents (Elt F) → (⟨S1700000, .i1⟩ : BufTy).Contents (Elt F)),
    StableHlo.nullary main_c_19 (constantI S_ 32 100000#32),
    StableHlo.unary main_c_19 main_v88 (broadcastInDim S1700000 ![] bcast_S_S1700000 : (⟨S_, .i32⟩ : BufTy).Contents (Elt F) → (⟨S1700000, .i32⟩ : BufTy).Contents (Elt F)),
    StableHlo.binary main_v7 main_v88 main_v89 (addi : (⟨S1700000, .i32⟩ : BufTy).Contents (Elt F) → (⟨S1700000, .i32⟩ : BufTy).Contents (Elt F) → (⟨S1700000, .i32⟩ : BufTy).Contents (Elt F)),
    StableHlo.ternary main_v87 main_v89 main_v7 main_v90 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v90 main_v91 (broadcastInDim S1700000x1 ![0] bcast_S1700000_S1700000x1_0 : (⟨S1700000, .i32⟩ : BufTy).Contents (Elt F) → (⟨S1700000x1, .i32⟩ : BufTy).Contents (Elt F)),
    StableHlo.binary main_v84 main_v91 main_v92 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v85 main_v93 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v93 main_v92 main_v94 (mulf : (⟨S1700000x128, .f32⟩ : BufTy).Contents (Elt F) → (⟨S1700000x128, .f32⟩ : BufTy).Contents (Elt F) → (⟨S1700000x128, .f32⟩ : BufTy).Contents (Elt F)),
    StableHlo.nullary main_cst_20 (constant S_ .f32 0x00000000#32),
    StableHlo.unary main_cst_20 main_v95 (broadcastInDim S100000x128 ![] bcast_S_S100000x128 : (⟨S_, .f32⟩ : BufTy).Contents (Elt F) → (⟨S100000x128, .f32⟩ : BufTy).Contents (Elt F)),
    StableHlo.unary main_v8 main_v96 (broadcastInDim S1700000x1 ![0] bcast_S1700000_S1700000x1_0 : (⟨S1700000, .i32⟩ : BufTy).Contents (Elt F) → (⟨S1700000x1, .i32⟩ : BufTy).Contents (Elt F)),
    StableHlo.ternary main_v95 main_v96 main_v94 main_v97 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.nullary main_cst_21 (constant S_ .f32 0x3F400000#32),
    StableHlo.unary main_cst_21 main_v98 (broadcastInDim S100000x128 ![] bcast_S_S100000x128 : (⟨S_, .f32⟩ : BufTy).Contents (Elt F) → (⟨S100000x128, .f32⟩ : BufTy).Contents (Elt F)),
    StableHlo.binary main_v98 main_v97 main_v99 (mulf : (⟨S100000x128, .f32⟩ : BufTy).Contents (Elt F) → (⟨S100000x128, .f32⟩ : BufTy).Contents (Elt F) → (⟨S100000x128, .f32⟩ : BufTy).Contents (Elt F)),
    StableHlo.nullary main_cst_22 (constant S_ .f32 0x3E800000#32),
    StableHlo.unary main_cst_22 main_v100 (broadcastInDim S100000x128 ![] bcast_S_S100000x128 : (⟨S_, .f32⟩ : BufTy).Contents (Elt F) → (⟨S100000x128, .f32⟩ : BufTy).Contents (Elt F)),
    StableHlo.binary main_v100 main_v40 main_v101 (mulf : (⟨S100000x128, .f32⟩ : BufTy).Contents (Elt F) → (⟨S100000x128, .f32⟩ : BufTy).Contents (Elt F) → (⟨S100000x128, .f32⟩ : BufTy).Contents (Elt F)),
    StableHlo.binary main_v99 main_v101 main_v102 (addf : (⟨S100000x128, .f32⟩ : BufTy).Contents (Elt F) → (⟨S100000x128, .f32⟩ : BufTy).Contents (Elt F) → (⟨S100000x128, .f32⟩ : BufTy).Contents (Elt F)),
    StableHlo.nullary main_cst_23 (constant S_ .f32 0x00000000#32),
    StableHlo.unary main_cst_23 main_v103 (broadcastInDim S100000x128 ![] bcast_S_S100000x128 : (⟨S_, .f32⟩ : BufTy).Contents (Elt F) → (⟨S100000x128, .f32⟩ : BufTy).Contents (Elt F)),
    StableHlo.binary main_v103 main_v102 main_v104 (mulf : (⟨S100000x128, .f32⟩ : BufTy).Contents (Elt F) → (⟨S100000x128, .f32⟩ : BufTy).Contents (Elt F) → (⟨S100000x128, .f32⟩ : BufTy).Contents (Elt F)),
    StableHlo.binary main_v102 main_arg6 main_v105 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_24 (constant S_ .f32 0x3F800000#32),
    StableHlo.unary main_cst_24 main_v106 (broadcastInDim S100000x128 ![] bcast_S_S100000x128 : (⟨S_, .f32⟩ : BufTy).Contents (Elt F) → (⟨S100000x128, .f32⟩ : BufTy).Contents (Elt F)),
    StableHlo.binary main_v106 main_v105 main_v107 (mulf : (⟨S100000x128, .f32⟩ : BufTy).Contents (Elt F) → (⟨S100000x128, .f32⟩ : BufTy).Contents (Elt F) → (⟨S100000x128, .f32⟩ : BufTy).Contents (Elt F)),
    StableHlo.binary main_v104 main_v107 main_v108 (addf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x00000000#32),
    StableHlo.binary main_v108 main_cst_25 main_v109 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_26 (constant S_ .f32 0x47C35000#32),
    StableHlo.unary main_cst_26 main_v110 (broadcastInDim S128 ![] bcast_S_S128 : (⟨S_, .f32⟩ : BufTy).Contents (Elt F) → (⟨S128, .f32⟩ : BufTy).Contents (Elt F)),
    StableHlo.binary main_v109 main_v110 main_v111 (Host.divf : (⟨S128, .f32⟩ : BufTy).Contents (Elt F) → (⟨S128, .f32⟩ : BufTy).Contents (Elt F) → (⟨S128, .f32⟩ : BufTy).Contents (Elt F)),
    StableHlo.nullary main_c_27 (constantI S_ 32 0#32),
    StableHlo.TRef.nullary main_call3.cst (constant S_ .f32 0x00000000#32),
    StableHlo.TRef.binary (StableHlo.TRef.of main_v108 : StableHlo.TRef sig ⟨S100000x128, .f32⟩) main_call3.cst main_call3.v0 (fun x v => Host.reduceAdd x v reducesTo_S100000x128_S128_d0 h_S_),
    StableHlo.TRef.unary main_call3.v0 main_call3.v1 (broadcastInDim S1x128 ![1] bcast_S128_S1x128_1),
    StableHlo.TRef.nullary main_call3.cst_0 (constant S_ .f32 0x47C35000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S100000x128 ![0, 1] bcast_S1x128_S100000x128_0_1),
    StableHlo.TRef.binary (StableHlo.TRef.of main_v108 : StableHlo.TRef sig ⟨S100000x128, .f32⟩) main_call3.v4 main_call3.v5 subf,
    StableHlo.TRef.binary main_call3.v5 main_call3.v5 main_call3.v6 mulf,
    StableHlo.TRef.unary (StableHlo.TRef.of main_c_27 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v111 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S100000x128 ![0, 1] bcast_S1x128_S100000x128_0_1 : (⟨S1x128, .f32⟩ : BufTy).Contents (Elt F) → (⟨S100000x128, .f32⟩ : BufTy).Contents (Elt F)),
    StableHlo.binary main_v108 main_v114 main_v115 (subf : (⟨S100000x128, .f32⟩ : BufTy).Contents (Elt F) → (⟨S100000x128, .f32⟩ : BufTy).Contents (Elt F) → (⟨S100000x128, .f32⟩ : BufTy).Contents (Elt F)),
    StableHlo.unary main_arg8 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S100000x128 ![0, 1] bcast_S1x128_S100000x128_0_1 : (⟨S1x128, .f32⟩ : BufTy).Contents (Elt F) → (⟨S100000x128, .f32⟩ : BufTy).Contents (Elt F)),
    StableHlo.binary main_v117 main_v115 main_v118 (mulf : (⟨S100000x128, .f32⟩ : BufTy).Contents (Elt F) → (⟨S100000x128, .f32⟩ : BufTy).Contents (Elt F) → (⟨S100000x128, .f32⟩ : BufTy).Contents (Elt F)),
    StableHlo.nullary main_cst_28 (constant S_ .f32 0x3727C5AC#32),
    StableHlo.unary main_cst_28 main_v119 (broadcastInDim S128 ![] bcast_S_S128 : (⟨S_, .f32⟩ : BufTy).Contents (Elt F) → (⟨S128, .f32⟩ : BufTy).Contents (Elt F)),
    StableHlo.binary main_v112 main_v119 main_v120 (addf : (⟨S128, .f32⟩ : BufTy).Contents (Elt F) → (⟨S128, .f32⟩ : BufTy).Contents (Elt F) → (⟨S128, .f32⟩ : BufTy).Contents (Elt F)),
    StableHlo.unary main_v120 main_v121 (Host.rsqrt : (⟨S128, .f32⟩ : BufTy).Contents (Elt F) → (⟨S128, .f32⟩ : BufTy).Contents (Elt F)),
    StableHlo.unary main_v121 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S100000x128 ![0, 1] bcast_S1x128_S100000x128_0_1 : (⟨S1x128, .f32⟩ : BufTy).Contents (Elt F) → (⟨S100000x128, .f32⟩ : BufTy).Contents (Elt F)),
    StableHlo.binary main_v118 main_v123 main_v124 (mulf : (⟨S100000x128, .f32⟩ : BufTy).Contents (Elt F) → (⟨S100000x128, .f32⟩ : BufTy).Contents (Elt F) → (⟨S100000x128, .f32⟩ : BufTy).Contents (Elt F)),
    StableHlo.unary main_arg9 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S100000x128 ![0, 1] bcast_S1x128_S100000x128_0_1 : (⟨S1x128, .f32⟩ : BufTy).Contents (Elt F) → (⟨S100000x128, .f32⟩ : BufTy).Contents (Elt F)),
    StableHlo.binary main_v124 main_v126 main_v127 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (StableHlo.TRef.of main_v127 : StableHlo.TRef sig ⟨S100000x128, .f32⟩) main_call4.v0 main_call4.v1 maximumf ]

/-- The third convolution layer. -/
abbrev opsL3 : List (HloOp τ sig (Elt F)) :=
  [ StableHlo.unary main_v35 main_v129 (broadcastInDim S1700000x1 ![0] bcast_S1700000_S1700000x1_0 : (⟨S1700000, .f32⟩ : BufTy).Contents (Elt F) → (⟨S1700000x1, .f32⟩ : BufTy).Contents (Elt F)),
    StableHlo.nullary main_c_29 (constantI S_ 32 0#32),
    StableHlo.unary main_c_29 main_v130 (broadcastInDim S1700000 ![] bcast_S_S1700000 : (⟨S_, .i32⟩ : BufTy).Contents (Elt F) → (⟨S1700000, .i32⟩ : BufTy).Contents (Elt F)),
    StableHlo.binary main_v7 main_v130 main_v131 (cmpi .slt : (⟨S1700000, .i32⟩ : BufTy).Contents (Elt F) → (⟨S1700000, .i32⟩ : BufTy).Contents (Elt F) → (⟨S1700000, .i1⟩ : BufTy).Contents (Elt F)),
    StableHlo.nullary main_c_30 (constantI S_ 32 100000#32),
    StableHlo.unary main_c_30 main_v132 (broadcastInDim S1700000 ![] bcast_S_S1700000 : (⟨S_, .i32⟩ : BufTy).Contents (Elt F) → (⟨S1700000, .i32⟩ : BufTy).Contents (Elt F)),
    StableHlo.binary main_v7 main_v132 main_v133 (addi : (⟨S1700000, .i32⟩ : BufTy).Contents (Elt F) → (⟨S1700000, .i32⟩ : BufTy).Contents (Elt F) → (⟨S1700000, .i32⟩ : BufTy).Contents (Elt F)),
    StableHlo.ternary main_v131 main_v133 main_v7 main_v134 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v134 main_v135 (broadcastInDim S1700000x1 ![0] bcast_S1700000_S1700000x1_0 : (⟨S1700000, .i32⟩ : BufTy).Contents (Elt F) → (⟨S1700000x1, .i32⟩ : BufTy).Contents (Elt F)),
    StableHlo.binary main_v128 main_v135 main_v136 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v129 main_v137 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v137 main_v136 main_v138 (mulf : (⟨S1700000x128, .f32⟩ : BufTy).Contents (Elt F) → (⟨S1700000x128, .f32⟩ : BufTy).Contents (Elt F) → (⟨S1700000x128, .f32⟩ : BufTy).Contents (Elt F)),
    StableHlo.nullary main_cst_31 (constant S_ .f32 0x00000000#32),
    StableHlo.unary main_cst_31 main_v139 (broadcastInDim S100000x128 ![] bcast_S_S100000x128 : (⟨S_, .f32⟩ : BufTy).Contents (Elt F) → (⟨S100000x128, .f32⟩ : BufTy).Contents (Elt F)),
    StableHlo.unary main_v8 main_v140 (broadcastInDim S1700000x1 ![0] bcast_S1700000_S1700000x1_0 : (⟨S1700000, .i32⟩ : BufTy).Contents (Elt F) → (⟨S1700000x1, .i32⟩ : BufTy).Contents (Elt F)),
    StableHlo.ternary main_v139 main_v140 main_v138 main_v141 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.nullary main_cst_32 (constant S_ .f32 0x3F400000#32),
    StableHlo.unary main_cst_32 main_v142 (broadcastInDim S100000x128 ![] bcast_S_S100000x128 : (⟨S_, .f32⟩ : BufTy).Contents (Elt F) → (⟨S100000x128, .f32⟩ : BufTy).Contents (Elt F)),
    StableHlo.binary main_v142 main_v141 main_v143 (mulf : (⟨S100000x128, .f32⟩ : BufTy).Contents (Elt F) → (⟨S100000x128, .f32⟩ : BufTy).Contents (Elt F) → (⟨S100000x128, .f32⟩ : BufTy).Contents (Elt F)),
    StableHlo.nullary main_cst_33 (constant S_ .f32 0x3E800000#32),
    StableHlo.unary main_cst_33 main_v144 (broadcastInDim S100000x128 ![] bcast_S_S100000x128 : (⟨S_, .f32⟩ : BufTy).Contents (Elt F) → (⟨S100000x128, .f32⟩ : BufTy).Contents (Elt F)),
    StableHlo.binary main_v144 main_v40 main_v145 (mulf : (⟨S100000x128, .f32⟩ : BufTy).Contents (Elt F) → (⟨S100000x128, .f32⟩ : BufTy).Contents (Elt F) → (⟨S100000x128, .f32⟩ : BufTy).Contents (Elt F)),
    StableHlo.binary main_v143 main_v145 main_v146 (addf : (⟨S100000x128, .f32⟩ : BufTy).Contents (Elt F) → (⟨S100000x128, .f32⟩ : BufTy).Contents (Elt F) → (⟨S100000x128, .f32⟩ : BufTy).Contents (Elt F)),
    StableHlo.nullary main_cst_34 (constant S_ .f32 0x00000000#32),
    StableHlo.unary main_cst_34 main_v147 (broadcastInDim S100000x128 ![] bcast_S_S100000x128 : (⟨S_, .f32⟩ : BufTy).Contents (Elt F) → (⟨S100000x128, .f32⟩ : BufTy).Contents (Elt F)),
    StableHlo.binary main_v147 main_v146 main_v148 (mulf : (⟨S100000x128, .f32⟩ : BufTy).Contents (Elt F) → (⟨S100000x128, .f32⟩ : BufTy).Contents (Elt F) → (⟨S100000x128, .f32⟩ : BufTy).Contents (Elt F)),
    StableHlo.binary main_v146 main_arg7 main_v149 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_35 (constant S_ .f32 0x3F800000#32),
    StableHlo.unary main_cst_35 main_v150 (broadcastInDim S100000x128 ![] bcast_S_S100000x128 : (⟨S_, .f32⟩ : BufTy).Contents (Elt F) → (⟨S100000x128, .f32⟩ : BufTy).Contents (Elt F)),
    StableHlo.binary main_v150 main_v149 main_v151 (mulf : (⟨S100000x128, .f32⟩ : BufTy).Contents (Elt F) → (⟨S100000x128, .f32⟩ : BufTy).Contents (Elt F) → (⟨S100000x128, .f32⟩ : BufTy).Contents (Elt F)),
    StableHlo.binary main_v148 main_v151 main_v152 (addf : (⟨S100000x128, .f32⟩ : BufTy).Contents (Elt F) → (⟨S100000x128, .f32⟩ : BufTy).Contents (Elt F) → (⟨S100000x128, .f32⟩ : BufTy).Contents (Elt F)),
    StableHlo.nullary main_cst_36 (constant S_ .f32 0x00000000#32),
    StableHlo.binary main_v152 main_cst_36 main_v153 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_37 (constant S_ .f32 0x47C35000#32),
    StableHlo.unary main_cst_37 main_v154 (broadcastInDim S128 ![] bcast_S_S128 : (⟨S_, .f32⟩ : BufTy).Contents (Elt F) → (⟨S128, .f32⟩ : BufTy).Contents (Elt F)),
    StableHlo.binary main_v153 main_v154 main_v155 (Host.divf : (⟨S128, .f32⟩ : BufTy).Contents (Elt F) → (⟨S128, .f32⟩ : BufTy).Contents (Elt F) → (⟨S128, .f32⟩ : BufTy).Contents (Elt F)),
    StableHlo.nullary main_c_38 (constantI S_ 32 0#32),
    StableHlo.TRef.nullary main_call5.cst (constant S_ .f32 0x00000000#32),
    StableHlo.TRef.binary (StableHlo.TRef.of main_v152 : StableHlo.TRef sig ⟨S100000x128, .f32⟩) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (StableHlo.TRef.of main_v152 : StableHlo.TRef sig ⟨S100000x128, .f32⟩) main_call5.v4 main_call5.v5 subf,
    StableHlo.TRef.binary main_call5.v5 main_call5.v5 main_call5.v6 mulf,
    StableHlo.TRef.unary (StableHlo.TRef.of main_c_38 : StableHlo.TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v155 main_v157 (broadcastInDim S1x128 ![1] bcast_S128_S1x128_1 : (⟨S128, .f32⟩ : BufTy).Contents (Elt F) → (⟨S1x128, .f32⟩ : BufTy).Contents (Elt F)),
    StableHlo.unary main_v157 main_v158 (broadcastInDim S100000x128 ![0, 1] bcast_S1x128_S100000x128_0_1 : (⟨S1x128, .f32⟩ : BufTy).Contents (Elt F) → (⟨S100000x128, .f32⟩ : BufTy).Contents (Elt F)),
    StableHlo.binary main_v152 main_v158 main_v159 (subf : (⟨S100000x128, .f32⟩ : BufTy).Contents (Elt F) → (⟨S100000x128, .f32⟩ : BufTy).Contents (Elt F) → (⟨S100000x128, .f32⟩ : BufTy).Contents (Elt F)),
    StableHlo.unary main_arg8 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S100000x128 ![0, 1] bcast_S1x128_S100000x128_0_1 : (⟨S1x128, .f32⟩ : BufTy).Contents (Elt F) → (⟨S100000x128, .f32⟩ : BufTy).Contents (Elt F)),
    StableHlo.binary main_v161 main_v159 main_v162 (mulf : (⟨S100000x128, .f32⟩ : BufTy).Contents (Elt F) → (⟨S100000x128, .f32⟩ : BufTy).Contents (Elt F) → (⟨S100000x128, .f32⟩ : BufTy).Contents (Elt F)),
    StableHlo.nullary main_cst_39 (constant S_ .f32 0x3727C5AC#32),
    StableHlo.unary main_cst_39 main_v163 (broadcastInDim S128 ![] bcast_S_S128 : (⟨S_, .f32⟩ : BufTy).Contents (Elt F) → (⟨S128, .f32⟩ : BufTy).Contents (Elt F)),
    StableHlo.binary main_v156 main_v163 main_v164 (addf : (⟨S128, .f32⟩ : BufTy).Contents (Elt F) → (⟨S128, .f32⟩ : BufTy).Contents (Elt F) → (⟨S128, .f32⟩ : BufTy).Contents (Elt F)),
    StableHlo.unary main_v164 main_v165 (Host.rsqrt : (⟨S128, .f32⟩ : BufTy).Contents (Elt F) → (⟨S128, .f32⟩ : BufTy).Contents (Elt F)),
    StableHlo.unary main_v165 main_v166 (broadcastInDim S1x128 ![1] bcast_S128_S1x128_1 : (⟨S128, .f32⟩ : BufTy).Contents (Elt F) → (⟨S1x128, .f32⟩ : BufTy).Contents (Elt F)),
    StableHlo.unary main_v166 main_v167 (broadcastInDim S100000x128 ![0, 1] bcast_S1x128_S100000x128_0_1 : (⟨S1x128, .f32⟩ : BufTy).Contents (Elt F) → (⟨S100000x128, .f32⟩ : BufTy).Contents (Elt F)),
    StableHlo.binary main_v162 main_v167 main_v168 (mulf : (⟨S100000x128, .f32⟩ : BufTy).Contents (Elt F) → (⟨S100000x128, .f32⟩ : BufTy).Contents (Elt F) → (⟨S100000x128, .f32⟩ : BufTy).Contents (Elt F)),
    StableHlo.unary main_arg9 main_v169 (broadcastInDim S1x128 ![1] bcast_S128_S1x128_1 : (⟨S128, .f32⟩ : BufTy).Contents (Elt F) → (⟨S1x128, .f32⟩ : BufTy).Contents (Elt F)),
    StableHlo.unary main_v169 main_v170 (broadcastInDim S100000x128 ![0, 1] bcast_S1x128_S100000x128_0_1 : (⟨S1x128, .f32⟩ : BufTy).Contents (Elt F) → (⟨S100000x128, .f32⟩ : BufTy).Contents (Elt F)),
    StableHlo.binary main_v168 main_v170 main_v171 (addf : (⟨S100000x128, .f32⟩ : BufTy).Contents (Elt F) → (⟨S100000x128, .f32⟩ : BufTy).Contents (Elt F) → (⟨S100000x128, .f32⟩ : BufTy).Contents (Elt F)),
    StableHlo.TRef.nullary main_call6.cst (constant S_ .f32 0x00000000#32),
    StableHlo.TRef.unary main_call6.cst main_call6.v0 (broadcastInDim S100000x128 ![] bcast_S_S100000x128),
    StableHlo.TRef.binary (StableHlo.TRef.of main_v171 : StableHlo.TRef sig ⟨S100000x128, .f32⟩) main_call6.v0 main_call6.v1 maximumf ]

/-- The output head. -/
abbrev opsH : List (HloOp τ sig (Elt F)) :=
  [ StableHlo.unary main_arg10 main_v173 ((transpose S128x64 [1, 0] · transposes_S64x128_S128x64_1_0) : (⟨S64x128, .f32⟩ : BufTy).Contents (Elt F) → (⟨S128x64, .f32⟩ : BufTy).Contents (Elt F)),
    StableHlo.binary main_v172 main_v173 main_v174 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg11 main_v175 (broadcastInDim S1x64 ![1] bcast_S64_S1x64_1 : (⟨S64, .f32⟩ : BufTy).Contents (Elt F) → (⟨S1x64, .f32⟩ : BufTy).Contents (Elt F)),
    StableHlo.unary main_v175 main_v176 (broadcastInDim S100000x64 ![0, 1] bcast_S1x64_S100000x64_0_1 : (⟨S1x64, .f32⟩ : BufTy).Contents (Elt F) → (⟨S100000x64, .f32⟩ : BufTy).Contents (Elt F)),
    StableHlo.binary main_v174 main_v176 main_v177 (addf : (⟨S100000x64, .f32⟩ : BufTy).Contents (Elt F) → (⟨S100000x64, .f32⟩ : BufTy).Contents (Elt F) → (⟨S100000x64, .f32⟩ : BufTy).Contents (Elt F)) ]

/-! ## What each piece leaves alone -/

theorem P_arg0 (V : Valuation τ sig (Elt F)) : after opsP V (main_arg0 : DevRef τ sig) = V (main_arg0 : DevRef τ sig) := by
  after_results_simp
theorem P_arg1 (V : Valuation τ sig (Elt F)) : after opsP V (main_arg1 : DevRef τ sig) = V (main_arg1 : DevRef τ sig) := by
  after_results_simp
theorem P_arg2 (V : Valuation τ sig (Elt F)) : after opsP V (main_arg2 : DevRef τ sig) = V (main_arg2 : DevRef τ sig) := by
  after_results_simp
theorem P_arg3 (V : Valuation τ sig (Elt F)) : after opsP V (main_arg3 : DevRef τ sig) = V (main_arg3 : DevRef τ sig) := by
  after_results_simp
theorem P_arg4 (V : Valuation τ sig (Elt F)) : after opsP V (main_arg4 : DevRef τ sig) = V (main_arg4 : DevRef τ sig) := by
  after_results_simp
theorem P_arg5 (V : Valuation τ sig (Elt F)) : after opsP V (main_arg5 : DevRef τ sig) = V (main_arg5 : DevRef τ sig) := by
  after_results_simp
theorem P_arg6 (V : Valuation τ sig (Elt F)) : after opsP V (main_arg6 : DevRef τ sig) = V (main_arg6 : DevRef τ sig) := by
  after_results_simp
theorem P_arg7 (V : Valuation τ sig (Elt F)) : after opsP V (main_arg7 : DevRef τ sig) = V (main_arg7 : DevRef τ sig) := by
  after_results_simp
theorem P_arg8 (V : Valuation τ sig (Elt F)) : after opsP V (main_arg8 : DevRef τ sig) = V (main_arg8 : DevRef τ sig) := by
  after_results_simp
theorem P_arg9 (V : Valuation τ sig (Elt F)) : after opsP V (main_arg9 : DevRef τ sig) = V (main_arg9 : DevRef τ sig) := by
  after_results_simp
theorem P_arg10 (V : Valuation τ sig (Elt F)) : after opsP V (main_arg10 : DevRef τ sig) = V (main_arg10 : DevRef τ sig) := by
  after_results_simp
theorem P_arg11 (V : Valuation τ sig (Elt F)) : after opsP V (main_arg11 : DevRef τ sig) = V (main_arg11 : DevRef τ sig) := by
  after_results_simp
theorem L1_v7 (V : Valuation τ sig (Elt F)) : after opsL1 V (main_v7 : DevRef τ sig) = V (main_v7 : DevRef τ sig) := by
  after_results_simp
theorem L1_v8 (V : Valuation τ sig (Elt F)) : after opsL1 V (main_v8 : DevRef τ sig) = V (main_v8 : DevRef τ sig) := by
  after_results_simp
theorem L1_v35 (V : Valuation τ sig (Elt F)) : after opsL1 V (main_v35 : DevRef τ sig) = V (main_v35 : DevRef τ sig) := by
  after_results_simp
theorem L1_v40 (V : Valuation τ sig (Elt F)) : after opsL1 V (main_v40 : DevRef τ sig) = V (main_v40 : DevRef τ sig) := by
  after_results_simp
theorem L1_arg0 (V : Valuation τ sig (Elt F)) : after opsL1 V (main_arg0 : DevRef τ sig) = V (main_arg0 : DevRef τ sig) := by
  after_results_simp
theorem L1_arg1 (V : Valuation τ sig (Elt F)) : after opsL1 V (main_arg1 : DevRef τ sig) = V (main_arg1 : DevRef τ sig) := by
  after_results_simp
theorem L1_arg2 (V : Valuation τ sig (Elt F)) : after opsL1 V (main_arg2 : DevRef τ sig) = V (main_arg2 : DevRef τ sig) := by
  after_results_simp
theorem L1_arg3 (V : Valuation τ sig (Elt F)) : after opsL1 V (main_arg3 : DevRef τ sig) = V (main_arg3 : DevRef τ sig) := by
  after_results_simp
theorem L1_arg4 (V : Valuation τ sig (Elt F)) : after opsL1 V (main_arg4 : DevRef τ sig) = V (main_arg4 : DevRef τ sig) := by
  after_results_simp
theorem L1_arg5 (V : Valuation τ sig (Elt F)) : after opsL1 V (main_arg5 : DevRef τ sig) = V (main_arg5 : DevRef τ sig) := by
  after_results_simp
theorem L1_arg6 (V : Valuation τ sig (Elt F)) : after opsL1 V (main_arg6 : DevRef τ sig) = V (main_arg6 : DevRef τ sig) := by
  after_results_simp
theorem L1_arg7 (V : Valuation τ sig (Elt F)) : after opsL1 V (main_arg7 : DevRef τ sig) = V (main_arg7 : DevRef τ sig) := by
  after_results_simp
theorem L1_arg8 (V : Valuation τ sig (Elt F)) : after opsL1 V (main_arg8 : DevRef τ sig) = V (main_arg8 : DevRef τ sig) := by
  after_results_simp
theorem L1_arg9 (V : Valuation τ sig (Elt F)) : after opsL1 V (main_arg9 : DevRef τ sig) = V (main_arg9 : DevRef τ sig) := by
  after_results_simp
theorem L1_arg10 (V : Valuation τ sig (Elt F)) : after opsL1 V (main_arg10 : DevRef τ sig) = V (main_arg10 : DevRef τ sig) := by
  after_results_simp
theorem L1_arg11 (V : Valuation τ sig (Elt F)) : after opsL1 V (main_arg11 : DevRef τ sig) = V (main_arg11 : DevRef τ sig) := by
  after_results_simp
theorem L2_v7 (V : Valuation τ sig (Elt F)) : after opsL2 V (main_v7 : DevRef τ sig) = V (main_v7 : DevRef τ sig) := by
  after_results_simp
theorem L2_v8 (V : Valuation τ sig (Elt F)) : after opsL2 V (main_v8 : DevRef τ sig) = V (main_v8 : DevRef τ sig) := by
  after_results_simp
theorem L2_v35 (V : Valuation τ sig (Elt F)) : after opsL2 V (main_v35 : DevRef τ sig) = V (main_v35 : DevRef τ sig) := by
  after_results_simp
theorem L2_v40 (V : Valuation τ sig (Elt F)) : after opsL2 V (main_v40 : DevRef τ sig) = V (main_v40 : DevRef τ sig) := by
  after_results_simp
theorem L2_arg0 (V : Valuation τ sig (Elt F)) : after opsL2 V (main_arg0 : DevRef τ sig) = V (main_arg0 : DevRef τ sig) := by
  after_results_simp
theorem L2_arg1 (V : Valuation τ sig (Elt F)) : after opsL2 V (main_arg1 : DevRef τ sig) = V (main_arg1 : DevRef τ sig) := by
  after_results_simp
theorem L2_arg2 (V : Valuation τ sig (Elt F)) : after opsL2 V (main_arg2 : DevRef τ sig) = V (main_arg2 : DevRef τ sig) := by
  after_results_simp
theorem L2_arg3 (V : Valuation τ sig (Elt F)) : after opsL2 V (main_arg3 : DevRef τ sig) = V (main_arg3 : DevRef τ sig) := by
  after_results_simp
theorem L2_arg4 (V : Valuation τ sig (Elt F)) : after opsL2 V (main_arg4 : DevRef τ sig) = V (main_arg4 : DevRef τ sig) := by
  after_results_simp
theorem L2_arg5 (V : Valuation τ sig (Elt F)) : after opsL2 V (main_arg5 : DevRef τ sig) = V (main_arg5 : DevRef τ sig) := by
  after_results_simp
theorem L2_arg6 (V : Valuation τ sig (Elt F)) : after opsL2 V (main_arg6 : DevRef τ sig) = V (main_arg6 : DevRef τ sig) := by
  after_results_simp
theorem L2_arg7 (V : Valuation τ sig (Elt F)) : after opsL2 V (main_arg7 : DevRef τ sig) = V (main_arg7 : DevRef τ sig) := by
  after_results_simp
theorem L2_arg8 (V : Valuation τ sig (Elt F)) : after opsL2 V (main_arg8 : DevRef τ sig) = V (main_arg8 : DevRef τ sig) := by
  after_results_simp
theorem L2_arg9 (V : Valuation τ sig (Elt F)) : after opsL2 V (main_arg9 : DevRef τ sig) = V (main_arg9 : DevRef τ sig) := by
  after_results_simp
theorem L2_arg10 (V : Valuation τ sig (Elt F)) : after opsL2 V (main_arg10 : DevRef τ sig) = V (main_arg10 : DevRef τ sig) := by
  after_results_simp
theorem L2_arg11 (V : Valuation τ sig (Elt F)) : after opsL2 V (main_arg11 : DevRef τ sig) = V (main_arg11 : DevRef τ sig) := by
  after_results_simp
theorem L3_arg0 (V : Valuation τ sig (Elt F)) : after opsL3 V (main_arg0 : DevRef τ sig) = V (main_arg0 : DevRef τ sig) := by
  after_results_simp
theorem L3_arg1 (V : Valuation τ sig (Elt F)) : after opsL3 V (main_arg1 : DevRef τ sig) = V (main_arg1 : DevRef τ sig) := by
  after_results_simp
theorem L3_arg2 (V : Valuation τ sig (Elt F)) : after opsL3 V (main_arg2 : DevRef τ sig) = V (main_arg2 : DevRef τ sig) := by
  after_results_simp
theorem L3_arg3 (V : Valuation τ sig (Elt F)) : after opsL3 V (main_arg3 : DevRef τ sig) = V (main_arg3 : DevRef τ sig) := by
  after_results_simp
theorem L3_arg4 (V : Valuation τ sig (Elt F)) : after opsL3 V (main_arg4 : DevRef τ sig) = V (main_arg4 : DevRef τ sig) := by
  after_results_simp
theorem L3_arg5 (V : Valuation τ sig (Elt F)) : after opsL3 V (main_arg5 : DevRef τ sig) = V (main_arg5 : DevRef τ sig) := by
  after_results_simp
theorem L3_arg6 (V : Valuation τ sig (Elt F)) : after opsL3 V (main_arg6 : DevRef τ sig) = V (main_arg6 : DevRef τ sig) := by
  after_results_simp
theorem L3_arg7 (V : Valuation τ sig (Elt F)) : after opsL3 V (main_arg7 : DevRef τ sig) = V (main_arg7 : DevRef τ sig) := by
  after_results_simp
theorem L3_arg8 (V : Valuation τ sig (Elt F)) : after opsL3 V (main_arg8 : DevRef τ sig) = V (main_arg8 : DevRef τ sig) := by
  after_results_simp
theorem L3_arg9 (V : Valuation τ sig (Elt F)) : after opsL3 V (main_arg9 : DevRef τ sig) = V (main_arg9 : DevRef τ sig) := by
  after_results_simp
theorem L3_arg10 (V : Valuation τ sig (Elt F)) : after opsL3 V (main_arg10 : DevRef τ sig) = V (main_arg10 : DevRef τ sig) := by
  after_results_simp
theorem L3_arg11 (V : Valuation τ sig (Elt F)) : after opsL3 V (main_arg11 : DevRef τ sig) = V (main_arg11 : DevRef τ sig) := by
  after_results_simp
theorem H_v172 (V : Valuation τ sig (Elt F)) : after opsH V (main_v172 : DevRef τ sig) = V (main_v172 : DevRef τ sig) := by
  after_results_simp
theorem H_arg0 (V : Valuation τ sig (Elt F)) : after opsH V (main_arg0 : DevRef τ sig) = V (main_arg0 : DevRef τ sig) := by
  after_results_simp
theorem H_arg1 (V : Valuation τ sig (Elt F)) : after opsH V (main_arg1 : DevRef τ sig) = V (main_arg1 : DevRef τ sig) := by
  after_results_simp
theorem H_arg2 (V : Valuation τ sig (Elt F)) : after opsH V (main_arg2 : DevRef τ sig) = V (main_arg2 : DevRef τ sig) := by
  after_results_simp
theorem H_arg3 (V : Valuation τ sig (Elt F)) : after opsH V (main_arg3 : DevRef τ sig) = V (main_arg3 : DevRef τ sig) := by
  after_results_simp
theorem H_arg4 (V : Valuation τ sig (Elt F)) : after opsH V (main_arg4 : DevRef τ sig) = V (main_arg4 : DevRef τ sig) := by
  after_results_simp
theorem H_arg5 (V : Valuation τ sig (Elt F)) : after opsH V (main_arg5 : DevRef τ sig) = V (main_arg5 : DevRef τ sig) := by
  after_results_simp
theorem H_arg6 (V : Valuation τ sig (Elt F)) : after opsH V (main_arg6 : DevRef τ sig) = V (main_arg6 : DevRef τ sig) := by
  after_results_simp
theorem H_arg7 (V : Valuation τ sig (Elt F)) : after opsH V (main_arg7 : DevRef τ sig) = V (main_arg7 : DevRef τ sig) := by
  after_results_simp
theorem H_arg8 (V : Valuation τ sig (Elt F)) : after opsH V (main_arg8 : DevRef τ sig) = V (main_arg8 : DevRef τ sig) := by
  after_results_simp
theorem H_arg9 (V : Valuation τ sig (Elt F)) : after opsH V (main_arg9 : DevRef τ sig) = V (main_arg9 : DevRef τ sig) := by
  after_results_simp
theorem H_arg10 (V : Valuation τ sig (Elt F)) : after opsH V (main_arg10 : DevRef τ sig) = V (main_arg10 : DevRef τ sig) := by
  after_results_simp
theorem H_arg11 (V : Valuation τ sig (Elt F)) : after opsH V (main_arg11 : DevRef τ sig) = V (main_arg11 : DevRef τ sig) := by
  after_results_simp

end Cert.ReferenceIdeal.RefRun

end
-- ==== Proof.RefRun.lean ====
/-
  The run of the plain array program for the three-layer graph convolution, and what its two result arrays hold when
  it has run. The program is a straight line of array operations once each outlined function (the select of the
  inverse-root degree, the column variance, the positive part) is written at its call site over that call's own
  arrays; the lists of those operations are tabulated beside this file. Every array is written by exactly one
  operation, so an array's final contents are its operation's function of its operands' final contents. Read back
  piece by piece — the edge normalisation and first affine layer, then each convolution layer from the contents the
  piece before it leaves, then the output head — the hidden features are the composition Cert.Gcn.netHId of the
  first ten arguments and the output is Cert.Gcn.netO of them and the last two, the arguments themselves untouched.
-/
import proofs.«171907_j55800215109855_1_alg».proof.Proof.RefRunTable
import proofs.«171907_j55800215109855_1_alg».proof.Proof.Terms
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo Cert.Gcn

variable {F : FTy → Type} [FloatOps F] [Facts]

open Facts₀ Facts

/-! ## The program is its list of operations -/

-- each window is one chain of steps once the outlined functions unfold at their calls and sequencing reassociates;
-- the rewrite under the chain recurses once per statement
set_option maxRecDepth 4096 in
theorem part0_eq (c : Dev nD) : main_part0 (F := F) c = seq part0ops := by
  simp only [main_part0, fn_where.body, seq, bind_assoc, pure_bind]
  rfl

set_option maxRecDepth 4096 in
theorem part1_eq (c : Dev nD) : main_part1 (F := F) c = seq part1ops := by
  simp only [main_part1, fn_where_0.body, fn_var.body, fn_relu.body, seq, bind_assoc, pure_bind]
  rfl

set_option maxRecDepth 4096 in
theorem part2_eq (c : Dev nD) : main_part2 (F := F) c = seq part2ops := by
  simp only [main_part2, fn_where_0.body, fn_var.body, fn_relu.body, seq, bind_assoc, pure_bind]
  rfl

set_option maxRecDepth 4096 in
theorem part3_eq (c : Dev nD) : main_part3 (F := F) c = seq part3ops := by
  simp only [main_part3, fn_where_0.body, fn_var.body, fn_relu.body, seq, bind_assoc, pure_bind]

/-- All the operations, in order. -/
abbrev ops : List (HloOp τ sig (Elt F)) := part0ops ++ (part1ops ++ (part2ops ++ part3ops))

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- What a concatenation leaves is what its second list leaves from what its first list leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The program runs its four windows in order, and a concatenation runs as its lists in order. -/
theorem main_eq (c : Dev nD) : main (F := F) c = seq ops := by
  simp only [main, seq_append, part0_eq, part1_eq, part2_eq, part3_eq]

theorem ops_sub : (ops : List (HloOp τ sig (Elt F))).Forall fun op => op.bufs ⊆ tcRefs τ sig :=
  forall_append part0_sub (forall_append part1_sub (forall_append part2_sub part3_sub))

theorem ops_fresh : ∀ op ∈ (ops : List (HloOp τ sig (Elt F))), op.fresh = ∅ :=
  List.forall_iff_forall_mem.mp
    (forall_append part0_fresh (forall_append part1_fresh (forall_append part2_fresh part3_fresh)))

theorem scopedRefs_eq : (Finset.univ.filter fun b : Ref sig .tc => b.isScoped) = ∅ := by decide
theorem scopedSems_eq : (Finset.univ.filter fun sm : SemLoc sig => sm.isScoped .tc) = ∅ := by decide

/-- The two cuts of the list are one list. -/
theorem ops_split : (ops : List (HloOp τ sig (Elt F))) = opsP ++ (opsL1 ++ (opsL2 ++ (opsL3 ++ opsH))) := rfl

/-! ## What each piece computes, from any contents

Each array read at the end of its piece is its operation's function of its operands, those read in turn, down to
arrays the piece does not write; the term reached is the named composition by unfolding the names. -/

theorem P_v7 (V : Valuation τ sig (Elt F)) :
    after opsP V (main_v7 : DevRef τ sig) = srcIdx (V (main_arg1 : DevRef τ sig)) := by
  after_results_simp <;> rfl

theorem P_v8 (V : Valuation τ sig (Elt F)) :
    after opsP V (main_v8 : DevRef τ sig) = dstIdx (V (main_arg1 : DevRef τ sig)) := by
  after_results_simp <;> rfl

theorem P_v35 (V : Valuation τ sig (Elt F)) :
    after opsP V (main_v35 : DevRef τ sig)
      = edgeNorm (srcIdx (V (main_arg1 : DevRef τ sig))) (dstIdx (V (main_arg1 : DevRef τ sig)))
          (edgeW (V (main_arg2 : DevRef τ sig))) := by
  after_results_simp <;> rfl

theorem P_v40 (V : Valuation τ sig (Elt F)) :
    after opsP V (main_v40 : DevRef τ sig)
      = net0 (V (main_arg0 : DevRef τ sig)) (V (main_arg3 : DevRef τ sig)) (V (main_arg4 : DevRef τ sig)) := by
  after_results_simp <;> rfl

/-- The first layer takes the first affine layer's output both as its input and as the blended-in array. -/
theorem L1_v84 (V : Valuation τ sig (Elt F)) :
    after opsL1 V (main_v84 : DevRef τ sig)
      = layerId (V (main_v7 : DevRef τ sig)) (V (main_v8 : DevRef τ sig)) (V (main_v35 : DevRef τ sig))
          (V (main_v40 : DevRef τ sig)) (V (main_v40 : DevRef τ sig))
          (V (main_arg5 : DevRef τ sig)) (V (main_arg8 : DevRef τ sig)) (V (main_arg9 : DevRef τ sig)) := by
  after_results_simp <;> rfl

theorem L2_v128 (V : Valuation τ sig (Elt F)) :
    after opsL2 V (main_v128 : DevRef τ sig)
      = layerId (V (main_v7 : DevRef τ sig)) (V (main_v8 : DevRef τ sig)) (V (main_v35 : DevRef τ sig))
          (V (main_v40 : DevRef τ sig)) (V (main_v84 : DevRef τ sig))
          (V (main_arg6 : DevRef τ sig)) (V (main_arg8 : DevRef τ sig)) (V (main_arg9 : DevRef τ sig)) := by
  after_results_simp <;> rfl

theorem L3_v172 (V : Valuation τ sig (Elt F)) :
    after opsL3 V (main_v172 : DevRef τ sig)
      = layerId (V (main_v7 : DevRef τ sig)) (V (main_v8 : DevRef τ sig)) (V (main_v35 : DevRef τ sig))
          (V (main_v40 : DevRef τ sig)) (V (main_v128 : DevRef τ sig))
          (V (main_arg7 : DevRef τ sig)) (V (main_arg8 : DevRef τ sig)) (V (main_arg9 : DevRef τ sig)) := by
  after_results_simp <;> rfl

theorem H_v177 (V : Valuation τ sig (Elt F)) :
    after opsH V (main_v177 : DevRef τ sig)
      = netO (V (main_v172 : DevRef τ sig)) (V (main_arg10 : DevRef τ sig)) (V (main_arg11 : DevRef τ sig)) := by
  after_results_simp <;> rfl

/-! ## The pieces composed

Before the output head: the third layer's result from what the second leaves, the second's from what the first
leaves, the first's from what the normalisation and first affine layer leave; the arrays a layer only reads pass
through the layers before it unchanged. -/

theorem pre_v172 (V : Valuation τ sig (Elt F)) :
    after opsL3 (after opsL2 (after opsL1 (after opsP V))) (main_v172 : DevRef τ sig)
      = netHId (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  rw [L3_v172, L2_v7, L2_v8, L2_v35, L2_v40, L2_v128, L2_arg7, L2_arg8, L2_arg9,
    L1_v7, L1_v8, L1_v35, L1_v40, L1_v84, L1_arg6, L1_arg7, L1_arg8, L1_arg9,
    P_v7, P_v8, P_v35, P_v40, P_arg5, P_arg6, P_arg7, P_arg8, P_arg9]
  rfl

theorem pre_arg0 (V : Valuation τ sig (Elt F)) :
    after opsL3 (after opsL2 (after opsL1 (after opsP V))) (main_arg0 : DevRef τ sig) = V (main_arg0 : DevRef τ sig) := by
  rw [L3_arg0, L2_arg0, L1_arg0, P_arg0]
theorem pre_arg1 (V : Valuation τ sig (Elt F)) :
    after opsL3 (after opsL2 (after opsL1 (after opsP V))) (main_arg1 : DevRef τ sig) = V (main_arg1 : DevRef τ sig) := by
  rw [L3_arg1, L2_arg1, L1_arg1, P_arg1]
theorem pre_arg2 (V : Valuation τ sig (Elt F)) :
    after opsL3 (after opsL2 (after opsL1 (after opsP V))) (main_arg2 : DevRef τ sig) = V (main_arg2 : DevRef τ sig) := by
  rw [L3_arg2, L2_arg2, L1_arg2, P_arg2]
theorem pre_arg3 (V : Valuation τ sig (Elt F)) :
    after opsL3 (after opsL2 (after opsL1 (after opsP V))) (main_arg3 : DevRef τ sig) = V (main_arg3 : DevRef τ sig) := by
  rw [L3_arg3, L2_arg3, L1_arg3, P_arg3]
theorem pre_arg4 (V : Valuation τ sig (Elt F)) :
    after opsL3 (after opsL2 (after opsL1 (after opsP V))) (main_arg4 : DevRef τ sig) = V (main_arg4 : DevRef τ sig) := by
  rw [L3_arg4, L2_arg4, L1_arg4, P_arg4]
theorem pre_arg5 (V : Valuation τ sig (Elt F)) :
    after opsL3 (after opsL2 (after opsL1 (after opsP V))) (main_arg5 : DevRef τ sig) = V (main_arg5 : DevRef τ sig) := by
  rw [L3_arg5, L2_arg5, L1_arg5, P_arg5]
theorem pre_arg6 (V : Valuation τ sig (Elt F)) :
    after opsL3 (after opsL2 (after opsL1 (after opsP V))) (main_arg6 : DevRef τ sig) = V (main_arg6 : DevRef τ sig) := by
  rw [L3_arg6, L2_arg6, L1_arg6, P_arg6]
theorem pre_arg7 (V : Valuation τ sig (Elt F)) :
    after opsL3 (after opsL2 (after opsL1 (after opsP V))) (main_arg7 : DevRef τ sig) = V (main_arg7 : DevRef τ sig) := by
  rw [L3_arg7, L2_arg7, L1_arg7, P_arg7]
theorem pre_arg8 (V : Valuation τ sig (Elt F)) :
    after opsL3 (after opsL2 (after opsL1 (after opsP V))) (main_arg8 : DevRef τ sig) = V (main_arg8 : DevRef τ sig) := by
  rw [L3_arg8, L2_arg8, L1_arg8, P_arg8]
theorem pre_arg9 (V : Valuation τ sig (Elt F)) :
    after opsL3 (after opsL2 (after opsL1 (after opsP V))) (main_arg9 : DevRef τ sig) = V (main_arg9 : DevRef τ sig) := by
  rw [L3_arg9, L2_arg9, L1_arg9, P_arg9]
theorem pre_arg10 (V : Valuation τ sig (Elt F)) :
    after opsL3 (after opsL2 (after opsL1 (after opsP V))) (main_arg10 : DevRef τ sig) = V (main_arg10 : DevRef τ sig) := by
  rw [L3_arg10, L2_arg10, L1_arg10, P_arg10]
theorem pre_arg11 (V : Valuation τ sig (Elt F)) :
    after opsL3 (after opsL2 (after opsL1 (after opsP V))) (main_arg11 : DevRef τ sig) = V (main_arg11 : DevRef τ sig) := by
  rw [L3_arg11, L2_arg11, L1_arg11, P_arg11]

/-- The hidden features: the output head does not write them. -/
theorem v172_eq (V : Valuation τ sig (Elt F)) :
    after ops V (main_v172 : DevRef τ sig)
      = netHId (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  rw [ops_split, after_append, after_append, after_append, after_append, H_v172, pre_v172]

/-- The output: the head applied to the hidden features and the last two arguments. -/
theorem v177_eq (V : Valuation τ sig (Elt F)) :
    after ops V (main_v177 : DevRef τ sig)
      = netO (netHId (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig))) (V (main_arg10 : DevRef τ sig)) (V (main_arg11 : DevRef τ sig)) := by
  rw [ops_split, after_append, after_append, after_append, after_append, H_v177, pre_v172, pre_arg10, pre_arg11]

theorem arg0_eq (V : Valuation τ sig (Elt F)) : after ops V (main_arg0 : DevRef τ sig) = V (main_arg0 : DevRef τ sig) := by
  rw [ops_split, after_append, after_append, after_append, after_append, H_arg0, pre_arg0]
theorem arg1_eq (V : Valuation τ sig (Elt F)) : after ops V (main_arg1 : DevRef τ sig) = V (main_arg1 : DevRef τ sig) := by
  rw [ops_split, after_append, after_append, after_append, after_append, H_arg1, pre_arg1]
theorem arg2_eq (V : Valuation τ sig (Elt F)) : after ops V (main_arg2 : DevRef τ sig) = V (main_arg2 : DevRef τ sig) := by
  rw [ops_split, after_append, after_append, after_append, after_append, H_arg2, pre_arg2]
theorem arg3_eq (V : Valuation τ sig (Elt F)) : after ops V (main_arg3 : DevRef τ sig) = V (main_arg3 : DevRef τ sig) := by
  rw [ops_split, after_append, after_append, after_append, after_append, H_arg3, pre_arg3]
theorem arg4_eq (V : Valuation τ sig (Elt F)) : after ops V (main_arg4 : DevRef τ sig) = V (main_arg4 : DevRef τ sig) := by
  rw [ops_split, after_append, after_append, after_append, after_append, H_arg4, pre_arg4]
theorem arg5_eq (V : Valuation τ sig (Elt F)) : after ops V (main_arg5 : DevRef τ sig) = V (main_arg5 : DevRef τ sig) := by
  rw [ops_split, after_append, after_append, after_append, after_append, H_arg5, pre_arg5]
theorem arg6_eq (V : Valuation τ sig (Elt F)) : after ops V (main_arg6 : DevRef τ sig) = V (main_arg6 : DevRef τ sig) := by
  rw [ops_split, after_append, after_append, after_append, after_append, H_arg6, pre_arg6]
theorem arg7_eq (V : Valuation τ sig (Elt F)) : after ops V (main_arg7 : DevRef τ sig) = V (main_arg7 : DevRef τ sig) := by
  rw [ops_split, after_append, after_append, after_append, after_append, H_arg7, pre_arg7]
theorem arg8_eq (V : Valuation τ sig (Elt F)) : after ops V (main_arg8 : DevRef τ sig) = V (main_arg8 : DevRef τ sig) := by
  rw [ops_split, after_append, after_append, after_append, after_append, H_arg8, pre_arg8]
theorem arg9_eq (V : Valuation τ sig (Elt F)) : after ops V (main_arg9 : DevRef τ sig) = V (main_arg9 : DevRef τ sig) := by
  rw [ops_split, after_append, after_append, after_append, after_append, H_arg9, pre_arg9]
theorem arg10_eq (V : Valuation τ sig (Elt F)) : after ops V (main_arg10 : DevRef τ sig) = V (main_arg10 : DevRef τ sig) := by
  rw [ops_split, after_append, after_append, after_append, after_append, H_arg10, pre_arg10]
theorem arg11_eq (V : Valuation τ sig (Elt F)) : after ops V (main_arg11 : DevRef τ sig) = V (main_arg11 : DevRef τ sig) := by
  rw [ops_split, after_append, after_append, after_append, after_append, H_arg11, pre_arg11]

/-! ## The run -/

/-- On every device, for any float values, from any memory with zero counters: every weakly fair execution of the
    program terminates with the hidden features and the output at these compositions of the twelve arguments, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v172)
        = netHId (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_v177)
        = netO (netHId (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9)))
            (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono
    (fun _ h c => ⟨(h c main_v172).trans (v172_eq _), (h c main_v177).trans (v177_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _),
      (h c main_arg9).trans (arg9_eq _), (h c main_arg10).trans (arg10_eq _), (h c main_arg11).trans (arg11_eq _)⟩)
    (run_seq scopedRefs_eq scopedSems_eq defs main (fun _ => ops) main_eq (fun _ => ops_sub) m ρ (fun _ => ops_fresh))

end Cert.ReferenceIdeal.RefRun

end
-- ==== Proof.lean ====
/-
  The certificate. The kernel is a three-layer graph convolution whose dense stages (the two linear maps, the blend and
  matrix product of each layer, the batch normalisation and rectification of each layer) are eight pipelined regions over
  5000-row blocks, with the edge normalisation, the three propagations and the batch statistics left to host operations;
  the reference is the same network in plain array operations. Read over the extended reals (a change of float format is
  the identity, a block matrix product into a zero accumulator and the whole product are one contraction sum):

  * each region's output array is, for any contents it is entered from, the whole-array host function of its input
    arrays — the linear map, the product of the blend, the normalise-and-rectify (three region modules);
  * the kernel program's run ends with its results at the last boundary's buffer contents, and walking those contents
    back through the 24 segments gives the hidden features as the three-layer network of the arguments and the output as
    the head applied to them (the run and the chain modules);
  * the reference's run ends with the same network in its own spelling, where each layer's product is 0 · m + 1 · (m · w)
    and the inverse root of the variance is taken before the vector is laid out as a row; 0 · m + 1 · y = y holds on every
    extended real (zero times anything is zero there), and pointwise operations commute with the re-layout, so the two
    spellings are one function;
  * both programs were given agreeing arguments, so the two results agree.

  The frames are the generated ones for the two kernel programs and the reference's run with its results dropped; the
  idealization rewrote no operation, so there is nothing to preserve.
-/
import proofs.«171907_j55800215109855_1_alg».proof.Defs
import proofs.«171907_j55800215109855_1_alg».proof.Proof.Gen.Kernel
import proofs.«171907_j55800215109855_1_alg».proof.Proof.Gen.Kernel.Skeleton
import proofs.«171907_j55800215109855_1_alg».proof.Proof.Gen.Kernel.Launch
import proofs.«171907_j55800215109855_1_alg».proof.Proof.Gen.Kernel.Points
import proofs.«171907_j55800215109855_1_alg».proof.Proof.Gen.Kernel.Frame
import proofs.«171907_j55800215109855_1_alg».proof.Proof.Gen.KernelIdeal
import proofs.«171907_j55800215109855_1_alg».proof.Proof.Gen.KernelIdeal.Skeleton
import proofs.«171907_j55800215109855_1_alg».proof.Proof.Gen.KernelIdeal.Launch
import proofs.«171907_j55800215109855_1_alg».proof.Proof.Gen.KernelIdeal.Points
import proofs.«171907_j55800215109855_1_alg».proof.Proof.Gen.KernelIdeal.Frame
import proofs.«171907_j55800215109855_1_alg».proof.Proof.Gen.ReferenceIdeal
import proofs.«171907_j55800215109855_1_alg».proof.Proof.Gen.Pre_finite_inputs
import proofs.«171907_j55800215109855_1_alg».proof.Proof.KernelRun
import proofs.«171907_j55800215109855_1_alg».proof.Proof.KernelChain
import proofs.«171907_j55800215109855_1_alg».proof.Proof.RegionLin
import proofs.«171907_j55800215109855_1_alg».proof.Proof.RegionComb
import proofs.«171907_j55800215109855_1_alg».proof.Proof.RegionCombTwins
import proofs.«171907_j55800215109855_1_alg».proof.Proof.RegionBn
import proofs.«171907_j55800215109855_1_alg».proof.Proof.RegionBnTwins
import proofs.«171907_j55800215109855_1_alg».proof.Proof.NetEq
import proofs.«171907_j55800215109855_1_alg».proof.Proof.RefRun
import Idealize.ShloMosaic.Adequacy
import Idealize.ShloMosaic.Init

noncomputable section

namespace Cert.Proof

open Idealize.ShloMosaic Idealize.ShloMosaic.TcCoe Idealize.SL.Sem

/-- Every region's output as the host function of its inputs, and the two reshapes of a vector into a one-row matrix. -/
theorem regionValues : Cert.KernelIdeal.KChain.RegionValues :=
  ⟨Cert.KernelIdeal.RegVal.final0, Cert.KernelIdeal.RegVal.final1, Cert.KernelIdeal.RegVal.final2, Cert.KernelIdeal.RegVal.final3,
   Cert.KernelIdeal.RegVal.final4, Cert.KernelIdeal.RegVal.final5, Cert.KernelIdeal.RegVal.final6, Cert.KernelIdeal.RegVal.final7,
   Cert.Gcn.reshape_eq_asRow', Cert.Gcn.reshape64_eq⟩

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- The idealization rewrote nothing. -/
theorem preserves : Cert.preserves_Kernel_KernelIdeal := trivial

/-- Both programs end with the three-layer network of their (agreeing) arguments and its output head. -/
theorem algebraic : Cert.algebraic_KernelIdeal_ReferenceIdeal := by
  intro m ρ m' ρ' _ hagree
  refine ⟨fun c => Cert.Gcn.netH (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.Gcn.netO (F := Ideal) (Cert.Gcn.netH (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KChain.hidden m ρ c regionValues),
        (h c).2.1.trans (Cert.KernelIdeal.KChain.output m ρ c regionValues), (h c).2.2⟩)
      (Cert.KernelIdeal.KVal.run_vals (F := Ideal) m ρ)
  · refine (θ_run Cert.ReferenceIdeal.defs _ _).mono (fun r h c => ⟨(h c).1.trans ?_, (h c).2.1.trans ?_, (h c).2.2⟩)
      (Cert.ReferenceIdeal.RefRun.run (F := Ideal) m' ρ')
    · obtain ⟨e0, e1, e2, e3, e4, e5, e6, e7, e8, e9, e10, e11⟩ := hagree c
      rw [e0, e1, e2, e3, e4, e5, e6, e7, e8, e9]
      exact Cert.Gcn.netHId_eq _ _ _ _ _ _ _ _ _ _
    · obtain ⟨e0, e1, e2, e3, e4, e5, e6, e7, e8, e9, e10, e11⟩ := hagree c
      rw [e0, e1, e2, e3, e4, e5, e6, e7, e8, e9, e10, e11, Cert.Gcn.netHId_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
